-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S100000x16 : Shape := ⟨2, ![100000, 16]⟩
abbrev S100000x64 : Shape := ⟨2, ![100000, 64]⟩
abbrev S33x64 : Shape := ⟨2, ![33, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S33x64 : S_.BroadcastsInDim S33x64 (![] : Fin 0 → Fin S33x64.rank)
  reducesTo_S33x64_S_d0_1 : S33x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : IVec S4096 32) (main_arg1 : IVec S4096 32) (main_arg2 : IVec S100000x16 32) (main_arg3 : IVec S100000x16 32) (main_arg4 : FVec F S100000x64 .f32) (main_arg5 : FVec F S100000x64 .f32) (main_arg6 : FVec F S33x64 .f32) (main_arg7 : FVec F S64x64 .f32) (main_arg8 : FVec F S64 .f32) (main_arg9 : FVec F S64x64 .f32) (main_arg10 : FVec F S64 .f32) : IVec S_ 1 :=
  let main_v0 : FVec F S100000x64 .f32 := Host.absf main_arg4
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg5
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S33x64 .f32 := Host.absf main_arg6
  let main_cst_2 : FVec F S_ .f32 := constant S_ .f32 0x7F800000#32
  let main_v10 : FVec F S33x64 .f32 := broadcastInDim S33x64 ![] bcast_S_S33x64 main_cst_2
  let main_v11 : IVec S33x64 1 := cmpf .olt main_v9 main_v10
  let main_c_3 : IVec S_ 1 := constantI S_ 1 1#1
  let main_v12 : IVec S_ 1 := (fun x v => Host.reduce IntOp.andi x v reducesTo_S33x64_S_d0_1 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_arg9 main_arg10 main_v13 main_v16
-- ==== Kernel.lean ====
abbrev S4096 : Shape := ⟨1, ![4096]⟩
abbrev S100000x16 : Shape := ⟨2, ![100000, 16]⟩
abbrev S100000x64 : Shape := ⟨2, ![100000, 64]⟩
abbrev S33x64 : Shape := ⟨2, ![33, 64]⟩
abbrev S64x64 : Shape := ⟨2, ![64, 64]⟩
abbrev S64 : Shape := ⟨1, ![64]⟩
abbrev S_ : Shape := ⟨0, ![]⟩
abbrev S4096x1 : Shape := ⟨2, ![4096, 1]⟩
abbrev S4096x16 : Shape := ⟨2, ![4096, 16]⟩
abbrev S65536 : Shape := ⟨1, ![65536]⟩
abbrev S65536x1 : Shape := ⟨2, ![65536, 1]⟩
abbrev S65536x16 : Shape := ⟨2, ![65536, 16]⟩
abbrev S4096x256 : Shape := ⟨2, ![4096, 256]⟩
abbrev S4096x64 : Shape := ⟨2, ![4096, 64]⟩
abbrev S4096x1x64 : Shape := ⟨3, ![4096, 1, 64]⟩
abbrev S65536x64 : Shape := ⟨2, ![65536, 64]⟩
abbrev S4096x16x64 : Shape := ⟨3, ![4096, 16, 64]⟩
abbrev S1048576 : Shape := ⟨1, ![1048576]⟩
abbrev S1048576x1 : Shape := ⟨2, ![1048576, 1]⟩
abbrev S1048576x64 : Shape := ⟨2, ![1048576, 64]⟩
abbrev S4096x256x64 : Shape := ⟨3, ![4096, 256, 64]⟩
abbrev S4096x1x16x64 : Shape := ⟨4, ![4096, 1, 16, 64]⟩
abbrev S4096x16x16x64 : Shape := ⟨4, ![4096, 16, 16, 64]⟩
abbrev S1x64 : Shape := ⟨2, ![1, 64]⟩
abbrev S512x1x64 : Shape := ⟨3, ![512, 1, 64]⟩
abbrev S512x1x16x64 : Shape := ⟨4, ![512, 1, 16, 64]⟩
abbrev S512x64 : Shape := ⟨2, ![512, 64]⟩
abbrev S512x1x1x64 : Shape := ⟨4, ![512, 1, 1, 64]⟩
abbrev S512x1x16 : Shape := ⟨3, ![512, 1, 16]⟩
abbrev S512x16 : Shape := ⟨2, ![512, 16]⟩
abbrev S512 : Shape := ⟨1, ![512]⟩
abbrev S512x1 : Shape := ⟨2, ![512, 1]⟩
abbrev S512x1x16x1 : Shape := ⟨4, ![512, 1, 16, 1]⟩
abbrev S64x16x64 : Shape := ⟨3, ![64, 16, 64]⟩
abbrev S64x16x16x64 : Shape := ⟨4, ![64, 16, 16, 64]⟩
abbrev S64x1x1x64 : Shape := ⟨4, ![64, 1, 1, 64]⟩
abbrev S64x16x16 : Shape := ⟨3, ![64, 16, 16]⟩
abbrev S1024x16 : Shape := ⟨2, ![1024, 16]⟩
abbrev S1024 : Shape := ⟨1, ![1024]⟩
abbrev S1024x1 : Shape := ⟨2, ![1024, 1]⟩
abbrev S64x16x16x1 : Shape := ⟨4, ![64, 16, 16, 1]⟩
abbrev S1024x64 : Shape := ⟨2, ![1024, 64]⟩

abbrev nBuf : Space → Nat
  | .hbm => 124
  | .vmem => 36
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S100000x16, .i32⟩
  | .hbm, ⟨3, _⟩ => ⟨S100000x16, .i32⟩
  | .hbm, ⟨4, _⟩ => ⟨S100000x64, .f32⟩
  | .hbm, ⟨5, _⟩ => ⟨S100000x64, .f32⟩
  | .hbm, ⟨6, _⟩ => ⟨S33x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096x16, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x16, .i32⟩
  | .hbm, ⟨29, _⟩ => ⟨S65536, .i32⟩
  | .hbm, ⟨30, _⟩ => ⟨S_, .i32⟩
  | .hbm, ⟨31, _⟩ => ⟨S65536, .i32⟩
  | .hbm, ⟨32, _⟩ => ⟨S65536, .i1⟩
  | .hbm, ⟨33, _⟩ => ⟨S_, .i32⟩
  | .hbm, ⟨34, _⟩ => ⟨S65536, .i32⟩
  | .hbm, ⟨35, _⟩ => ⟨S65536, .i32⟩
  | .hbm, ⟨36, _⟩ => ⟨S65536, .i32⟩
  | .hbm, ⟨37, _⟩ => ⟨S65536x1, .i32⟩
  | .hbm, ⟨38, _⟩ => ⟨S65536x16, .i32⟩
  | .hbm, ⟨39, _⟩ => ⟨S4096x256, .i32⟩
  | .hbm, ⟨40, _⟩ => ⟨S_, .i32⟩
  | .hbm, ⟨41, _⟩ => ⟨S65536, .i32⟩
  | .hbm, ⟨42, _⟩ => ⟨S65536, .i1⟩
  | .hbm, ⟨43, _⟩ => ⟨S_, .i32⟩
  | .hbm, ⟨44, _⟩ => ⟨S65536, .i32⟩
  | .hbm, ⟨45, _⟩ => ⟨S65536, .i32⟩
  | .hbm, ⟨46, _⟩ => ⟨S65536, .i32⟩
  | .hbm, ⟨47, _⟩ => ⟨S65536x1, .i32⟩
  | .hbm, ⟨48, _⟩ => ⟨S65536x16, .i32⟩
  | .hbm, ⟨49, _⟩ => ⟨S4096x256, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x64, .f32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096x1, .i32⟩
  | .hbm, ⟨67, _⟩ => ⟨S4096x64, .f32⟩
  | .hbm, ⟨68, _⟩ => ⟨S4096x1x64, .f32⟩
  | .hbm, ⟨69, _⟩ => ⟨S_, .i32⟩
  | .hbm, ⟨70, _⟩ => ⟨S65536, .i32⟩
  | .hbm, ⟨71, _⟩ => ⟨S65536, .i1⟩
  | .hbm, ⟨72, _⟩ => ⟨S_, .i32⟩
  | .hbm, ⟨73, _⟩ => ⟨S65536, .i32⟩
  | .hbm, ⟨74, _⟩ => ⟨S65536, .i32⟩
  | .hbm, ⟨75, _⟩ => ⟨S65536, .i32⟩
  | .hbm, ⟨76, _⟩ => ⟨S65536x1, .i32⟩
  | .hbm, ⟨77, _⟩ => ⟨S65536x64, .f32⟩
  | .hbm, ⟨78, _⟩ => ⟨S4096x16x64, .f32⟩
  | .hbm, ⟨79, _⟩ => ⟨S1048576, .i32⟩
  | .hbm, ⟨80, _⟩ => ⟨S_, .i32⟩
  | .hbm, ⟨81, _⟩ => ⟨S1048576, .i32⟩
  | .hbm, ⟨82, _⟩ => ⟨S1048576, .i1⟩
  | .hbm, ⟨83, _⟩ => ⟨S_, .i32⟩
  | .hbm, ⟨84, _⟩ => ⟨S1048576, .i32⟩
  | .hbm, ⟨85, _⟩ => ⟨S1048576, .i32⟩
  | .hbm, ⟨86, _⟩ => ⟨S1048576, .i32⟩
  | .hbm, ⟨87, _⟩ => ⟨S1048576x1, .i32⟩
  | .hbm, ⟨88, _⟩ => ⟨S1048576x64, .f32⟩
  | .hbm, ⟨89, _⟩ => ⟨S4096x256x64, .f32⟩
  | .hbm, ⟨90, _⟩ => ⟨S65536, .i32⟩
  | .hbm, ⟨91, _⟩ => ⟨S_, .i32⟩
  | .hbm, ⟨92, _⟩ => ⟨S65536, .i32⟩
  | .hbm, ⟨93, _⟩ => ⟨S65536, .i1⟩
  | .hbm, ⟨94, _⟩ => ⟨S_, .i32⟩
  | .hbm, ⟨95, _⟩ => ⟨S65536, .i32⟩
  | .hbm, ⟨96, _⟩ => ⟨S65536, .i32⟩
  | .hbm, ⟨97, _⟩ => ⟨S65536, .i32⟩
  | .hbm, ⟨98, _⟩ => ⟨S65536x1, .i32⟩
  | .hbm, ⟨99, _⟩ => ⟨S65536x64, .f32⟩
  | .hbm, ⟨100, _⟩ => ⟨S4096x16x64, .f32⟩
  | .hbm, ⟨101, _⟩ => ⟨S1048576, .i32⟩
  | .hbm, ⟨102, _⟩ => ⟨S_, .i32⟩
  | .hbm, ⟨103, _⟩ => ⟨S1048576, .i32⟩
  | .hbm, ⟨104, _⟩ => ⟨S1048576, .i1⟩
  | .hbm, ⟨105, _⟩ => ⟨S_, .i32⟩
  | .hbm, ⟨106, _⟩ => ⟨S1048576, .i32⟩
  | .hbm, ⟨107, _⟩ => ⟨S1048576, .i32⟩
  | .hbm, ⟨108, _⟩ => ⟨S1048576, .i32⟩
  | .hbm, ⟨109, _⟩ => ⟨S1048576x1, .i32⟩
  | .hbm, ⟨110, _⟩ => ⟨S1048576x64, .f32⟩
  | .hbm, ⟨111, _⟩ => ⟨S4096x256x64, .f32⟩
  | .hbm, ⟨112, _⟩ => ⟨S4096x1x16x64, .f32⟩
  | .hbm, ⟨113, _⟩ => ⟨S4096x1x16x64, .f32⟩
  | .hbm, ⟨114, _⟩ => ⟨S4096x16x16x64, .f32⟩
  | .hbm, ⟨115, _⟩ => ⟨S4096x16x16x64, .f32⟩
  | .hbm, ⟨116, _⟩ => ⟨S64x64, .f32⟩
  | .hbm, ⟨117, _⟩ => ⟨S64x64, .f32⟩
  | .hbm, ⟨118, _⟩ => ⟨S1x64, .f32⟩
  | .hbm, ⟨119, _⟩ => ⟨S1x64, .f32⟩
  | .hbm, ⟨120, _⟩ => ⟨S4096x1x64, .f32⟩
  | .hbm, ⟨121, _⟩ => ⟨S4096x16x64, .f32⟩
  | .hbm, ⟨122, _⟩ => ⟨S4096x1x16x64, .f32⟩
  | .hbm, ⟨123, _⟩ => ⟨S4096, .f32⟩
  | .local _ .vmem, ⟨0, _⟩ => ⟨S512x1x64, .f32⟩
  | .local _ .vmem, ⟨1, _⟩ => ⟨S512x1x64, .f32⟩
  | .local _ .vmem, ⟨2, _⟩ => ⟨S512x1x16x64, .f32⟩
  | .local _ .vmem, ⟨3, _⟩ => ⟨S512x1x16x64, .f32⟩
  | .local _ .vmem, ⟨4, _⟩ => ⟨S512x1x16x64, .f32⟩
  | .local _ .vmem, ⟨5, _⟩ => ⟨S512x1x16x64, .f32⟩
  | .local _ .vmem, ⟨6, _⟩ => ⟨S512x64, .f32⟩
  | .local _ .vmem, ⟨7, _⟩ => ⟨S512x64, .f32⟩
  | .local _ .vmem, ⟨8, _⟩ => ⟨S64x64, .f32⟩
  | .local _ .vmem, ⟨9, _⟩ => ⟨S1x64, .f32⟩
  | .local _ .vmem, ⟨10, _⟩ => ⟨S512x1x64, .f32⟩
  | .local _ .vmem, ⟨11, _⟩ => ⟨S512x1x64, .f32⟩
  | .local _ .vmem, ⟨12, _⟩ => ⟨S64x16x64, .f32⟩
  | .local _ .vmem, ⟨13, _⟩ => ⟨S64x16x64, .f32⟩
  | .local _ .vmem, ⟨14, _⟩ => ⟨S64x16x16x64, .f32⟩
  | .local _ .vmem, ⟨15, _⟩ => ⟨S64x16x16x64, .f32⟩
  | .local _ .vmem, ⟨16, _⟩ => ⟨S64x16x16x64, .f32⟩
  | .local _ .vmem, ⟨17, _⟩ => ⟨S64x16x16x64, .f32⟩
  | .local _ .vmem, ⟨18, _⟩ => ⟨S64x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S64x16x64, .f32⟩
  | .local _ .vmem, ⟨23, _⟩ => ⟨S64x16x64, .f32⟩
  | .local _ .vmem, ⟨24, _⟩ => ⟨S512x1x64, .f32⟩
  | .local _ .vmem, ⟨25, _⟩ => ⟨S512x1x64, .f32⟩
  | .local _ .vmem, ⟨26, _⟩ => ⟨S512x1x16x64, .f32⟩
  | .local _ .vmem, ⟨27, _⟩ => ⟨S512x1x16x64, .f32⟩
  | .local _ .vmem, ⟨28, _⟩ => ⟨S512x1x16x64, .f32⟩
  | .local _ .vmem, ⟨29, _⟩ => ⟨S512x1x16x64, .f32⟩
  | .local _ .vmem, ⟨30, _⟩ => ⟨S512x64, .f32⟩
  | .local _ .vmem, ⟨31, _⟩ => ⟨S512x64, .f32⟩
  | .local _ .vmem, ⟨32, _⟩ => ⟨S64x64, .f32⟩
  | .local _ .vmem, ⟨33, _⟩ => ⟨S1x64, .f32⟩
  | .local _ .vmem, ⟨34, _⟩ => ⟨S512, .f32⟩
  | .local _ .vmem, ⟨35, _⟩ => ⟨S512, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_c_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_c_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x16x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x16x16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S64x16x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S512x1x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1x16x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1x16x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x16_S65536 : S4096x16.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x16_S4096x256 : S65536x16.ShapeCasts S4096x256
  bcast_S4096x64_S4096x1x64_0_2 : S4096x64.BroadcastsInDim S4096x1x64 (![0, 2] : Fin 2 → Fin S4096x1x64.rank)
  shapeCasts_S65536x64_S4096x16x64 : S65536x64.ShapeCasts S4096x16x64
  shapeCasts_S4096x256_S1048576 : S4096x256.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S1048576x64_S4096x256x64 : S1048576x64.ShapeCasts S4096x256x64
  shapeCasts_S4096x16x64_S4096x1x16x64 : S4096x16x64.ShapeCasts S4096x1x16x64
  shapeCasts_S4096x256x64_S4096x16x16x64 : S4096x256x64.ShapeCasts S4096x16x16x64
  transposes_S64x64_S64x64_1_0 : S64x64.Transposes [1, 0] S64x64
  shapeCasts_S64_S1x64 : S64.ShapeCasts S1x64
  inb_S512x1x64_S512x1x64_0_0_0 : ∀ a, (![0, 0, 0] : Fin 3 → Nat) a + S512x1x64.size a ≤ S512x1x64.size a
  h_S512x1x64 : 0 < S512x1x64.numel
  shapeCasts_S512x1x64_S512x1x64 : S512x1x64.ShapeCasts S512x1x64
  inb_S512x1x16x64_S512x1x16x64_0_0_0_0 : ∀ a, (![0, 0, 0, 0] : Fin 4 → Nat) a + S512x1x16x64.size a ≤ S512x1x16x64.size a
  h_S512x1x16x64 : 0 < S512x1x16x64.numel
  shapeCasts_S512x1x16x64_S512x1x16x64 : S512x1x16x64.ShapeCasts S512x1x16x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S512x64_S512x1x1x64 : S512x64.ShapeCasts S512x1x1x64
  broadcasts_S512x1x1x64_S512x1x16x64 : S512x1x1x64.Broadcasts S512x1x16x64
  reduces_S512x1x16x64_S512x1x16 : S512x1x16x64.Reduces [3] S512x1x16
  shapeCasts_S512x1x16_S512x16 : S512x1x16.ShapeCasts S512x16
  reduces_S512x16_S512 : S512x16.Reduces [1] S512
  shapeCasts_S512_S512x1 : S512.ShapeCasts S512x1
  broadcasts_S512x1_S512x16 : S512x1.Broadcasts S512x16
  shapeCasts_S512x16_S512x1x16x1 : S512x16.ShapeCasts S512x1x16x1
  broadcasts_S512x1x16x1_S512x1x16x64 : S512x1x16x1.Broadcasts S512x1x16x64
  reduces_S512x1x16x64_S512x1x64 : S512x1x16x64.Reduces [2] S512x1x64
  shapeCasts_S512x1x64_S512x64 : S512x1x64.ShapeCasts S512x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  shapeCasts_S512x64_S512x1x64 : S512x64.ShapeCasts S512x1x64
  inb_S64x16x64_S64x16x64_0_0_0 : ∀ a, (![0, 0, 0] : Fin 3 → Nat) a + S64x16x64.size a ≤ S64x16x64.size a
  h_S64x16x64 : 0 < S64x16x64.numel
  shapeCasts_S64x16x64_S64x16x64 : S64x16x64.ShapeCasts S64x16x64
  inb_S64x16x16x64_S64x16x16x64_0_0_0_0 : ∀ a, (![0, 0, 0, 0] : Fin 4 → Nat) a + S64x16x16x64.size a ≤ S64x16x16x64.size a
  h_S64x16x16x64 : 0 < S64x16x16x64.numel
  shapeCasts_S64x16x16x64_S64x16x16x64 : S64x16x16x64.ShapeCasts S64x16x16x64
  shapeCasts_S64x64_S64x1x1x64 : S64x64.ShapeCasts S64x1x1x64
  broadcasts_S64x1x1x64_S64x16x16x64 : S64x1x1x64.Broadcasts S64x16x16x64
  reduces_S64x16x16x64_S64x16x16 : S64x16x16x64.Reduces [3] S64x16x16
  shapeCasts_S64x16x16_S1024x16 : S64x16x16.ShapeCasts S1024x16
  reduces_S1024x16_S1024 : S1024x16.Reduces [1] S1024
  shapeCasts_S1024_S1024x1 : S1024.ShapeCasts S1024x1
  broadcasts_S1024x1_S1024x16 : S1024x1.Broadcasts S1024x16
  shapeCasts_S1024x16_S64x16x16x1 : S1024x16.ShapeCasts S64x16x16x1
  broadcasts_S64x16x16x1_S64x16x16x64 : S64x16x16x1.Broadcasts S64x16x16x64
  reduces_S64x16x16x64_S64x16x64 : S64x16x16x64.Reduces [2] S64x16x64
  shapeCasts_S64x16x64_S1024x64 : S64x16x64.ShapeCasts S1024x64
  broadcasts_S1x64_S1024x64 : S1x64.Broadcasts S1024x64
  shapeCasts_S1024x64_S64x16x64 : S1024x64.ShapeCasts S64x16x64
  reduces_S512x64_S512 : S512x64.Reduces [1] S512
  inb_S512_S512_0 : ∀ a, (![0] : Fin 1 → Nat) a + S512.size a ≤ S512.size a
  h_S512 : 0 < S512.numel
  gather_S100000x16_S4096x1_S4096x16_1_0_n_n_0_1_116_wf : GatherDims.WF S100000x16 S4096x1 S4096x16 [1] [0] [] [0] [] 1 ![1, 16]
  gather_S100000x16_S65536x1_S65536x16_1_0_n_n_0_1_116_wf : GatherDims.WF S100000x16 S65536x1 S65536x16 [1] [0] [] [0] [] 1 ![1, 16]
  gather_S100000x64_S4096x1_S4096x64_1_0_n_n_0_1_164_wf : GatherDims.WF S100000x64 S4096x1 S4096x64 [1] [0] [] [0] [] 1 ![1, 64]
  gather_S100000x64_S65536x1_S65536x64_1_0_n_n_0_1_164_wf : GatherDims.WF S100000x64 S65536x1 S65536x64 [1] [0] [] [0] [] 1 ![1, 64]
  gather_S100000x64_S1048576x1_S1048576x64_1_0_n_n_0_1_164_wf : GatherDims.WF S100000x64 S1048576x1 S1048576x64 [1] [0] [] [0] [] 1 ![1, 64]
  gather_S33x64_S65536x1_S65536x64_1_0_n_n_0_1_164_wf : GatherDims.WF S33x64 S65536x1 S65536x64 [1] [0] [] [0] [] 1 ![1, 64]
  gather_S33x64_S1048576x1_S1048576x64_1_0_n_n_0_1_164_wf : GatherDims.WF S33x64 S1048576x1 S1048576x64 [1] [0] [] [0] [] 1 ![1, 64]
  dot_S512x64_S64x64_S512x64_1_0_0_1_n_n_wf : DotDims.WF S512x64 S64x64 S512x64 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1x64.size a ≤ S4096x1x64.size a
  hwx0_0 : ∀ i : grid0.Coords, EltTy.bits .f32 = 32 ∨ (Rect.block (s := S4096x1x64) S512x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1x16x64.size a ≤ S4096x1x16x64.size a
  hwx0_1 : ∀ i : grid0.Coords, EltTy.bits .f32 = 32 ∨ (Rect.block (s := S4096x1x16x64) S512x1x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1x16x64.size a ≤ S4096x1x16x64.size a
  hwx0_2 : ∀ i : grid0.Coords, EltTy.bits .f32 = 32 ∨ (Rect.block (s := S4096x1x16x64) S512x1x16x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S4096x64.size a
  hwx0_3 : ∀ i : grid0.Coords, EltTy.bits .f32 = 32 ∨ (Rect.block (s := S4096x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1x64.size a ≤ S4096x1x64.size a
  hwx0_6 : ∀ i : grid0.Coords, EltTy.bits .f32 = 32 ∨ (Rect.block (s := S4096x1x64) S512x1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x16x64.size a ≤ S4096x16x64.size a
  hwx1_0 : ∀ i : grid1.Coords, EltTy.bits .f32 = 32 ∨ (Rect.block (s := S4096x16x64) S64x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x16x16x64.size a ≤ S4096x16x16x64.size a
  hwx1_1 : ∀ i : grid1.Coords, EltTy.bits .f32 = 32 ∨ (Rect.block (s := S4096x16x16x64) S64x16x16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x16x16x64.size a ≤ S4096x16x16x64.size a
  hwx1_2 : ∀ i : grid1.Coords, EltTy.bits .f32 = 32 ∨ (Rect.block (s := S4096x16x16x64) S64x16x16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S4096x64.size a
  hwx1_3 : ∀ i : grid1.Coords, EltTy.bits .f32 = 32 ∨ (Rect.block (s := S4096x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x16x64.size a ≤ S4096x16x64.size a
  hwx1_6 : ∀ i : grid1.Coords, EltTy.bits .f32 = 32 ∨ (Rect.block (s := S4096x16x64) S64x16x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1x64.size a ≤ S4096x1x64.size a
  hwx2_0 : ∀ i : grid2.Coords, EltTy.bits .f32 = 32 ∨ (Rect.block (s := S4096x1x64) S512x1x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1x16x64.size a ≤ S4096x1x16x64.size a
  hwx2_1 : ∀ i : grid2.Coords, EltTy.bits .f32 = 32 ∨ (Rect.block (s := S4096x1x16x64) S512x1x16x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1x16x64.size a ≤ S4096x1x16x64.size a
  hwx2_2 : ∀ i : grid2.Coords, EltTy.bits .f32 = 32 ∨ (Rect.block (s := S4096x1x16x64) S512x1x16x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S4096x64.size a
  hwx2_3 : ∀ i : grid2.Coords, EltTy.bits .f32 = 32 ∨ (Rect.block (s := S4096x64) S512x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512.size a ≤ S4096.size a
  hwx2_6 : ∀ i : grid2.Coords, EltTy.bits .f32 = 32 ∨ (Rect.block (s := S4096) S512.size (cc2_transform_6 i) (hinb2_6 i)).WholeWords (EltTy.packing .f32)

variable [Facts₀]

def gather_S100000x16_S4096x1_S4096x16_1_0_n_n_0_1_116 : GatherDims S100000x16 S4096x1 S4096x16 where
  offsetDims := [1]
  collapsedSliceDims := [0]
  operandBatchingDims := []
  startIndicesBatchingDims := []
  startIndexMap := [0]
  indexVectorDim := 1
  sliceSizes := ![1, 16]
  wf := gather_S100000x16_S4096x1_S4096x16_1_0_n_n_0_1_116_wf
def gather_S100000x16_S65536x1_S65536x16_1_0_n_n_0_1_116 : GatherDims S100000x16 S65536x1 S65536x16 where
  offsetDims := [1]
  collapsedSliceDims := [0]
  operandBatchingDims := []
  startIndicesBatchingDims := []
  startIndexMap := [0]
  indexVectorDim := 1
  sliceSizes := ![1, 16]
  wf := gather_S100000x16_S65536x1_S65536x16_1_0_n_n_0_1_116_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S100000x64_S65536x1_S65536x64_1_0_n_n_0_1_164 : GatherDims S100000x64 S65536x1 S65536x64 where
  offsetDims := [1]
  collapsedSliceDims := [0]
  operandBatchingDims := []
  startIndicesBatchingDims := []
  startIndexMap := [0]
  indexVectorDim := 1
  sliceSizes := ![1, 64]
  wf := gather_S100000x64_S65536x1_S65536x64_1_0_n_n_0_1_164_wf
def gather_S100000x64_S1048576x1_S1048576x64_1_0_n_n_0_1_164 : GatherDims S100000x64 S1048576x1 S1048576x64 where
  offsetDims := [1]
  collapsedSliceDims := [0]
  operandBatchingDims := []
  startIndicesBatchingDims := []
  startIndexMap := [0]
  indexVectorDim := 1
  sliceSizes := ![1, 64]
  wf := gather_S100000x64_S1048576x1_S1048576x64_1_0_n_n_0_1_164_wf
def gather_S33x64_S65536x1_S65536x64_1_0_n_n_0_1_164 : GatherDims S33x64 S65536x1 S65536x64 where
  offsetDims := [1]
  collapsedSliceDims := [0]
  operandBatchingDims := []
  startIndicesBatchingDims := []
  startIndexMap := [0]
  indexVectorDim := 1
  sliceSizes := ![1, 64]
  wf := gather_S33x64_S65536x1_S65536x64_1_0_n_n_0_1_164_wf
def gather_S33x64_S1048576x1_S1048576x64_1_0_n_n_0_1_164 : GatherDims S33x64 S1048576x1 S1048576x64 where
  offsetDims := [1]
  collapsedSliceDims := [0]
  operandBatchingDims := []
  startIndicesBatchingDims := []
  startIndexMap := [0]
  indexVectorDim := 1
  sliceSizes := ![1, 64]
  wf := gather_S33x64_S1048576x1_S1048576x64_1_0_n_n_0_1_164_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_v45) S512x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v81) S512x1x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v82) S512x1x16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S512x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v85) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v87) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v89) S512x1x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v53) S64x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v83) S64x16x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v84) S64x16x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S64x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v85) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v87) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v90) S64x16x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v89) S512x1x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v91) S512x1x16x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v82) S512x1x16x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S512x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v86) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v88) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v92) S512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4096 : Shape := ⟨1, ![4096]⟩
abbrev S100000x16 : Shape := ⟨2, ![100000, 16]⟩
abbrev S100000x64 : Shape := ⟨2, ![100000, 64]⟩
abbrev S33x64 : Shape := ⟨2, ![33, 64]⟩
abbrev S64x64 : Shape := ⟨2, ![64, 64]⟩
abbrev S64 : Shape := ⟨1, ![64]⟩
abbrev S4096x1 : Shape := ⟨2, ![4096, 1]⟩
abbrev S_ : Shape := ⟨0, ![]⟩
abbrev S4096x16 : Shape := ⟨2, ![4096, 16]⟩
abbrev S65536 : Shape := ⟨1, ![65536]⟩
abbrev S65536x1 : Shape := ⟨2, ![65536, 1]⟩
abbrev S65536x16 : Shape := ⟨2, ![65536, 16]⟩
abbrev S4096x256 : Shape := ⟨2, ![4096, 256]⟩
abbrev S4096x64 : Shape := ⟨2, ![4096, 64]⟩
abbrev S4096x1x1 : Shape := ⟨3, ![4096, 1, 1]⟩
abbrev S4096x1x64 : Shape := ⟨3, ![4096, 1, 64]⟩
abbrev S4096x16x1 : Shape := ⟨3, ![4096, 16, 1]⟩
abbrev S4096x16x64 : Shape := ⟨3, ![4096, 16, 64]⟩
abbrev S4096x256x1 : Shape := ⟨3, ![4096, 256, 1]⟩
abbrev S4096x256x64 : Shape := ⟨3, ![4096, 256, 64]⟩
abbrev S4096x1x1x64 : Shape := ⟨4, ![4096, 1, 1, 64]⟩
abbrev S4096x1x16x64 : Shape := ⟨4, ![4096, 1, 16, 64]⟩
abbrev S4096x1x16 : Shape := ⟨3, ![4096, 1, 16]⟩
abbrev S4096x1x16x1 : Shape := ⟨4, ![4096, 1, 16, 1]⟩
abbrev S1x1x64 : Shape := ⟨3, ![1, 1, 64]⟩
abbrev S4096x16x16x64 : Shape := ⟨4, ![4096, 16, 16, 64]⟩
abbrev S4096x16x16 : Shape := ⟨3, ![4096, 16, 16]⟩
abbrev S4096x16x16x1 : Shape := ⟨4, ![4096, 16, 16, 1]⟩

abbrev nBuf : Space → Nat
  | .hbm => 234
  | .vmem => 0
  | .smem => 0
  | _ => 0

abbrev hbmTy0_0 (i : Nat) : BufTy := match i % 128 with
  | 0 => ⟨S4096, .i32⟩
  | 1 => ⟨S4096, .i32⟩
  | 2 => ⟨S100000x16, .i32⟩
  | 3 => ⟨S100000x16, .i32⟩
  | 4 => ⟨S100000x64, .f32⟩
  | 5 => ⟨S100000x64, .f32⟩
  | 6 => ⟨S33x64, .f32⟩
  | 7 => ⟨S64x64, .f32⟩
  | 8 => ⟨S64, .f32⟩
  | 9 => ⟨S64x64, .f32⟩
  | 10 => ⟨S64, .f32⟩
  | 11 => ⟨S4096x1, .i32⟩
  | 12 => ⟨S4096, .i32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S4096x16, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096x16, .i32⟩
  | 31 => ⟨S65536, .i32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S65536x16, .i32⟩
  | 41 => ⟨S4096x256, .i32⟩
  | 42 => ⟨S_, .i32⟩
  | 43 => ⟨S65536, .i32⟩
  | 44 => ⟨S65536, .i1⟩
  | 45 => ⟨S_, .i32⟩
  | 46 => ⟨S65536, .i32⟩
  | 47 => ⟨S65536, .i32⟩
  | 48 => ⟨S65536, .i32⟩
  | 49 => ⟨S65536x1, .i32⟩
  | 50 => ⟨S65536x16, .i32⟩
  | 51 => ⟨S4096x256, .i32⟩
  | 52 => ⟨S_, .i32⟩
  | 53 => ⟨S4096, .i32⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S4096x64, .f32⟩
  | 61 => ⟨S_, .i32⟩
  | 62 => ⟨S4096x1, .i32⟩
  | 63 => ⟨S4096x1, .i1⟩
  | 64 => ⟨S_, .i32⟩
  | 65 => ⟨S4096x1, .i32⟩
  | 66 => ⟨S4096x1, .i32⟩
  | 67 => ⟨S4096x1, .i32⟩
  | 68 => ⟨S4096x1x1, .i32⟩
  | 69 => ⟨S4096x1x64, .f32⟩
  | 70 => ⟨S_, .i32⟩
  | 71 => ⟨S4096x16, .i32⟩
  | 72 => ⟨S4096x16, .i1⟩
  | 73 => ⟨S_, .i32⟩
  | 74 => ⟨S4096x16, .i32⟩
  | 75 => ⟨S4096x16, .i32⟩
  | 76 => ⟨S4096x16, .i32⟩
  | 77 => ⟨S4096x16x1, .i32⟩
  | 78 => ⟨S4096x16x64, .f32⟩
  | 79 => ⟨S_, .i32⟩
  | 80 => ⟨S4096x256, .i32⟩
  | 81 => ⟨S4096x256, .i1⟩
  | 82 => ⟨S_, .i32⟩
  | 83 => ⟨S4096x256, .i32⟩
  | 84 => ⟨S4096x256, .i32⟩
  | 85 => ⟨S4096x256, .i32⟩
  | 86 => ⟨S4096x256x1, .i32⟩
  | 87 => ⟨S4096x256x64, .f32⟩
  | 88 => ⟨S_, .i32⟩
  | 89 => ⟨S4096x16, .i32⟩
  | 90 => ⟨S4096x16, .i1⟩
  | 91 => ⟨S_, .i32⟩
  | 92 => ⟨S4096x16, .i32⟩
  | 93 => ⟨S4096x16, .i32⟩
  | 94 => ⟨S4096x16, .i32⟩
  | 95 => ⟨S4096x16x1, .i32⟩
  | 96 => ⟨S4096x16x64, .f32⟩
  | 97 => ⟨S_, .i32⟩
  | 98 => ⟨S4096x256, .i32⟩
  | 99 => ⟨S4096x256, .i1⟩
  | 100 => ⟨S_, .i32⟩
  | 101 => ⟨S4096x256, .i32⟩
  | 102 => ⟨S4096x256, .i32⟩
  | 103 => ⟨S4096x256, .i32⟩
  | 104 => ⟨S4096x256x1, .i32⟩
  | 105 => ⟨S4096x256x64, .f32⟩
  | 106 => ⟨S4096x1x1x64, .f32⟩
  | 107 => ⟨S4096x1x16x64, .f32⟩
  | 108 => ⟨S4096x1x16x64, .f32⟩
  | 109 => ⟨S4096x1x16x64, .f32⟩
  | 110 => ⟨S4096x1x16x64, .f32⟩
  | 111 => ⟨S_, .f32⟩
  | 112 => ⟨S4096x1x16, .f32⟩
  | 113 => ⟨S_, .f32⟩
  | 114 => ⟨S4096x1x16, .f32⟩
  | 115 => ⟨S4096x1x16, .f32⟩
  | 116 => ⟨S_, .f32⟩
  | 117 => ⟨S4096x1, .f32⟩
  | 118 => ⟨S_, .f32⟩
  | 119 => ⟨S4096x1, .f32⟩
  | 120 => ⟨S4096x1, .f32⟩
  | 121 => ⟨S4096x1x1, .f32⟩
  | 122 => ⟨S4096x1x16, .f32⟩
  | 123 => ⟨S4096x1x16, .f32⟩
  | 124 => ⟨S4096x1x16, .f32⟩
  | 125 => ⟨S_, .f32⟩
  | 126 => ⟨S4096x1, .f32⟩
  | 127 => ⟨S4096x1x1, .f32⟩
  | _ => ⟨S4096, .i32⟩

abbrev hbmTy0_1 (i : Nat) : BufTy := match i % 128 with
  | 0 => ⟨S4096x1x16, .f32⟩
  | 1 => ⟨S4096x1x16, .f32⟩
  | 2 => ⟨S4096x1x16x1, .f32⟩
  | 3 => ⟨S4096x1x16x64, .f32⟩
  | 4 => ⟨S4096x1x16x64, .f32⟩
  | 5 => ⟨S_, .f32⟩
  | 6 => ⟨S4096x1x64, .f32⟩
  | 7 => ⟨S_, .f32⟩
  | 8 => ⟨S4096x1x64, .f32⟩
  | 9 => ⟨S4096x1x64, .f32⟩
  | 10 => ⟨S4096x1x64, .f32⟩
  | 11 => ⟨S4096x1x64, .f32⟩
  | 12 => ⟨S1x1x64, .f32⟩
  | 13 => ⟨S4096x1x64, .f32⟩
  | 14 => ⟨S4096x1x64, .f32⟩
  | 15 => ⟨S_, .f32⟩
  | 16 => ⟨S4096x1x64, .f32⟩
  | 17 => ⟨S4096x1x64, .f32⟩
  | 18 => ⟨S4096x16x16x64, .f32⟩
  | 19 => ⟨S4096x16x16x64, .f32⟩
  | 20 => ⟨S4096x16x16x64, .f32⟩
  | 21 => ⟨S4096x16x16x64, .f32⟩
  | 22 => ⟨S_, .f32⟩
  | 23 => ⟨S4096x16x16, .f32⟩
  | 24 => ⟨S_, .f32⟩
  | 25 => ⟨S4096x16x16, .f32⟩
  | 26 => ⟨S4096x16x16, .f32⟩
  | 27 => ⟨S_, .f32⟩
  | 28 => ⟨S4096x16, .f32⟩
  | 29 => ⟨S_, .f32⟩
  | 30 => ⟨S4096x16, .f32⟩
  | 31 => ⟨S4096x16, .f32⟩
  | 32 => ⟨S4096x16x1, .f32⟩
  | 33 => ⟨S4096x16x16, .f32⟩
  | 34 => ⟨S4096x16x16, .f32⟩
  | 35 => ⟨S4096x16x16, .f32⟩
  | 36 => ⟨S_, .f32⟩
  | 37 => ⟨S4096x16, .f32⟩
  | 38 => ⟨S4096x16x1, .f32⟩
  | 39 => ⟨S4096x16x16, .f32⟩
  | 40 => ⟨S4096x16x16, .f32⟩
  | 41 => ⟨S4096x16x16x1, .f32⟩
  | 42 => ⟨S4096x16x16x64, .f32⟩
  | 43 => ⟨S4096x16x16x64, .f32⟩
  | 44 => ⟨S_, .f32⟩
  | 45 => ⟨S4096x16x64, .f32⟩
  | 46 => ⟨S_, .f32⟩
  | 47 => ⟨S4096x16x64, .f32⟩
  | 48 => ⟨S4096x16x64, .f32⟩
  | 49 => ⟨S4096x16x64, .f32⟩
  | 50 => ⟨S4096x16x64, .f32⟩
  | 51 => ⟨S1x1x64, .f32⟩
  | 52 => ⟨S4096x16x64, .f32⟩
  | 53 => ⟨S4096x16x64, .f32⟩
  | 54 => ⟨S_, .f32⟩
  | 55 => ⟨S4096x16x64, .f32⟩
  | 56 => ⟨S4096x16x64, .f32⟩
  | 57 => ⟨S4096x1x16x64, .f32⟩
  | 58 => ⟨S4096x1x16x64, .f32⟩
  | 59 => ⟨S4096x1x16x64, .f32⟩
  | 60 => ⟨S4096x1x16x64, .f32⟩
  | 61 => ⟨S_, .f32⟩
  | 62 => ⟨S4096x1x16, .f32⟩
  | 63 => ⟨S_, .f32⟩
  | 64 => ⟨S4096x1x16, .f32⟩
  | 65 => ⟨S4096x1x16, .f32⟩
  | 66 => ⟨S_, .f32⟩
  | 67 => ⟨S4096x1, .f32⟩
  | 68 => ⟨S_, .f32⟩
  | 69 => ⟨S4096x1, .f32⟩
  | 70 => ⟨S4096x1, .f32⟩
  | 71 => ⟨S4096x1x1, .f32⟩
  | 72 => ⟨S4096x1x16, .f32⟩
  | 73 => ⟨S4096x1x16, .f32⟩
  | 74 => ⟨S4096x1x16, .f32⟩
  | 75 => ⟨S_, .f32⟩
  | 76 => ⟨S4096x1, .f32⟩
  | 77 => ⟨S4096x1x1, .f32⟩
  | 78 => ⟨S4096x1x16, .f32⟩
  | 79 => ⟨S4096x1x16, .f32⟩
  | 80 => ⟨S4096x1x16x1, .f32⟩
  | 81 => ⟨S4096x1x16x64, .f32⟩
  | 82 => ⟨S4096x1x16x64, .f32⟩
  | 83 => ⟨S_, .f32⟩
  | 84 => ⟨S4096x1x64, .f32⟩
  | 85 => ⟨S_, .f32⟩
  | 86 => ⟨S4096x1x64, .f32⟩
  | 87 => ⟨S4096x1x64, .f32⟩
  | 88 => ⟨S4096x1x64, .f32⟩
  | 89 => ⟨S4096x1x64, .f32⟩
  | 90 => ⟨S1x1x64, .f32⟩
  | 91 => ⟨S4096x1x64, .f32⟩
  | 92 => ⟨S4096x1x64, .f32⟩
  | 93 => ⟨S4096x1x64, .f32⟩
  | 94 => ⟨S4096x64, .f32⟩
  | 95 => ⟨S4096x64, .f32⟩
  | 96 => ⟨S_, .f32⟩
  | 97 => ⟨S4096, .f32⟩
  | 98 => ⟨S4096, .f32⟩
  | 99 => ⟨S4096, .f32⟩
  | 100 => ⟨S_, .f32⟩
  | 101 => ⟨S4096, .f32⟩
  | 102 => ⟨S4096, .f32⟩
  | 103 => ⟨S_, .f32⟩
  | 104 => ⟨S4096, .f32⟩
  | 105 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_c_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_13 : Ref sig .tc := ⟨.hbm, 79, rfl⟩
abbrev main_v54 : Ref sig .tc := ⟨.hbm, 80, rfl⟩
abbrev main_v55 : Ref sig .tc := ⟨.hbm, 81, rfl⟩
abbrev main_c_14 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_15 : Ref sig .tc := ⟨.hbm, 88, rfl⟩
abbrev main_v61 : Ref sig .tc := ⟨.hbm, 89, rfl⟩
abbrev main_v62 : Ref sig .tc := ⟨.hbm, 90, rfl⟩
abbrev main_c_16 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_17 : Ref sig .tc := ⟨.hbm, 97, rfl⟩
abbrev main_v68 : Ref sig .tc := ⟨.hbm, 98, rfl⟩
abbrev main_v69 : Ref sig .tc := ⟨.hbm, 99, rfl⟩
abbrev main_c_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst : Ref sig .tc := ⟨.hbm, 111, rfl⟩
abbrev main_v80 : Ref sig .tc := ⟨.hbm, 112, rfl⟩
abbrev main_cst_19 : Ref sig .tc := ⟨.hbm, 113, rfl⟩
abbrev main_v81 : Ref sig .tc := ⟨.hbm, 114, rfl⟩
abbrev main_v82 : Ref sig .tc := ⟨.hbm, 115, rfl⟩
abbrev main_cst_20 : Ref sig .tc := ⟨.hbm, 116, rfl⟩
abbrev main_v83 : Ref sig .tc := ⟨.hbm, 117, rfl⟩
abbrev main_cst_21 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_22 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_23 : Ref sig .tc := ⟨.hbm, 133, rfl⟩
abbrev main_v97 : Ref sig .tc := ⟨.hbm, 134, rfl⟩
abbrev main_cst_24 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_call0_cst : Ref sig .tc := ⟨.hbm, 143, rfl⟩
abbrev main_call0_v0 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_25 : Ref sig .tc := ⟨.hbm, 150, rfl⟩
abbrev main_v110 : Ref sig .tc := ⟨.hbm, 151, rfl⟩
abbrev main_cst_26 : Ref sig .tc := ⟨.hbm, 152, rfl⟩
abbrev main_v111 : Ref sig .tc := ⟨.hbm, 153, rfl⟩
abbrev main_v112 : Ref sig .tc := ⟨.hbm, 154, rfl⟩
abbrev main_cst_27 : Ref sig .tc := ⟨.hbm, 155, rfl⟩
abbrev main_v113 : Ref sig .tc := ⟨.hbm, 156, rfl⟩
abbrev main_cst_28 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_29 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_30 : Ref sig .tc := ⟨.hbm, 172, rfl⟩
abbrev main_v127 : Ref sig .tc := ⟨.hbm, 173, rfl⟩
abbrev main_cst_31 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_call1_cst : Ref sig .tc := ⟨.hbm, 182, rfl⟩
abbrev main_call1_v0 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_32 : Ref sig .tc := ⟨.hbm, 189, rfl⟩
abbrev main_v140 : Ref sig .tc := ⟨.hbm, 190, rfl⟩
abbrev main_cst_33 : Ref sig .tc := ⟨.hbm, 191, rfl⟩
abbrev main_v141 : Ref sig .tc := ⟨.hbm, 192, rfl⟩
abbrev main_v142 : Ref sig .tc := ⟨.hbm, 193, rfl⟩
abbrev main_cst_34 : Ref sig .tc := ⟨.hbm, 194, rfl⟩
abbrev main_v143 : Ref sig .tc := ⟨.hbm, 195, rfl⟩
abbrev main_cst_35 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_36 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_37 : Ref sig .tc := ⟨.hbm, 211, rfl⟩
abbrev main_v157 : Ref sig .tc := ⟨.hbm, 212, rfl⟩
abbrev main_cst_38 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_cst_39 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_40 : Ref sig .tc := ⟨.hbm, 228, rfl⟩
abbrev main_v171 : Ref sig .tc := ⟨.hbm, 229, rfl⟩
abbrev main_v172 : Ref sig .tc := ⟨.hbm, 230, rfl⟩
abbrev main_cst_41 : Ref sig .tc := ⟨.hbm, 231, rfl⟩
abbrev main_v173 : Ref sig .tc := ⟨.hbm, 232, rfl⟩
abbrev main_v174 : Ref sig .tc := ⟨.hbm, 233, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  shapeCasts_S4096x1_S4096 : S4096x1.ShapeCasts S4096
  bcast_S_S4096 : S_.BroadcastsInDim S4096 (![] : Fin 0 → Fin S4096.rank)
  shapeCasts_S4096x16_S65536 : S4096x16.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x16_S4096x256 : S65536x16.ShapeCasts S4096x256
  bcast_S_S4096x1 : S_.BroadcastsInDim S4096x1 (![] : Fin 0 → Fin S4096x1.rank)
  bcast_S4096x1_S4096x1x1_0_1 : S4096x1.BroadcastsInDim S4096x1x1 (![0, 1] : Fin 2 → Fin S4096x1x1.rank)
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  bcast_S_S4096x256 : S_.BroadcastsInDim S4096x256 (![] : Fin 0 → Fin S4096x256.rank)
  bcast_S4096x256_S4096x256x1_0_1 : S4096x256.BroadcastsInDim S4096x256x1 (![0, 1] : Fin 2 → Fin S4096x256x1.rank)
  bcast_S4096x64_S4096x1x1x64_0_3 : S4096x64.BroadcastsInDim S4096x1x1x64 (![0, 3] : Fin 2 → Fin S4096x1x1x64.rank)
  shapeCasts_S4096x16x64_S4096x1x16x64 : S4096x16x64.ShapeCasts S4096x1x16x64
  bcast_S4096x1x1x64_S4096x1x16x64_0_1_2_3 : S4096x1x1x64.BroadcastsInDim S4096x1x16x64 (![0, 1, 2, 3] : Fin 4 → Fin S4096x1x16x64.rank)
  reducesTo_S4096x1x16x64_S4096x1x16_d3 : S4096x1x16x64.ReducesTo [3] S4096x1x16
  h_S_ : 0 < S_.numel
  bcast_S_S4096x1x16 : S_.BroadcastsInDim S4096x1x16 (![] : Fin 0 → Fin S4096x1x16.rank)
  reducesTo_S4096x1x16_S4096x1_d2 : S4096x1x16.ReducesTo [2] S4096x1
  bcast_S4096x1x1_S4096x1x16_0_1_2 : S4096x1x1.BroadcastsInDim S4096x1x16 (![0, 1, 2] : Fin 3 → Fin S4096x1x16.rank)
  bcast_S4096x1x16_S4096x1x16x1_0_1_2 : S4096x1x16.BroadcastsInDim S4096x1x16x1 (![0, 1, 2] : Fin 3 → Fin S4096x1x16x1.rank)
  bcast_S4096x1x16x1_S4096x1x16x64_0_1_2_3 : S4096x1x16x1.BroadcastsInDim S4096x1x16x64 (![0, 1, 2, 3] : Fin 4 → Fin S4096x1x16x64.rank)
  reducesTo_S4096x1x16x64_S4096x1x64_d2 : S4096x1x16x64.ReducesTo [2] S4096x1x64
  bcast_S_S4096x1x64 : S_.BroadcastsInDim S4096x1x64 (![] : Fin 0 → Fin S4096x1x64.rank)
  bcast_S64_S1x1x64_2 : S64.BroadcastsInDim S1x1x64 (![2] : Fin 1 → Fin S1x1x64.rank)
  bcast_S1x1x64_S4096x1x64_0_1_2 : S1x1x64.BroadcastsInDim S4096x1x64 (![0, 1, 2] : Fin 3 → Fin S4096x1x64.rank)
  shapeCasts_S4096x256x64_S4096x16x16x64 : S4096x256x64.ShapeCasts S4096x16x16x64
  bcast_S4096x1x1x64_S4096x16x16x64_0_1_2_3 : S4096x1x1x64.BroadcastsInDim S4096x16x16x64 (![0, 1, 2, 3] : Fin 4 → Fin S4096x16x16x64.rank)
  reducesTo_S4096x16x16x64_S4096x16x16_d3 : S4096x16x16x64.ReducesTo [3] S4096x16x16
  bcast_S_S4096x16x16 : S_.BroadcastsInDim S4096x16x16 (![] : Fin 0 → Fin S4096x16x16.rank)
  reducesTo_S4096x16x16_S4096x16_d2 : S4096x16x16.ReducesTo [2] S4096x16
  bcast_S4096x16x1_S4096x16x16_0_1_2 : S4096x16x1.BroadcastsInDim S4096x16x16 (![0, 1, 2] : Fin 3 → Fin S4096x16x16.rank)
  bcast_S4096x16x16_S4096x16x16x1_0_1_2 : S4096x16x16.BroadcastsInDim S4096x16x16x1 (![0, 1, 2] : Fin 3 → Fin S4096x16x16x1.rank)
  bcast_S4096x16x16x1_S4096x16x16x64_0_1_2_3 : S4096x16x16x1.BroadcastsInDim S4096x16x16x64 (![0, 1, 2, 3] : Fin 4 → Fin S4096x16x16x64.rank)
  reducesTo_S4096x16x16x64_S4096x16x64_d2 : S4096x16x16x64.ReducesTo [2] S4096x16x64
  bcast_S_S4096x16x64 : S_.BroadcastsInDim S4096x16x64 (![] : Fin 0 → Fin S4096x16x64.rank)
  bcast_S1x1x64_S4096x16x64_0_1_2 : S1x1x64.BroadcastsInDim S4096x16x64 (![0, 1, 2] : Fin 3 → Fin S4096x16x64.rank)
  shapeCasts_S4096x1x64_S4096x64 : S4096x1x64.ShapeCasts S4096x64
  reducesTo_S4096x64_S4096_d1 : S4096x64.ReducesTo [1] S4096
  gather_S100000x16_S4096x1_S4096x16_1_0_n_n_0_1_116_wf : GatherDims.WF S100000x16 S4096x1 S4096x16 [1] [0] [] [0] [] 1 ![1, 16]
  gather_S100000x16_S65536x1_S65536x16_1_0_n_n_0_1_116_wf : GatherDims.WF S100000x16 S65536x1 S65536x16 [1] [0] [] [0] [] 1 ![1, 16]
  gather_S100000x64_S4096x1_S4096x64_1_0_n_n_0_1_164_wf : GatherDims.WF S100000x64 S4096x1 S4096x64 [1] [0] [] [0] [] 1 ![1, 64]
  gather_S100000x64_S4096x1x1_S4096x1x64_2_0_n_n_0_2_164_wf : GatherDims.WF S100000x64 S4096x1x1 S4096x1x64 [2] [0] [] [0] [] 2 ![1, 64]
  gather_S100000x64_S4096x16x1_S4096x16x64_2_0_n_n_0_2_164_wf : GatherDims.WF S100000x64 S4096x16x1 S4096x16x64 [2] [0] [] [0] [] 2 ![1, 64]
  gather_S100000x64_S4096x256x1_S4096x256x64_2_0_n_n_0_2_164_wf : GatherDims.WF S100000x64 S4096x256x1 S4096x256x64 [2] [0] [] [0] [] 2 ![1, 64]
  gather_S33x64_S4096x16x1_S4096x16x64_2_0_n_n_0_2_164_wf : GatherDims.WF S33x64 S4096x16x1 S4096x16x64 [2] [0] [] [0] [] 2 ![1, 64]
  gather_S33x64_S4096x256x1_S4096x256x64_2_0_n_n_0_2_164_wf : GatherDims.WF S33x64 S4096x256x1 S4096x256x64 [2] [0] [] [0] [] 2 ![1, 64]
  dot_S4096x1x64_S64x64_S4096x1x64_2_1_01_0_n_n_wf : DotDims.WF S4096x1x64 S64x64 S4096x1x64 [2] [1] [0, 1] [0] [] []
  dot_S4096x16x64_S64x64_S4096x16x64_2_1_01_0_n_n_wf : DotDims.WF S4096x16x64 S64x64 S4096x16x64 [2] [1] [0, 1] [0] [] []

variable [Facts₀]

def gather_S100000x16_S4096x1_S4096x16_1_0_n_n_0_1_116 : GatherDims S100000x16 S4096x1 S4096x16 where
  offsetDims := [1]
  collapsedSliceDims := [0]
  operandBatchingDims := []
  startIndicesBatchingDims := []
  startIndexMap := [0]
  indexVectorDim := 1
  sliceSizes := ![1, 16]
  wf := gather_S100000x16_S4096x1_S4096x16_1_0_n_n_0_1_116_wf
def gather_S100000x16_S65536x1_S65536x16_1_0_n_n_0_1_116 : GatherDims S100000x16 S65536x1 S65536x16 where
  offsetDims := [1]
  collapsedSliceDims := [0]
  operandBatchingDims := []
  startIndicesBatchingDims := []
  startIndexMap := [0]
  indexVectorDim := 1
  sliceSizes := ![1, 16]
  wf := gather_S100000x16_S65536x1_S65536x16_1_0_n_n_0_1_116_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S100000x64_S4096x1x1_S4096x1x64_2_0_n_n_0_2_164 : GatherDims S100000x64 S4096x1x1 S4096x1x64 where
  offsetDims := [2]
  collapsedSliceDims := [0]
  operandBatchingDims := []
  startIndicesBatchingDims := []
  startIndexMap := [0]
  indexVectorDim := 2
  sliceSizes := ![1, 64]
  wf := gather_S100000x64_S4096x1x1_S4096x1x64_2_0_n_n_0_2_164_wf
def gather_S100000x64_S4096x16x1_S4096x16x64_2_0_n_n_0_2_164 : GatherDims S100000x64 S4096x16x1 S4096x16x64 where
  offsetDims := [2]
  collapsedSliceDims := [0]
  operandBatchingDims := []
  startIndicesBatchingDims := []
  startIndexMap := [0]
  indexVectorDim := 2
  sliceSizes := ![1, 64]
  wf := gather_S100000x64_S4096x16x1_S4096x16x64_2_0_n_n_0_2_164_wf
def gather_S100000x64_S4096x256x1_S4096x256x64_2_0_n_n_0_2_164 : GatherDims S100000x64 S4096x256x1 S4096x256x64 where
  offsetDims := [2]
  collapsedSliceDims := [0]
  operandBatchingDims := []
  startIndicesBatchingDims := []
  startIndexMap := [0]
  indexVectorDim := 2
  sliceSizes := ![1, 64]
  wf := gather_S100000x64_S4096x256x1_S4096x256x64_2_0_n_n_0_2_164_wf
def gather_S33x64_S4096x16x1_S4096x16x64_2_0_n_n_0_2_164 : GatherDims S33x64 S4096x16x1 S4096x16x64 where
  offsetDims := [2]
  collapsedSliceDims := [0]
  operandBatchingDims := []
  startIndicesBatchingDims := []
  startIndexMap := [0]
  indexVectorDim := 2
  sliceSizes := ![1, 64]
  wf := gather_S33x64_S4096x16x1_S4096x16x64_2_0_n_n_0_2_164_wf
def gather_S33x64_S4096x256x1_S4096x256x64_2_0_n_n_0_2_164 : GatherDims S33x64 S4096x256x1 S4096x256x64 where
  offsetDims := [2]
  collapsedSliceDims := [0]
  operandBatchingDims := []
  startIndicesBatchingDims := []
  startIndexMap := [0]
  indexVectorDim := 2
  sliceSizes := ![1, 64]
  wf := gather_S33x64_S4096x256x1_S4096x256x64_2_0_n_n_0_2_164_wf
def dot_S4096x1x64_S64x64_S4096x1x64_2_1_01_0_n_n : DotDims S4096x1x64 S64x64 S4096x1x64 where
  lhsContracting := [2]
  rhsContracting := [1]
  lhsNonContracting := [0, 1]
  rhsNonContracting := [0]
  lhsBatch := []
  rhsBatch := []
  wf := dot_S4096x1x64_S64x64_S4096x1x64_2_1_01_0_n_n_wf
def dot_S4096x16x64_S64x64_S4096x16x64_2_1_01_0_n_n : DotDims S4096x16x64 S64x64 S4096x16x64 where
  lhsContracting := [2]
  rhsContracting := [1]
  lhsNonContracting := [0, 1]
  rhsNonContracting := [0]
  lhsBatch := []
  rhsBatch := []
  wf := dot_S4096x16x64_S64x64_S4096x16x64_2_1_01_0_n_n_wf

class Facts : Prop extends Facts₀ where

variable [Facts]
-- ==== Proof.KernelRun.lean ====
/-
  The idealized kernel program's run with its RESULT named: every weakly fair execution of @main terminates,
  nothing faulting, with the result buffer holding what the last region's write-backs leave (the fold of the
  buffer contents through the host stretches and the three regions, `W5`), and the argument arrays as launched.
  It is the launch theorem over the generated segments, as the generated frame uses it, read at one more buffer.
-/
import proofs.«158850_j22935125360845_2_alg».proof.Proof.KernelIdealFrame

set_option maxRecDepth 16384

noncomputable section

namespace Cert.KernelRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters the program terminates without a fault; the result buffer ends at the last
    region's output array and every argument array ends as launched. -/
theorem run_result : θ_run defs (onTc (τ := τ) (main (F := F))) ⟨m, fun _ => 0, ρ⟩ (fun r => ∀ c : Dev nD,
      r.2.mem ((c.tc : Thread nD τ).loc main_v92) = W5 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v92 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelRun

end
-- ==== Proof.Spec.lean ====
/-
  THE COMMON FUNCTION of the two programs: a two-layer neighbourhood aggregation over a knowledge graph, scored per
  (user, item) pair.

  For one row (one entity with its 16 sampled neighbours, 64 features each), given the user's vector `ue`:
  * the attention logit of neighbour `k` is the mean over the 64 features of `ue d · nr k d` (`logit`);
  * the logits are turned into weights by a softmax over the 16 neighbours: subtract the largest logit (`peak`),
    exponentiate (`lifted`), divide by the sum (`weight`);
  * the neighbours' vectors are averaged with those weights, divided by 16, and added to the entity's own vector
    (`mixed`);
  * a linear layer with bias follows (`dense`), then `max · 0` in the first layer (`hidden`), and in the last
    layer `tanh`, the inner product with the user's vector and the logistic function (`score`).
  The rows of a table an index word selects (`entRow`, `relRow`): a negative word is first moved up by the table's
  height, then the word is read signed and clamped into the table.
  `result` composes them for batch entry `b`: the item's neighbours at depth one and two are looked up in the
  adjacency tables, their embeddings aggregated in the first layer at depth zero and depth one, and those two in the
  second layer.
  Every float literal stays the word the programs print; none is evaluated here.
-/
import Idealize.ShloMosaic.PureOps.Ideal
import Idealize.ShloMosaic.Lib.ValueIdx

noncomputable section

open scoped BigOperators

namespace Cert.Spec

open Idealize.ShloMosaic Idealize.ShloMosaic.ValueIdx

/-! ## One row of one layer -/

/-- The attention logit of neighbour `k`: the mean over the features of user · relation. -/
def logit (ue : Fin 64 → EReal) (nr : Fin 16 → Fin 64 → EReal) (k : Fin 16) : EReal :=
  Ideal.div (∑ d : Fin 64, ue d * nr k d) (Ideal.ofBits .f32 0x42800000#32)

/-- The largest logit of the row, as a fold of `max` from the word of minus infinity. -/
def peak (ue : Fin 64 → EReal) (nr : Fin 16 → Fin 64 → EReal) : EReal :=
  (Finset.univ : Finset (Fin 16)).fold max (Ideal.ofBits .f32 0xFF800000#32) (logit ue nr)

/-- The exponential of a logit shifted by the row's largest. -/
def lifted (ue : Fin 64 → EReal) (nr : Fin 16 → Fin 64 → EReal) (k : Fin 16) : EReal :=
  Ideal.exp (logit ue nr k - peak ue nr)

/-- The softmax weight of neighbour `k`. -/
def weight (ue : Fin 64 → EReal) (nr : Fin 16 → Fin 64 → EReal) (k : Fin 16) : EReal :=
  Ideal.div (lifted ue nr k) (∑ l : Fin 16, lifted ue nr l)

/-- The entity's vector plus the weighted mean of its neighbours' vectors. -/
def mixed (sv : Fin 64 → EReal) (nv nr : Fin 16 → Fin 64 → EReal) (ue : Fin 64 → EReal) (d : Fin 64) : EReal :=
  sv d + Ideal.div (∑ k : Fin 16, weight ue nr k * nv k d) (Ideal.ofBits .f32 0x41800000#32)

/-- The linear layer: `wt d e` is the weight from input feature `d` to output feature `e`. -/
def dense (x : Fin 64 → EReal) (wt : Fin 64 → Fin 64 → EReal) (bias : Fin 64 → EReal) (e : Fin 64) : EReal :=
  (∑ d : Fin 64, x d * wt d e) + bias e

/-- A first-layer output feature: the linear layer of the mixed vector, cut off below at zero. -/
def hidden (sv : Fin 64 → EReal) (nv nr : Fin 16 → Fin 64 → EReal) (ue : Fin 64 → EReal)
    (wt : Fin 64 → Fin 64 → EReal) (bias : Fin 64 → EReal) (e : Fin 64) : EReal :=
  max (dense (mixed sv nv nr ue) wt bias e) (Ideal.ofBits .f32 0x00000000#32)

/-- The last layer and the score: `tanh` of the linear layer, its inner product with the user's vector, the logistic
    function of that. -/
def score (sv : Fin 64 → EReal) (nv nr : Fin 16 → Fin 64 → EReal) (ue : Fin 64 → EReal)
    (wt : Fin 64 → Fin 64 → EReal) (bias : Fin 64 → EReal) : EReal :=
  Ideal.logistic (∑ e : Fin 64, ue e * Ideal.tanh (dense (mixed sv nv nr ue) wt bias e))

/-! ## The row an index word selects -/

/-- A negative index word counts from the table's end: where the word is below zero read signed, add the height. -/
def wrapWord (n a : BitVec 32) : BitVec 32 :=
  Scalar.select (IntOp.cmpi .slt a 0#32) (IntOp.addi a n) a

/-- The row of a table of 100000 rows the word selects: wrapped, read signed, clamped into the table. -/
def entRow (a : BitVec 32) : Fin 100000 :=
  ⟨min (wrapWord 100000#32 a).toInt.toNat (100000 - 1), by omega⟩

/-- The row of a table of 33 rows the word selects. -/
def relRow (a : BitVec 32) : Fin 33 :=
  ⟨min (wrapWord 33#32 a).toInt.toNat (33 - 1), by omega⟩

/-! ## The whole computation at one batch entry -/

section Whole
variable (uids iids : (⟨1, ![4096]⟩ : Shape).Idx → BitVec 32)
  (adjE adjR : (⟨2, ![100000, 16]⟩ : Shape).Idx → BitVec 32)
  (userT entT : (⟨2, ![100000, 64]⟩ : Shape).Idx → EReal) (relT : (⟨2, ![33, 64]⟩ : Shape).Idx → EReal)
  (w0 : (⟨2, ![64, 64]⟩ : Shape).Idx → EReal) (b0 : (⟨1, ![64]⟩ : Shape).Idx → EReal)
  (w1 : (⟨2, ![64, 64]⟩ : Shape).Idx → EReal) (b1 : (⟨1, ![64]⟩ : Shape).Idx → EReal)

/-- The item's `k`-th neighbour (an entity index word). -/
def nbr1 (b : Fin 4096) (k : Fin 16) : BitVec 32 := adjE (ix2 (entRow (iids (ix1 b))) k)
/-- The relation to that neighbour. -/
def rel1 (b : Fin 4096) (k : Fin 16) : BitVec 32 := adjR (ix2 (entRow (iids (ix1 b))) k)
/-- The `l`-th neighbour of the item's `k`-th neighbour. -/
def nbr2 (b : Fin 4096) (k l : Fin 16) : BitVec 32 := adjE (ix2 (entRow (nbr1 iids adjE b k)) l)
/-- The relation to it. -/
def rel2 (b : Fin 4096) (k l : Fin 16) : BitVec 32 := adjR (ix2 (entRow (nbr1 iids adjE b k)) l)

/-- The user's embedding. -/
def userVec (b : Fin 4096) (d : Fin 64) : EReal := userT (ix2 (entRow (uids (ix1 b))) d)
/-- The item's embedding. -/
def itemVec (b : Fin 4096) (d : Fin 64) : EReal := entT (ix2 (entRow (iids (ix1 b))) d)
/-- The embedding of the item's `k`-th neighbour. -/
def nbr1Vec (b : Fin 4096) (k : Fin 16) (d : Fin 64) : EReal := entT (ix2 (entRow (nbr1 iids adjE b k)) d)
/-- The embedding of a depth-two neighbour. -/
def nbr2Vec (b : Fin 4096) (k l : Fin 16) (d : Fin 64) : EReal := entT (ix2 (entRow (nbr2 iids adjE b k l)) d)
/-- The embedding of the relation to the `k`-th neighbour. -/
def rel1Vec (b : Fin 4096) (k : Fin 16) (d : Fin 64) : EReal := relT (ix2 (relRow (rel1 iids adjR b k)) d)
/-- The embedding of the relation to a depth-two neighbour. -/
def rel2Vec (b : Fin 4096) (k l : Fin 16) (d : Fin 64) : EReal := relT (ix2 (relRow (rel2 iids adjE adjR b k l)) d)

/-- The first layer at depth zero: the item aggregated with its neighbours. -/
def layer0item (b : Fin 4096) (e : Fin 64) : EReal :=
  hidden (itemVec iids entT b) (nbr1Vec iids adjE entT b) (rel1Vec iids adjR relT b) (userVec uids userT b)
    (fun d e' => w0 (ix2 e' d)) (fun e' => b0 (ix1 e')) e

/-- The first layer at depth one: each neighbour aggregated with its own neighbours. -/
def layer0nbr (b : Fin 4096) (k : Fin 16) (e : Fin 64) : EReal :=
  hidden (nbr1Vec iids adjE entT b k) (nbr2Vec iids adjE entT b k) (rel2Vec iids adjE adjR relT b k) (userVec uids userT b)
    (fun d e' => w0 (ix2 e' d)) (fun e' => b0 (ix1 e')) e

/-- The score of batch entry `b`: the second layer over the first layer's two outputs, against the user's vector. -/
def result (b : Fin 4096) : EReal :=
  score (layer0item uids iids adjE adjR userT entT relT w0 b0 b) (layer0nbr uids iids adjE adjR userT entT relT w0 b0 b)
    (rel1Vec iids adjR relT b) (userVec uids userT b) (fun d e' => w1 (ix2 e' d)) (fun e' => b1 (ix1 e'))

end Whole

end Cert.Spec

end
-- ==== Proof.LibEdgeRows.lean ====
/-
  GATHERS OF ROWS AND OF ENTRIES BY A COLUMN OF INDICES, AND WHERE A ROW SCATTER LANDS.

  Three host shape operations with a column `[E, 1]` of integer indices, each read at one index:
  * a gather of ROWS of a table `[N, C]` (`rowGather`): row `e` of the result is the table's row at the `e`-th index
    word, read signed and clamped into `[0, N − 1]`; the column is kept (`rowGather_apply`);
  * a gather of ENTRIES of a vector `[N]` (`entryGather`): entry `e` of the result is the vector's entry at the `e`-th
    index word, read signed and clamped into `[0, N − 1]` (`entryGather_apply`);
  * a scatter of the ROWS of updates `[E, C]` into a table `[N, C]` (`rowScatter`): an update entry `(e, q)` that lands
    at table entry `i` has the `e`-th index word, read signed, equal to `i`'s row, and keeps its column
    (`rowScatter_lands`); so the clamped index of the matching gather is `i`'s row as well (`rowScatter_lands_clamp`).
  The dimension numbers are structure literals over the sizes with the well-formedness proof a parameter, so a
  program's record with the same lists equals them by `rfl`.
  Last, two facts about how such a column of indices is prepared: the wrap of a negative index (add `m` where the
  index is below zero) leaves an index that is nonnegative read signed as it is (`wrap_apply_of_nonneg`), and a vector
  `[E]` broadcast to the column `[E, 1]` reads the vector's entry `e` at row `e` (`column_apply`).
-/
import Idealize.ShloMosaic.Lib.ValueIdx

namespace Cert.Lib.EdgeRows

open Idealize.ShloMosaic Idealize.ShloMosaic.ValueIdx

/-! ## A gather of rows -/

section RowGather
variable {α : Type}

/-- The dimension numbers of a gather of rows: operand `[N, C]`, start indices `[E, 1]`, result `[E, C]`; axis 0 of
    the operand is indexed and collapsed, axis 1 is taken whole as the result's axis 1. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at `(e, q)`: the operand at the row named by the `e`-th index word, read signed and clamped
    into `[0, N − 1]`, and at column `q`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGather N E C wf) x idx (ix2 e q)
      = x (ix2 ⟨min (idx (ix2 e (0 : Fin 1))).toInt.toNat (N - 1), by omega⟩ q) := by
  unfold Host.gather
  congr 1
  funext a
  refine Fin.ext ?_
  match a with
  | ⟨0, h0⟩ =>
    show (rowGather N E C wf).start (ix2 e q) idx ⟨0, h0⟩ + (rowGather N E C wf).batchCoord (ix2 e q) ⟨0, h0⟩
      + (rowGather N E C wf).offCoord (ix2 e q) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGather N E C wf).startIndexMap from List.mem_singleton.mpr rfl)]
    have hsi : (rowGather N E C wf).siIdx (ix2 e q) ⟨List.idxOf (⟨0, h0⟩ : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    show (rowGather N E C wf).start (ix2 e q) idx ⟨1, h1⟩ + (rowGather N E C wf).batchCoord (ix2 e q) ⟨1, h1⟩
      + (rowGather N E C wf).offCoord (ix2 e q) ⟨1, h1⟩ = q.val
    rw [GatherDims.batchCoord_eq_zero _ _ _ List.not_mem_nil]
    have hs : (rowGather N E C wf).start (ix2 e q) idx ⟨1, h1⟩ = 0 := by
      unfold GatherDims.start
      rw [dif_neg (fun h => Nat.one_ne_zero (congrArg Fin.val (List.mem_singleton.mp h)))]
    rw [hs]
    simp only [Nat.add_zero, Nat.zero_add]
    rfl

end RowGather

/-! ## A gather of entries -/

section EntryGather
variable {α : Type}

/-- The dimension numbers of a gather of entries: operand `[N]`, start indices `[E, 1]`, result `[E]`; the operand's
    one axis is indexed and collapsed. -/
abbrev entryGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of entries read at `e`: the operand at the `e`-th index word, read signed and clamped into
    `[0, N − 1]`. -/
theorem entryGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (entryGather N E wf).start (ix1 e) idx 0 + (entryGather N E wf).batchCoord (ix1 e) 0
    + (entryGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather N E wf).startIndexMap from List.mem_singleton.mpr rfl)]
  have hsi : (entryGather N E wf).siIdx (ix1 e) ⟨List.idxOf (0 : Fin 1) (entryGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EntryGather

/-! ## A scatter of rows -/

section RowScatter

/-- The dimension numbers of a scatter of rows: operand `[N, C]`, scatter indices `[E, 1]`, updates `[E, C]`; the
    index names the operand's axis 0, which the update window does not have, and the updates' axis 1 is the window
    over the operand's axis 1. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window starts at the `e`-th index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (h0 : 0 < 2) :
    (rowScatter N E C wf).start (ix2 e q) idx ⟨0, h0⟩ = (idx (ix2 e (0 : Fin 1))).toInt := by
  unfold ScatterDims.start
  rw [dif_pos (show (⟨0, h0⟩ : Fin 2) ∈ (rowScatter N E C wf).scatterDimsToOperandDims from List.mem_singleton.mpr rfl)]
  have hsi : (rowScatter N E C wf).siIdx (ix2 e q)
      ⟨List.idxOf (⟨0, h0⟩ : Fin 2) (rowScatter N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1 the window starts at 0. -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (h1 : 1 < 2) :
    (rowScatter N E C wf).start (ix2 e q) idx ⟨1, h1⟩ = 0 := by
  unfold ScatterDims.start
  rw [dif_neg (fun h => Nat.one_ne_zero (congrArg Fin.val (List.mem_singleton.mp h)))]

/-- The operand's axis 0 has no window coordinate. -/
theorem rowScatter_window_zero {N E C : Nat}
    (wf : ScatterDims.WF ⟨2, ![N, C]⟩ ⟨2, ![E, 1]⟩ ⟨2, ![E, C]⟩ [1] [0] [0] 1)
    (e : Fin E) (q : Fin C) (h0 : 0 < 2) :
    (rowScatter N E C wf).window (ix2 e q) ⟨0, h0⟩ = 0 := by
  have hn : (⟨0, h0⟩ : Fin 2) ∉ (rowScatter N E C wf).sKept :=
    fun h => of_decide_eq_true (List.mem_filter.1 h).2 (List.mem_singleton.mpr rfl)
  unfold ScatterDims.window
  rw [dif_neg hn]

/-- On the operand's axis 1 the window coordinate is the update's column. -/
theorem rowScatter_window_one {N E C : Nat}
    (wf : ScatterDims.WF ⟨2, ![N, C]⟩ ⟨2, ![E, 1]⟩ ⟨2, ![E, C]⟩ [1] [0] [0] 1)
    (e : Fin E) (q : Fin C) (h1 : 1 < 2) :
    (rowScatter N E C wf).window (ix2 e q) ⟨1, h1⟩ = q.val := by
  have hm : (⟨1, h1⟩ : Fin 2) ∈ (rowScatter N E C wf).sKept :=
    List.mem_filter.2 ⟨List.mem_finRange _,
      decide_eq_true (fun h => Nat.one_ne_zero (congrArg Fin.val (List.mem_singleton.mp h)))⟩
  unfold ScatterDims.window
  rw [dif_pos hm]
  rfl

/-- An update entry `(e, q)` that lands at operand entry `i` has the `e`-th index word, read signed, equal to `i`'s
    row, and keeps its column. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatter N E C wf).resultIdx? (ix2 e q) idx = some i) :
    (idx (ix2 e (0 : Fin 1))).toInt = ((i 0).val : Int) ∧ (i 1).val = q.val := by
  unfold ScatterDims.resultIdx? at h
  split at h
  · rename_i hb
    have hi := Option.some.inj h
    subst hi
    have h02 : 0 < 2 := Nat.zero_lt_two
    have h12 : 1 < 2 := Nat.one_lt_two
    constructor
    · have hb0 := (hb ⟨0, h02⟩).1
      show _ = (((rowScatter N E C wf).start (ix2 e q) idx ⟨0, h02⟩
        + ((rowScatter N E C wf).window (ix2 e q) ⟨0, h02⟩ : Nat) : Int).toNat : Int)
      rw [rowScatter_start_zero, rowScatter_window_zero] at hb0 ⊢
      omega
    · show ((rowScatter N E C wf).start (ix2 e q) idx ⟨1, h12⟩
        + ((rowScatter N E C wf).window (ix2 e q) ⟨1, h12⟩ : Nat) : Int).toNat = q.val
      rw [rowScatter_start_one, rowScatter_window_one]
      omega
  · exact absurd h (by simp)

/-- So the index word of a landing update, read signed and clamped into `[0, N − 1]` as the matching gather of rows
    reads it, is the row it lands at. -/
theorem rowScatter_lands_clamp {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatter N E C wf).resultIdx? (ix2 e q) idx = some i) :
    min (idx (ix2 e (0 : Fin 1))).toInt.toNat (N - 1) = (i 0).val := by
  have h0 := (rowScatter_lands wf idx e q i h).1
  have hlt : (i 0).val < N := idx2_lt0 i
  rw [h0]
  omega

end RowScatter

/-! ## The wrap of a negative index, at a nonnegative index; a vector of indices as a column -/

section Wrap

/-- A word that is nonnegative when read signed is not signed-less-than zero: the comparison's bit is `0`. -/
theorem cmpi_slt_zero_of_nonneg {w : Nat} (x : BitVec w) (h : 0 ≤ x.toInt) : IntOp.cmpi .slt x 0#w = 0#1 := by
  have hs : x.slt 0#w = false := by
    simp only [BitVec.slt, BitVec.toInt_zero, decide_eq_false_iff_not, not_lt]
    exact h
  show BitVec.ofBool (x.slt 0#w) = 0#1
  rw [hs]
  rfl

/-- The normalisation of a possibly negative index — where the index is signed-less-than a splat `0`, the index plus a
    splat `m`, elsewhere the index — is the index itself wherever the index is nonnegative read signed. -/
theorem wrap_apply_of_nonneg {s0 s : Shape} {w : Nat} (dims : Fin s0.rank → Fin s.rank) (hb : s0.BroadcastsInDim s dims)
    (m : BitVec w) (a : IVec s w) (k : s.Idx) (h : 0 ≤ (a k).toInt) :
    select (cmpi .slt a (broadcastInDim s dims hb (constantI s0 w 0#w)))
      (addi a (broadcastInDim s dims hb (constantI s0 w m))) a k = a k := by
  have hc : cmpi .slt a (broadcastInDim s dims hb (constantI s0 w 0#w)) k = 0#1 :=
    cmpi_slt_zero_of_nonneg (a k) h
  rw [select_apply, hc, select_zero]

/-- A vector `[E]` broadcast to the column `[E, 1]` along axis 0 reads, at row `e`, the vector's entry `e`. -/
theorem column_apply {α : Type} {E : Nat} (hb : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hb v (ix2 e z) = v (ix1 e) := by
  unfold broadcastInDim
  congr 1
  funext a
  obtain rfl : a = 0 := Subsingleton.elim _ _
  refine Fin.ext ?_
  split
  · rename_i h1
    have hE : E = 1 := h1
    have := e.isLt
    show 0 = e.val
    omega
  · rfl

end Wrap

end Cert.Lib.EdgeRows
-- ==== Proof.KernelHost.lean ====
/-
  THE KERNEL PROGRAM'S HOST STRETCH BEFORE ITS FIRST REGION, read at an entry.

  Before the three regions the program looks up, with plain host gathers, everything the regions consume: the
  item's neighbours and relations at depth one and two (integer tables), the user's, the item's and the
  neighbours' embeddings, the relations' embeddings, and it transposes the two weight matrices and lays the two
  biases as rows. Each gather takes rows of a table by a vector of index words that is first wrapped (a negative
  word moved up by the table's height) and laid as a column; the depth-two lookups run on flattened vectors and
  are reshaped back. Read at one entry each of these arrays is the common function's table (`Cert.Spec`):
  the reshapes only re-associate the row-major position (`b·16 + k`, `k·16 + l`, `b·256 + j`).
-/
import proofs.«158850_j22935125360845_2_alg».proof.Proof.Gen.KernelIdeal.Launch
import proofs.«158850_j22935125360845_2_alg».proof.Proof.Spec
import proofs.«158850_j22935125360845_2_alg».proof.Proof.LibEdgeRows
import Idealize.ShloMosaic.Lib.Pipeline.Value
import Idealize.ShloMosaic.Lib.ValueLayout
import Idealize.ShloMosaic.Lib.StableHlo.Run

noncomputable section

namespace Cert.KernelHost

open Cert.KernelIdeal Cert.KernelIdeal.Gen
open Idealize.ShloMosaic Idealize.ShloMosaic.ValueIdx Idealize.ShloMosaic.StableHlo Idealize.ShloMosaic.TcCoe
open Cert.Lib.EdgeRows

/-! ## Rows of a table by a wrapped column of index words -/

/-- The wrap of a vector of index words as the program prints it: where a word is below zero read signed, the word
    plus `n`, elsewhere the word. -/
def wrapv {s : Shape} (hs : S_.BroadcastsInDim s ![]) (n : BitVec 32) (v : IVec s 32) : IVec s 32 :=
  select (cmpi .slt v (broadcastInDim s ![] hs (constantI S_ 32 0#32)))
    (addi v (broadcastInDim s ![] hs (constantI S_ 32 n))) v

theorem wrapv_apply {s : Shape} (hs : S_.BroadcastsInDim s ![]) (n : BitVec 32) (v : IVec s 32) (i : s.Idx) :
    wrapv hs n v i = Cert.Spec.wrapWord n (v i) := rfl

section Rows
variable {α : Type}

/-- Rows of a table `[N, C]` gathered by a vector `[E]` of index words that is wrapped by `n` and laid as a
    column: entry `(e, q)` is the table's entry at the row the `e`-th word selects — wrapped, read signed, clamped —
    and column `q`. -/
theorem rows_apply {N E C : Nat} (hN : 0 < N) (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C])
    (hd : d = rowGather N E C wf)
    (tbl : (⟨2, ![N, C]⟩ : Shape).Idx → α) (hc : (⟨1, ![E]⟩ : Shape).BroadcastsInDim ⟨2, ![E, 1]⟩ ![0])
    (hs : S_.BroadcastsInDim ⟨1, ![E]⟩ ![]) (n : BitVec 32) (v : IVec ⟨1, ![E]⟩ 32) (e : Fin E) (q : Fin C) :
    Host.gather d tbl (broadcastInDim ⟨2, ![E, 1]⟩ ![0] hc (wrapv hs n v)) (ix2 e q)
      = tbl (ix2 ⟨min (Cert.Spec.wrapWord n (v (ix1 e))).toInt.toNat (N - 1), by omega⟩ q) := by
  subst hd
  rw [rowGather_apply hN]
  have hw : broadcastInDim ⟨2, ![E, 1]⟩ ![0] hc (wrapv hs n v) (ix2 e (0 : Fin 1)) = Cert.Spec.wrapWord n (v (ix1 e)) := by
    rw [column_apply]; rfl
  exact congrArg tbl (congrArg (fun r => ix2 r q) (Fin.ext (by show min _ _ = min _ _; rw [hw])))

end Rows

/-! ## The stages, as functions of the arrays they read -/

section Stages

/-- Neighbour (or relation) words of every batch entry: rows of an adjacency table by the item words. -/
def nbrIdx (tbl : (⟨S100000x16, .i32⟩ : BufTy).Contents (Elt Ideal)) (v : (⟨S4096, .i32⟩ : BufTy).Contents (Elt Ideal)) :
    (⟨S4096x16, .i32⟩ : BufTy).Contents (Elt Ideal) :=
  Host.gather gather_S100000x16_S4096x1_S4096x16_1_0_n_n_0_1_116 tbl
    (broadcastInDim S4096x1 ![0] bcast_S4096_S4096x1_0 (wrapv bcast_S_S4096 100000#32 v))

/-- A `[4096, 16]` table of words as one vector of 65536. -/
def flat (M : (⟨S4096x16, .i32⟩ : BufTy).Contents (Elt Ideal)) : (⟨S65536, .i32⟩ : BufTy).Contents (Elt Ideal) :=
  shapeCast S65536 M shapeCasts_S4096x16_S65536

/-- Depth-two words: rows of an adjacency table by the flattened depth-one words, regrouped per batch entry. -/
def nbrIdx2 (tbl : (⟨S100000x16, .i32⟩ : BufTy).Contents (Elt Ideal)) (f : (⟨S65536, .i32⟩ : BufTy).Contents (Elt Ideal)) :
    (⟨S4096x256, .i32⟩ : BufTy).Contents (Elt Ideal) :=
  shapeCast S4096x256 (Host.gather gather_S100000x16_S65536x1_S65536x16_1_0_n_n_0_1_116 tbl
    (broadcastInDim S65536x1 ![0] bcast_S65536_S65536x1_0 (wrapv bcast_S_S65536 100000#32 f))) shapeCasts_S65536x16_S4096x256

/-- A `[4096, 256]` table of words as one vector. -/
def flat2 (M : (⟨S4096x256, .i32⟩ : BufTy).Contents (Elt Ideal)) : (⟨S1048576, .i32⟩ : BufTy).Contents (Elt Ideal) :=
  shapeCast S1048576 M shapeCasts_S4096x256_S1048576

/-- Rows of an embedding table of 100000 rows, one per batch entry. -/
def rowsB (tbl : (⟨S100000x64, .f32⟩ : BufTy).Contents (Elt Ideal)) (v : (⟨S4096, .i32⟩ : BufTy).Contents (Elt Ideal)) :
    (⟨S4096x64, .f32⟩ : BufTy).Contents (Elt Ideal) :=
  Host.gather gather_S100000x64_S4096x1_S4096x64_1_0_n_n_0_1_164 tbl
    (broadcastInDim S4096x1 ![0] bcast_S4096_S4096x1_0 (wrapv bcast_S_S4096 100000#32 v))

/-- Rows of that table by 65536 words, regrouped as `[4096, 16, 64]`. -/
def rowsBK (tbl : (⟨S100000x64, .f32⟩ : BufTy).Contents (Elt Ideal)) (f : (⟨S65536, .i32⟩ : BufTy).Contents (Elt Ideal)) :
    (⟨S4096x16x64, .f32⟩ : BufTy).Contents (Elt Ideal) :=
  shapeCast S4096x16x64 (Host.gather gather_S100000x64_S65536x1_S65536x64_1_0_n_n_0_1_164 tbl
    (broadcastInDim S65536x1 ![0] bcast_S65536_S65536x1_0 (wrapv bcast_S_S65536 100000#32 f))) shapeCasts_S65536x64_S4096x16x64

/-- Rows of that table by 1048576 words, regrouped as `[4096, 256, 64]`. -/
def rowsBKL (tbl : (⟨S100000x64, .f32⟩ : BufTy).Contents (Elt Ideal)) (f : (⟨S1048576, .i32⟩ : BufTy).Contents (Elt Ideal)) :
    (⟨S4096x256x64, .f32⟩ : BufTy).Contents (Elt Ideal) :=
  shapeCast S4096x256x64 (Host.gather gather_S100000x64_S1048576x1_S1048576x64_1_0_n_n_0_1_164 tbl
    (broadcastInDim S1048576x1 ![0] bcast_S1048576_S1048576x1_0 (wrapv bcast_S_S1048576 100000#32 f))) shapeCasts_S1048576x64_S4096x256x64

/-- Rows of the relation table (33 rows) by 65536 words, regrouped as `[4096, 16, 64]`. -/
def relBK (tbl : (⟨S33x64, .f32⟩ : BufTy).Contents (Elt Ideal)) (f : (⟨S65536, .i32⟩ : BufTy).Contents (Elt Ideal)) :
    (⟨S4096x16x64, .f32⟩ : BufTy).Contents (Elt Ideal) :=
  shapeCast S4096x16x64 (Host.gather gather_S33x64_S65536x1_S65536x64_1_0_n_n_0_1_164 tbl
    (broadcastInDim S65536x1 ![0] bcast_S65536_S65536x1_0 (wrapv bcast_S_S65536 33#32 f))) shapeCasts_S65536x64_S4096x16x64

/-- Rows of the relation table by 1048576 words, regrouped as `[4096, 256, 64]`. -/
def relBKL (tbl : (⟨S33x64, .f32⟩ : BufTy).Contents (Elt Ideal)) (f : (⟨S1048576, .i32⟩ : BufTy).Contents (Elt Ideal)) :
    (⟨S4096x256x64, .f32⟩ : BufTy).Contents (Elt Ideal) :=
  shapeCast S4096x256x64 (Host.gather gather_S33x64_S1048576x1_S1048576x64_1_0_n_n_0_1_164 tbl
    (broadcastInDim S1048576x1 ![0] bcast_S1048576_S1048576x1_0 (wrapv bcast_S_S1048576 33#32 f))) shapeCasts_S1048576x64_S4096x256x64

/-- `[4096, 16, 64]` with a unit axis after the batch axis. -/
def unit1 (X : (⟨S4096x16x64, .f32⟩ : BufTy).Contents (Elt Ideal)) : (⟨S4096x1x16x64, .f32⟩ : BufTy).Contents (Elt Ideal) :=
  shapeCast S4096x1x16x64 X shapeCasts_S4096x16x64_S4096x1x16x64

/-- `[4096, 256, 64]` with the middle axis split as 16 × 16. -/
def split (X : (⟨S4096x256x64, .f32⟩ : BufTy).Contents (Elt Ideal)) : (⟨S4096x16x16x64, .f32⟩ : BufTy).Contents (Elt Ideal) :=
  shapeCast S4096x16x16x64 X shapeCasts_S4096x256x64_S4096x16x16x64

/-- `[4096, 64]` with a unit middle axis. -/
def mid (X : (⟨S4096x64, .f32⟩ : BufTy).Contents (Elt Ideal)) : (⟨S4096x1x64, .f32⟩ : BufTy).Contents (Elt Ideal) :=
  broadcastInDim S4096x1x64 ![0, 2] bcast_S4096x64_S4096x1x64_0_2 X

/-- A square matrix transposed. -/
def tr (X : (⟨S64x64, .f32⟩ : BufTy).Contents (Elt Ideal)) : (⟨S64x64, .f32⟩ : BufTy).Contents (Elt Ideal) :=
  transpose S64x64 [1, 0] X transposes_S64x64_S64x64_1_0

/-- A vector laid as a row. -/
def row (X : (⟨S64, .f32⟩ : BufTy).Contents (Elt Ideal)) : (⟨S1x64, .f32⟩ : BufTy).Contents (Elt Ideal) :=
  shapeCast S1x64 X shapeCasts_S64_S1x64

end Stages

/-! ## Each stage at an entry -/

section StageReads

theorem nbrIdx_at (tbl : (⟨S100000x16, .i32⟩ : BufTy).Contents (Elt Ideal)) (v : (⟨S4096, .i32⟩ : BufTy).Contents (Elt Ideal))
    (b : Fin 4096) (k : Fin 16) : nbrIdx tbl v (ix2 b k) = tbl (ix2 (Cert.Spec.entRow (v (ix1 b))) k) := by
  unfold nbrIdx
  exact rows_apply (by decide) _ gather_S100000x16_S4096x1_S4096x16_1_0_n_n_0_1_116.wf rfl tbl _ _ _ v b k

theorem flat_at (M : (⟨S4096x16, .i32⟩ : BufTy).Contents (Elt Ideal)) (b : Fin 4096) (k : Fin 16) :
    flat M (ix1 (⟨b.val * 16 + k.val, by omega⟩ : Fin 65536)) = M (ix2 b k) := by
  unfold flat
  exact shapeCast_apply M _ _ _ (by rw [Shape.rowMajor_val_two, Shape.rowMajor_val_one]; rfl)

theorem nbrIdx2_at (tbl : (⟨S100000x16, .i32⟩ : BufTy).Contents (Elt Ideal)) (f : (⟨S65536, .i32⟩ : BufTy).Contents (Elt Ideal))
    (b : Fin 4096) (k l : Fin 16) :
    nbrIdx2 tbl f (ix2 b (⟨k.val * 16 + l.val, by omega⟩ : Fin 256))
      = tbl (ix2 (Cert.Spec.entRow (f (ix1 (⟨b.val * 16 + k.val, by omega⟩ : Fin 65536)))) l) := by
  unfold nbrIdx2
  rw [shapeCast_apply _ shapeCasts_S65536x16_S4096x256 _ (ix2 (⟨b.val * 16 + k.val, by omega⟩ : Fin 65536) l)
    (by rw [Shape.rowMajor_val_two, Shape.rowMajor_val_two]
        show (b.val * 16 + k.val) * 16 + l.val = b.val * 256 + (k.val * 16 + l.val); omega)]
  exact rows_apply (by decide) _ gather_S100000x16_S65536x1_S65536x16_1_0_n_n_0_1_116.wf rfl tbl _ _ _ f _ l

theorem flat2_at (M : (⟨S4096x256, .i32⟩ : BufTy).Contents (Elt Ideal)) (b : Fin 4096) (j : Fin 256) :
    flat2 M (ix1 (⟨b.val * 256 + j.val, by omega⟩ : Fin 1048576)) = M (ix2 b j) := by
  unfold flat2
  exact shapeCast_apply M _ _ _ (by rw [Shape.rowMajor_val_two, Shape.rowMajor_val_one]; rfl)

theorem rowsB_at (tbl : (⟨S100000x64, .f32⟩ : BufTy).Contents (Elt Ideal)) (v : (⟨S4096, .i32⟩ : BufTy).Contents (Elt Ideal))
    (b : Fin 4096) (d : Fin 64) : rowsB tbl v (ix2 b d) = tbl (ix2 (Cert.Spec.entRow (v (ix1 b))) d) := by
  unfold rowsB
  exact rows_apply (by decide) _ gather_S100000x64_S4096x1_S4096x64_1_0_n_n_0_1_164.wf rfl tbl _ _ _ v b d

theorem rowsBK_at (tbl : (⟨S100000x64, .f32⟩ : BufTy).Contents (Elt Ideal)) (f : (⟨S65536, .i32⟩ : BufTy).Contents (Elt Ideal))
    (b : Fin 4096) (k : Fin 16) (d : Fin 64) :
    rowsBK tbl f (ix3 b k d) = tbl (ix2 (Cert.Spec.entRow (f (ix1 (⟨b.val * 16 + k.val, by omega⟩ : Fin 65536)))) d) := by
  unfold rowsBK
  rw [shapeCast_apply _ shapeCasts_S65536x64_S4096x16x64 _ (ix2 (⟨b.val * 16 + k.val, by omega⟩ : Fin 65536) d)
    (by rw [Shape.rowMajor_val_two, Shape.rowMajor_val_three]; rfl)]
  exact rows_apply (by decide) _ gather_S100000x64_S65536x1_S65536x64_1_0_n_n_0_1_164.wf rfl tbl _ _ _ f _ d

theorem rowsBKL_at (tbl : (⟨S100000x64, .f32⟩ : BufTy).Contents (Elt Ideal)) (f : (⟨S1048576, .i32⟩ : BufTy).Contents (Elt Ideal))
    (b : Fin 4096) (j : Fin 256) (d : Fin 64) :
    rowsBKL tbl f (ix3 b j d) = tbl (ix2 (Cert.Spec.entRow (f (ix1 (⟨b.val * 256 + j.val, by omega⟩ : Fin 1048576)))) d) := by
  unfold rowsBKL
  rw [shapeCast_apply _ shapeCasts_S1048576x64_S4096x256x64 _ (ix2 (⟨b.val * 256 + j.val, by omega⟩ : Fin 1048576) d)
    (by rw [Shape.rowMajor_val_two, Shape.rowMajor_val_three]; rfl)]
  exact rows_apply (by decide) _ gather_S100000x64_S1048576x1_S1048576x64_1_0_n_n_0_1_164.wf rfl tbl _ _ _ f _ d

theorem relBK_at (tbl : (⟨S33x64, .f32⟩ : BufTy).Contents (Elt Ideal)) (f : (⟨S65536, .i32⟩ : BufTy).Contents (Elt Ideal))
    (b : Fin 4096) (k : Fin 16) (d : Fin 64) :
    relBK tbl f (ix3 b k d) = tbl (ix2 (Cert.Spec.relRow (f (ix1 (⟨b.val * 16 + k.val, by omega⟩ : Fin 65536)))) d) := by
  unfold relBK
  rw [shapeCast_apply _ shapeCasts_S65536x64_S4096x16x64 _ (ix2 (⟨b.val * 16 + k.val, by omega⟩ : Fin 65536) d)
    (by rw [Shape.rowMajor_val_two, Shape.rowMajor_val_three]; rfl)]
  exact rows_apply (by decide) _ gather_S33x64_S65536x1_S65536x64_1_0_n_n_0_1_164.wf rfl tbl _ _ _ f _ d

theorem relBKL_at (tbl : (⟨S33x64, .f32⟩ : BufTy).Contents (Elt Ideal)) (f : (⟨S1048576, .i32⟩ : BufTy).Contents (Elt Ideal))
    (b : Fin 4096) (j : Fin 256) (d : Fin 64) :
    relBKL tbl f (ix3 b j d) = tbl (ix2 (Cert.Spec.relRow (f (ix1 (⟨b.val * 256 + j.val, by omega⟩ : Fin 1048576)))) d) := by
  unfold relBKL
  rw [shapeCast_apply _ shapeCasts_S1048576x64_S4096x256x64 _ (ix2 (⟨b.val * 256 + j.val, by omega⟩ : Fin 1048576) d)
    (by rw [Shape.rowMajor_val_two, Shape.rowMajor_val_three]; rfl)]
  exact rows_apply (by decide) _ gather_S33x64_S1048576x1_S1048576x64_1_0_n_n_0_1_164.wf rfl tbl _ _ _ f _ d

theorem unit1_at (X : (⟨S4096x16x64, .f32⟩ : BufTy).Contents (Elt Ideal)) (b : Fin 4096) (k : Fin 16) (d : Fin 64) :
    unit1 X (ix4 b (0 : Fin 1) k d) = X (ix3 b k d) := by
  unfold unit1
  exact shapeCast_apply X _ _ _ (by rw [Shape.rowMajor_val_three, Shape.rowMajor_val_four]
                                    show (b.val * 16 + k.val) * 64 + d.val = ((b.val * 1 + 0) * 16 + k.val) * 64 + d.val; omega)

theorem split_at (X : (⟨S4096x256x64, .f32⟩ : BufTy).Contents (Elt Ideal)) (b : Fin 4096) (k l : Fin 16) (d : Fin 64) :
    split X (ix4 b k l d) = X (ix3 b (⟨k.val * 16 + l.val, by omega⟩ : Fin 256) d) := by
  unfold split
  exact shapeCast_apply X _ _ _ (by rw [Shape.rowMajor_val_three, Shape.rowMajor_val_four]
                                    show (b.val * 256 + (k.val * 16 + l.val)) * 64 + d.val = ((b.val * 16 + k.val) * 16 + l.val) * 64 + d.val; omega)

theorem mid_at (X : (⟨S4096x64, .f32⟩ : BufTy).Contents (Elt Ideal)) (b : Fin 4096) (d : Fin 64) :
    mid X (ix3 b (0 : Fin 1) d) = X (ix2 b d) := by
  unfold mid
  exact broadcastInDim_apply _ bcast_S4096x64_S4096x1x64_0_2 X _ (ix2 b d) (fun a => match a with
    | ⟨0, _⟩ => by show b.val = if (4096 : Nat) = 1 then 0 else b.val; rw [if_neg (by decide)]
    | ⟨1, _⟩ => by show d.val = if (64 : Nat) = 1 then 0 else d.val; rw [if_neg (by decide)])

theorem tr_at (X : (⟨S64x64, .f32⟩ : BufTy).Contents (Elt Ideal)) (d e : Fin 64) : tr X (ix2 d e) = X (ix2 e d) := by
  unfold tr
  exact transpose_ix2_apply X transposes_S64x64_S64x64_1_0 d e

theorem row_at (X : (⟨S64, .f32⟩ : BufTy).Contents (Elt Ideal)) (e : Fin 64) : row X (ix2 (0 : Fin 1) e) = X (ix1 e) := by
  unfold row
  exact shapeCast_a_1a_apply X shapeCasts_S64_S1x64 0 e

end StageReads

end Cert.KernelHost

end
-- ==== Proof.KernelFold.lean ====
/-
  THE KERNEL PROGRAM'S BUFFER CONTENTS FROM REGION TO REGION.

  The program is a fold: 109 host operations, region 0, region 1, one reshape, region 2. A region changes only its
  output array; its input arrays and every other buffer keep what they held when it was entered, and the reshape
  writes one buffer. So what each later region reads is either what the first host stretch left (`V1`), or an
  earlier region's output array: region 2 reads region 0's output as its own vectors and region 1's output,
  with a unit axis added, as its neighbours' vectors. The result buffer ends at region 2's output array.
-/
import proofs.«158850_j22935125360845_2_alg».proof.Proof.KernelIdealFrame
import proofs.«158850_j22935125360845_2_alg».proof.Proof.KernelHost

noncomputable section

namespace Cert.KernelFold

open Cert.KernelIdeal Cert.KernelIdeal.Gen Cert.KernelIdeal.GenP
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg) (c : Dev nD)

/-! ## A region's input arrays pass through it -/

theorem W2_in (w : Fin cfg0.W) (hin : (cfg0.win w).isOut = false) :
    W2 m ρ c (Proc.devRef .tc (Pipeline.arrRef spec0 w)) = W1 m ρ c (Proc.devRef .tc (Pipeline.arrRef spec0 w)) := by
  rw [W2_arr, Dat.arrAt_in _ w hin, A_eq0]

theorem W3_in (w : Fin cfg1.W) (hin : (cfg1.win w).isOut = false) :
    W3 m ρ c (Proc.devRef .tc (Pipeline.arrRef spec1 w)) = W2 m ρ c (Proc.devRef .tc (Pipeline.arrRef spec1 w)) := by
  rw [W3_arr, Dat.arrAt_in _ w hin, A_eq1]

/-! ## What region 1 reads -/

theorem r1_sv : V2 m ρ c main_v53 = V1 m ρ c main_v53 := W2_of_ne m ρ c main_v53 (by decide)
theorem r1_nv : V2 m ρ c main_v83 = V1 m ρ c main_v83 := W2_of_ne m ρ c main_v83 (by decide)
theorem r1_nr : V2 m ρ c main_v84 = V1 m ρ c main_v84 := W2_of_ne m ρ c main_v84 (by decide)
theorem r1_ue : V2 m ρ c main_v37 = V1 m ρ c main_v37 := W2_in m ρ c 3 rfl
theorem r1_wt : V2 m ρ c main_v85 = V1 m ρ c main_v85 := W2_in m ρ c 4 rfl
theorem r1_bias : V2 m ρ c main_v87 = V1 m ρ c main_v87 := W2_in m ρ c 5 rfl

/-! ## What region 2 reads -/

/-- Its own vectors are region 0's output array. -/
theorem r2_sv : V4 m ρ c main_v89 = (dat0 (V1 m ρ) c).arrAt 6 cfg0.N :=
  calc V4 m ρ c main_v89
    _ = W3 m ρ c (Proc.devRef .tc main_v89) := StableHlo.after_of_forall_not_mem (b := Proc.devRef .tc main_v89) _ _ (List.forall_iff_forall_mem.mp (by
      simp only [hostOps2, List.Forall, StableHlo.reshape_writes, Finset.mem_singleton]
      exact StableHlo.devRef_ne_of_ne (by decide)))
    _ = W2 m ρ c (Proc.devRef .tc main_v89) := W3_of_ne m ρ c main_v89 (by decide)
    _ = (dat0 (V1 m ρ) c).arrAt 6 cfg0.N := W2_arr m ρ c 6

/-- Its neighbours' vectors are region 1's output array with a unit axis after the batch axis. -/
theorem r2_nv : V4 m ρ c main_v91 = Cert.KernelHost.unit1 ((dat1 (V2 m ρ) c).arrAt 6 cfg1.N) := by
  show StableHlo.after (hostOps2 (F := Ideal)) (W3 m ρ c) (Proc.devRef .tc main_v91) = _
  after_results
  rw [W3_arr m ρ c 6]
  rfl

theorem r2_nr : V4 m ρ c main_v82 = V1 m ρ c main_v82 :=
  calc V4 m ρ c main_v82
    _ = W3 m ρ c (Proc.devRef .tc main_v82) := StableHlo.after_of_forall_not_mem (b := Proc.devRef .tc main_v82) _ _ (List.forall_iff_forall_mem.mp (by
      simp only [hostOps2, List.Forall, StableHlo.reshape_writes, Finset.mem_singleton]
      exact StableHlo.devRef_ne_of_ne (by decide)))
    _ = W2 m ρ c (Proc.devRef .tc main_v82) := W3_of_ne m ρ c main_v82 (by decide)
    _ = V1 m ρ c main_v82 := W2_in m ρ c 2 rfl

theorem r2_ue : V4 m ρ c main_v37 = V1 m ρ c main_v37 :=
  calc V4 m ρ c main_v37
    _ = W3 m ρ c (Proc.devRef .tc main_v37) := StableHlo.after_of_forall_not_mem (b := Proc.devRef .tc main_v37) _ _ (List.forall_iff_forall_mem.mp (by
      simp only [hostOps2, List.Forall, StableHlo.reshape_writes, Finset.mem_singleton]
      exact StableHlo.devRef_ne_of_ne (by decide)))
    _ = W2 m ρ c (Proc.devRef .tc main_v37) := W3_in m ρ c 3 rfl
    _ = V1 m ρ c main_v37 := W2_in m ρ c 3 rfl

theorem r2_wt : V4 m ρ c main_v86 = V1 m ρ c main_v86 :=
  calc V4 m ρ c main_v86
    _ = W3 m ρ c (Proc.devRef .tc main_v86) := StableHlo.after_of_forall_not_mem (b := Proc.devRef .tc main_v86) _ _ (List.forall_iff_forall_mem.mp (by
      simp only [hostOps2, List.Forall, StableHlo.reshape_writes, Finset.mem_singleton]
      exact StableHlo.devRef_ne_of_ne (by decide)))
    _ = W2 m ρ c (Proc.devRef .tc main_v86) := W3_of_ne m ρ c main_v86 (by decide)
    _ = V1 m ρ c main_v86 := W2_of_ne m ρ c main_v86 (by decide)

theorem r2_bias : V4 m ρ c main_v88 = V1 m ρ c main_v88 :=
  calc V4 m ρ c main_v88
    _ = W3 m ρ c (Proc.devRef .tc main_v88) := StableHlo.after_of_forall_not_mem (b := Proc.devRef .tc main_v88) _ _ (List.forall_iff_forall_mem.mp (by
      simp only [hostOps2, List.Forall, StableHlo.reshape_writes, Finset.mem_singleton]
      exact StableHlo.devRef_ne_of_ne (by decide)))
    _ = W2 m ρ c (Proc.devRef .tc main_v88) := W3_of_ne m ρ c main_v88 (by decide)
    _ = V1 m ρ c main_v88 := W2_of_ne m ρ c main_v88 (by decide)

/-- The result buffer ends at region 2's output array. -/
theorem result_arr : W5 m ρ c (Proc.devRef .tc main_v92) = (dat2 (V4 m ρ) c).arrAt 6 cfg2.N := W5_arr m ρ c 6

end Cert.KernelFold

end
-- ==== Proof.KernelTables.lean ====
/-
  THE ARRAYS THE KERNEL PROGRAM'S REGIONS CONSUME, as the first host stretch leaves them, read at an entry.

  After the 109 host operations before the first region, from any buffer contents `W`: the user's, the item's, the
  depth-one and depth-two neighbours' and the relations' embedding arrays are, entry by entry, the common
  function's tables of the argument arrays (`Cert.Spec.userVec` … `rel2Vec`), the two weight matrices are
  transposed and the two biases laid as rows. Each array is first identified with the composition of the stages
  that compute it (the fold of the operations, evaluated at that buffer) and then read stage by stage.
-/
import proofs.«158850_j22935125360845_2_alg».proof.Proof.KernelHost

noncomputable section

namespace Cert.KernelTables

open Cert.KernelIdeal Cert.KernelIdeal.Gen Cert.KernelHost
open Idealize.ShloMosaic Idealize.ShloMosaic.ValueIdx Idealize.ShloMosaic.StableHlo Idealize.ShloMosaic.TcCoe

variable (W : Valuation τ sig (Elt Ideal))

/-! ## Each consumed array as a composition of stages -/

theorem v37_term : StableHlo.after (hostOps0 (F := Ideal)) W (Proc.devRef .tc main_v37) = rowsB (W (Proc.devRef .tc main_arg4)) (W (Proc.devRef .tc main_arg0)) := by
  after_results_simp; rfl

theorem v45_term : StableHlo.after (hostOps0 (F := Ideal)) W (Proc.devRef .tc main_v45) = mid (rowsB (W (Proc.devRef .tc main_arg5)) (W (Proc.devRef .tc main_arg1))) := by
  after_results_simp; rfl

theorem v53_term : StableHlo.after (hostOps0 (F := Ideal)) W (Proc.devRef .tc main_v53)
    = rowsBK (W (Proc.devRef .tc main_arg5)) (flat (nbrIdx (W (Proc.devRef .tc main_arg2)) (W (Proc.devRef .tc main_arg1)))) := by
  after_results_simp; rfl

theorem v81_term : StableHlo.after (hostOps0 (F := Ideal)) W (Proc.devRef .tc main_v81)
    = unit1 (rowsBK (W (Proc.devRef .tc main_arg5)) (flat (nbrIdx (W (Proc.devRef .tc main_arg2)) (W (Proc.devRef .tc main_arg1))))) := by
  after_results_simp; rfl

theorem v82_term : StableHlo.after (hostOps0 (F := Ideal)) W (Proc.devRef .tc main_v82)
    = unit1 (relBK (W (Proc.devRef .tc main_arg6)) (flat (nbrIdx (W (Proc.devRef .tc main_arg3)) (W (Proc.devRef .tc main_arg1))))) := by
  after_results_simp; rfl

theorem v83_term : StableHlo.after (hostOps0 (F := Ideal)) W (Proc.devRef .tc main_v83)
    = split (rowsBKL (W (Proc.devRef .tc main_arg5)) (flat2 (nbrIdx2 (W (Proc.devRef .tc main_arg2)) (flat (nbrIdx (W (Proc.devRef .tc main_arg2)) (W (Proc.devRef .tc main_arg1))))))) := by
  after_results_simp; rfl

theorem v84_term : StableHlo.after (hostOps0 (F := Ideal)) W (Proc.devRef .tc main_v84)
    = split (relBKL (W (Proc.devRef .tc main_arg6)) (flat2 (nbrIdx2 (W (Proc.devRef .tc main_arg3)) (flat (nbrIdx (W (Proc.devRef .tc main_arg2)) (W (Proc.devRef .tc main_arg1))))))) := by
  after_results_simp; rfl

theorem v85_term : StableHlo.after (hostOps0 (F := Ideal)) W (Proc.devRef .tc main_v85) = tr (W (Proc.devRef .tc main_arg7)) := by
  after_results_simp; rfl

theorem v86_term : StableHlo.after (hostOps0 (F := Ideal)) W (Proc.devRef .tc main_v86) = tr (W (Proc.devRef .tc main_arg9)) := by
  after_results_simp; rfl

theorem v87_term : StableHlo.after (hostOps0 (F := Ideal)) W (Proc.devRef .tc main_v87) = row (W (Proc.devRef .tc main_arg8)) := by
  after_results_simp; rfl

theorem v88_term : StableHlo.after (hostOps0 (F := Ideal)) W (Proc.devRef .tc main_v88) = row (W (Proc.devRef .tc main_arg10)) := by
  after_results_simp; rfl

/-! ## Read at an entry -/

theorem user_at (b : Fin 4096) (d : Fin 64) :
    StableHlo.after (hostOps0 (F := Ideal)) W (Proc.devRef .tc main_v37) (ix2 b d) = Cert.Spec.userVec (W (Proc.devRef .tc main_arg0)) (W (Proc.devRef .tc main_arg4)) b d := by
  rw [v37_term, rowsB_at]; rfl

theorem item_at (b : Fin 4096) (d : Fin 64) :
    StableHlo.after (hostOps0 (F := Ideal)) W (Proc.devRef .tc main_v45) (ix3 b (0 : Fin 1) d) = Cert.Spec.itemVec (W (Proc.devRef .tc main_arg1)) (W (Proc.devRef .tc main_arg5)) b d := by
  rw [v45_term, mid_at, rowsB_at]; rfl

theorem nbr1_at (b : Fin 4096) (k : Fin 16) (d : Fin 64) :
    StableHlo.after (hostOps0 (F := Ideal)) W (Proc.devRef .tc main_v53) (ix3 b k d)
      = Cert.Spec.nbr1Vec (W (Proc.devRef .tc main_arg1)) (W (Proc.devRef .tc main_arg2)) (W (Proc.devRef .tc main_arg5)) b k d := by
  rw [v53_term, rowsBK_at, flat_at, nbrIdx_at]; rfl

theorem nbr1u_at (b : Fin 4096) (k : Fin 16) (d : Fin 64) :
    StableHlo.after (hostOps0 (F := Ideal)) W (Proc.devRef .tc main_v81) (ix4 b (0 : Fin 1) k d)
      = Cert.Spec.nbr1Vec (W (Proc.devRef .tc main_arg1)) (W (Proc.devRef .tc main_arg2)) (W (Proc.devRef .tc main_arg5)) b k d := by
  rw [v81_term, unit1_at, rowsBK_at, flat_at, nbrIdx_at]; rfl

theorem rel1u_at (b : Fin 4096) (k : Fin 16) (d : Fin 64) :
    StableHlo.after (hostOps0 (F := Ideal)) W (Proc.devRef .tc main_v82) (ix4 b (0 : Fin 1) k d)
      = Cert.Spec.rel1Vec (W (Proc.devRef .tc main_arg1)) (W (Proc.devRef .tc main_arg3)) (W (Proc.devRef .tc main_arg6)) b k d := by
  rw [v82_term, unit1_at, relBK_at, flat_at, nbrIdx_at]; rfl

theorem nbr2_at (b : Fin 4096) (k l : Fin 16) (d : Fin 64) :
    StableHlo.after (hostOps0 (F := Ideal)) W (Proc.devRef .tc main_v83) (ix4 b k l d)
      = Cert.Spec.nbr2Vec (W (Proc.devRef .tc main_arg1)) (W (Proc.devRef .tc main_arg2)) (W (Proc.devRef .tc main_arg5)) b k l d := by
  rw [v83_term, split_at, rowsBKL_at, flat2_at, nbrIdx2_at, flat_at, nbrIdx_at]; rfl

theorem rel2_at (b : Fin 4096) (k l : Fin 16) (d : Fin 64) :
    StableHlo.after (hostOps0 (F := Ideal)) W (Proc.devRef .tc main_v84) (ix4 b k l d)
      = Cert.Spec.rel2Vec (W (Proc.devRef .tc main_arg1)) (W (Proc.devRef .tc main_arg2)) (W (Proc.devRef .tc main_arg3)) (W (Proc.devRef .tc main_arg6)) b k l d := by
  rw [v84_term, split_at, relBKL_at, flat2_at, nbrIdx2_at, flat_at, nbrIdx_at]; rfl

theorem wt0_at (d e : Fin 64) : StableHlo.after (hostOps0 (F := Ideal)) W (Proc.devRef .tc main_v85) (ix2 d e) = W (Proc.devRef .tc main_arg7) (ix2 e d) := by
  rw [v85_term, tr_at]

theorem wt1_at (d e : Fin 64) : StableHlo.after (hostOps0 (F := Ideal)) W (Proc.devRef .tc main_v86) (ix2 d e) = W (Proc.devRef .tc main_arg9) (ix2 e d) := by
  rw [v86_term, tr_at]

theorem bias0_at (e : Fin 64) : StableHlo.after (hostOps0 (F := Ideal)) W (Proc.devRef .tc main_v87) (ix2 (0 : Fin 1) e) = W (Proc.devRef .tc main_arg8) (ix1 e) := by
  rw [v87_term, row_at]

theorem bias1_at (e : Fin 64) : StableHlo.after (hostOps0 (F := Ideal)) W (Proc.devRef .tc main_v88) (ix2 (0 : Fin 1) e) = W (Proc.devRef .tc main_arg10) (ix1 e) := by
  rw [v88_term, row_at]

end Cert.KernelTables

end
-- ==== Proof.KernelWindows0.lean ====
import proofs.«158850_j22935125360845_2_alg».proof.Proof.Gen.KernelIdeal.Launch
import proofs.«158850_j22935125360845_2_alg».proof.Proof.Gen.KernelIdeal.Points
import Idealize.ShloMosaic.Lib.Pipeline.Value
import Idealize.ShloMosaic.Lib.ValueIdx

noncomputable section

namespace Cert.KernelBlocks

open Cert.KernelIdeal Cert.KernelIdeal.Gen Idealize.ShloMosaic Idealize.ShloMosaic.ValueIdx
open Idealize.ShloMosaic.TcCoe Idealize.SL.Sem

/-! # The first region's windows: which rows of its array each block is

The grid has eight points. At point `t` every row-blocked window holds rows `512 t … 512 t + 511` of its array and
all of the other axes; the 64×64 weight and the 1×64 bias are fetched whole. The written-back blocks of the result
tile its 4096 rows. -/

/-- The first region's grid has eight points. -/
theorem N0 : cfg0.N = 8 := N_0
/-- A grid point of the first region is below 8. -/
theorem lt0 (t : Fin cfg0.N) : t.val < 8 := Nat.lt_of_lt_of_eq t.isLt N0
/-- Row `p` of the block at point `t` is row `512 t + p` of the array. -/
abbrev row0 (t : Fin cfg0.N) (p : Fin 512) : Fin 4096 := ⟨t.val * 512 + p.val, by have := lt0 t; omega⟩

/-- The index maps, decided over the grid: block `t` on the row axis, block 0 on every other axis. -/
theorem index0_0 : ∀ t : Fin cfg0.N,
    win0_0.index t (0 : Fin 3) = t.val ∧ win0_0.index t (1 : Fin 3) = 0 ∧ win0_0.index t (2 : Fin 3) = 0 :=
  (by decide +kernel : ∀ t : Fin grid0.N, _)
theorem index0_1 : ∀ t : Fin cfg0.N,
    win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)
theorem index0_2 : ∀ t : Fin cfg0.N,
    win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)
theorem index0_3 : ∀ t : Fin cfg0.N, win0_3.index t (0 : Fin 2) = t.val ∧ win0_3.index t (1 : Fin 2) = 0 :=
  (by decide +kernel : ∀ t : Fin grid0.N, _)
theorem index0_4 : ∀ t : Fin cfg0.N, win0_4.index t (0 : Fin 2) = 0 ∧ win0_4.index t (1 : Fin 2) = 0 :=
  (by decide +kernel : ∀ t : Fin grid0.N, _)
theorem index0_5 : ∀ t : Fin cfg0.N, win0_5.index t (0 : Fin 2) = 0 ∧ win0_5.index t (1 : Fin 2) = 0 :=
  (by decide +kernel : ∀ t : Fin grid0.N, _)
theorem index0_6 : ∀ t : Fin cfg0.N,
    win0_6.index t (0 : Fin 3) = t.val ∧ win0_6.index t (1 : Fin 3) = 0 ∧ win0_6.index t (2 : Fin 3) = 0 :=
  (by decide +kernel : ∀ t : Fin grid0.N, _)

/-- Window 0's block at point `t`, read off contents `A` of its array: row `p` is row `512 t + p` of `A`. -/
theorem read0_0 {Val : EltTy → Type} (A : S4096x1x64.Idx → Val .f32) (t : Fin cfg0.N) (p : Fin 512) (d : Fin 64) :
    ((cfg0.win 0).blk t).view.read Val A (ix3 p 0 d : S512x1x64.Idx) = A (ix3 (row0 t p) 0 d) := by
  rw [View.read_apply]
  show A _ = A _
  refine congrArg A ?_
  obtain ⟨e0, e1, e2⟩ := index0_0 t
  funext a; apply Fin.ext
  match a with
  | ⟨0, _⟩ => show win0_0.index t (0 : Fin 3) * 512 + 1 * p.val = t.val * 512 + p.val; rw [e0]; omega
  | ⟨1, _⟩ => show win0_0.index t (1 : Fin 3) * 1 + 1 * 0 = 0; rw [e1]
  | ⟨2, _⟩ => show win0_0.index t (2 : Fin 3) * 64 + 1 * d.val = d.val; rw [e2]; omega

/-- Window 1's block at point `t`: row `p` is row `512 t + p` of its array, all 16 × 64 entries of it. -/
theorem read0_1 {Val : EltTy → Type} (A : S4096x1x16x64.Idx → Val .f32) (t : Fin cfg0.N) (p : Fin 512) (k : Fin 16) (d : Fin 64) :
    ((cfg0.win 1).blk t).view.read Val A (ix4 p 0 k d : S512x1x16x64.Idx) = A (ix4 (row0 t p) 0 k d) := by
  rw [View.read_apply]
  show A _ = A _
  refine congrArg A ?_
  obtain ⟨e0, e1, e2, e3⟩ := index0_1 t
  funext a; apply Fin.ext
  match a with
  | ⟨0, _⟩ => show win0_1.index t (0 : Fin 4) * 512 + 1 * p.val = t.val * 512 + p.val; rw [e0]; omega
  | ⟨1, _⟩ => show win0_1.index t (1 : Fin 4) * 1 + 1 * 0 = 0; rw [e1]
  | ⟨2, _⟩ => show win0_1.index t (2 : Fin 4) * 16 + 1 * k.val = k.val; rw [e2]; omega
  | ⟨3, _⟩ => show win0_1.index t (3 : Fin 4) * 64 + 1 * d.val = d.val; rw [e3]; omega

/-- Window 2's block at point `t`: the same rows of its own array. -/
theorem read0_2 {Val : EltTy → Type} (A : S4096x1x16x64.Idx → Val .f32) (t : Fin cfg0.N) (p : Fin 512) (k : Fin 16) (d : Fin 64) :
    ((cfg0.win 2).blk t).view.read Val A (ix4 p 0 k d : S512x1x16x64.Idx) = A (ix4 (row0 t p) 0 k d) := by
  rw [View.read_apply]
  show A _ = A _
  refine congrArg A ?_
  obtain ⟨e0, e1, e2, e3⟩ := index0_2 t
  funext a; apply Fin.ext
  match a with
  | ⟨0, _⟩ => show win0_2.index t (0 : Fin 4) * 512 + 1 * p.val = t.val * 512 + p.val; rw [e0]; omega
  | ⟨1, _⟩ => show win0_2.index t (1 : Fin 4) * 1 + 1 * 0 = 0; rw [e1]
  | ⟨2, _⟩ => show win0_2.index t (2 : Fin 4) * 16 + 1 * k.val = k.val; rw [e2]; omega
  | ⟨3, _⟩ => show win0_2.index t (3 : Fin 4) * 64 + 1 * d.val = d.val; rw [e3]; omega

/-- Window 3's block at point `t`: rows `512 t … 512 t + 511` of the 4096 × 64 array. -/
theorem read0_3 {Val : EltTy → Type} (A : S4096x64.Idx → Val .f32) (t : Fin cfg0.N) (p : Fin 512) (d : Fin 64) :
    ((cfg0.win 3).blk t).view.read Val A (ix2 p d : S512x64.Idx) = A (ix2 (row0 t p) d) := by
  rw [View.read_apply]
  show A _ = A _
  refine congrArg A ?_
  obtain ⟨e0, e1⟩ := index0_3 t
  funext a; apply Fin.ext
  match a with
  | ⟨0, _⟩ => show win0_3.index t (0 : Fin 2) * 512 + 1 * p.val = t.val * 512 + p.val; rw [e0]; omega
  | ⟨1, _⟩ => show win0_3.index t (1 : Fin 2) * 64 + 1 * d.val = d.val; rw [e1]; omega

/-- Window 4's block is the whole 64 × 64 weight at every point. -/
theorem read0_4 {Val : EltTy → Type} (A : S64x64.Idx → Val .f32) (t : Fin cfg0.N) (d e : Fin 64) :
    ((cfg0.win 4).blk t).view.read Val A (ix2 d e : S64x64.Idx) = A (ix2 d e) := by
  rw [View.read_apply]
  show A _ = A _
  refine congrArg A ?_
  obtain ⟨e0, e1⟩ := index0_4 t
  funext a; apply Fin.ext
  match a with
  | ⟨0, _⟩ => show win0_4.index t (0 : Fin 2) * 64 + 1 * d.val = d.val; rw [e0]; omega
  | ⟨1, _⟩ => show win0_4.index t (1 : Fin 2) * 64 + 1 * e.val = e.val; rw [e1]; omega

/-- Window 5's block is the whole 1 × 64 bias at every point. -/
theorem read0_5 {Val : EltTy → Type} (A : S1x64.Idx → Val .f32) (t : Fin cfg0.N) (e : Fin 64) :
    ((cfg0.win 5).blk t).view.read Val A (ix2 0 e : S1x64.Idx) = A (ix2 0 e) := by
  rw [View.read_apply]
  show A _ = A _
  refine congrArg A ?_
  obtain ⟨e0, e1⟩ := index0_5 t
  funext a; apply Fin.ext
  match a with
  | ⟨0, _⟩ => show win0_5.index t (0 : Fin 2) * 1 + 1 * 0 = 0; rw [e0]
  | ⟨1, _⟩ => show win0_5.index t (1 : Fin 2) * 64 + 1 * e.val = e.val; rw [e1]; omega

/-- The result window's block at point `t`, read off contents `A` of the result array: rows `512 t … 512 t + 511`. -/
theorem read0_6 {Val : EltTy → Type} (A : S4096x1x64.Idx → Val .f32) (t : Fin cfg0.N) (p : Fin 512) (q : Fin 64) :
    ((cfg0.win 6).blk t).view.read Val A (ix3 p 0 q : S512x1x64.Idx) = A (ix3 (row0 t p) 0 q) := by
  rw [View.read_apply]
  show A _ = A _
  refine congrArg A ?_
  obtain ⟨e0, e1, e2⟩ := index0_6 t
  funext a; apply Fin.ext
  match a with
  | ⟨0, _⟩ => show win0_6.index t (0 : Fin 3) * 512 + 1 * p.val = t.val * 512 + p.val; rw [e0]; omega
  | ⟨1, _⟩ => show win0_6.index t (1 : Fin 3) * 1 + 1 * 0 = 0; rw [e1]
  | ⟨2, _⟩ => show win0_6.index t (2 : Fin 3) * 64 + 1 * q.val = q.val; rw [e2]; omega

/-- The result window's blocks are never cut: what is written back of a staging buffer is the buffer. -/
theorem cut0_6 {α : Type} (t : Fin cfg0.N) (X : S512x1x64.Idx → α) (p : Fin 512) (q : Fin 64) :
    (cfg0.win 6).cut (grid0.coords t) X (ix3 p 0 q : S512x1x64.Idx) = X (ix3 p 0 q) := by
  show X _ = X _
  refine congrArg X ?_
  funext a
  match a with
  | ⟨0, _⟩ => rfl
  | ⟨1, _⟩ => rfl
  | ⟨2, _⟩ => rfl

/-- An index of the result array is in point `t`'s block iff each coordinate is in the block's range on its axis. -/
theorem mem_blk0 (t : Fin cfg0.N) (i : S4096x1x64.Idx) :
    i ∈ ((cfg0.win 6).blk t).view.set ↔ ∀ a : Fin 3, win0_6.index t a * S512x1x64.size a ≤ (i a).val ∧ (i a).val < win0_6.index t a * S512x1x64.size a + S512x1x64.size a := by
  show i ∈ ((View.whole main_v89).slice (win0_6.rect t)).set ↔ _
  rw [View.set_slice_whole, Rect.mem_set_unit]
  exact Iff.rfl

/-- Every index of the result array is in the block of the point its row falls in, point `row / 512`, which writes back. -/
theorem cover0 (i : S4096x1x64.Idx) :
    ∃ t : Fin cfg0.N, (cfg0.win 6).flush t = true ∧ i ∈ ((cfg0.win 6).blk t).view.set := by
  have h0 : (i 0).val < 4096 := (i 0).isLt
  have h1 : (i 1).val < 1 := (i 1).isLt
  have h2 : (i 2).val < 64 := (i 2).isLt
  obtain ⟨t, ht⟩ : ∃ t : Fin cfg0.N, t.val = (i 0).val / 512 := ⟨⟨(i 0).val / 512, by rw [N0]; omega⟩, rfl⟩
  refine ⟨t, flush0_6 t, ?_⟩
  rw [mem_blk0]
  obtain ⟨e0, e1, e2⟩ := index0_6 t
  intro a
  match a with
  | ⟨0, _⟩ => show win0_6.index t (0 : Fin 3) * 512 ≤ (i 0).val ∧ (i 0).val < win0_6.index t (0 : Fin 3) * 512 + 512; rw [e0]; omega
  | ⟨1, _⟩ => show win0_6.index t (1 : Fin 3) * 1 ≤ (i 1).val ∧ (i 1).val < win0_6.index t (1 : Fin 3) * 1 + 1; rw [e1]; omega
  | ⟨2, _⟩ => show win0_6.index t (2 : Fin 3) * 64 ≤ (i 2).val ∧ (i 2).val < win0_6.index t (2 : Fin 3) * 64 + 64; rw [e2]; omega

end Cert.KernelBlocks

end
-- ==== Proof.KernelRowCongr.lean ====
import Mathlib.Logic.Basic

namespace Cert.KernelBlocks

/-- A function of six arguments takes equal values at equal arguments. -/
theorem congr6 {α0 α1 α2 α3 α4 α5 β : Sort _} (R : α0 → α1 → α2 → α3 → α4 → α5 → β)
    {a0 b0 : α0} {a1 b1 : α1} {a2 b2 : α2} {a3 b3 : α3} {a4 b4 : α4} {a5 b5 : α5}
    (h0 : a0 = b0) (h1 : a1 = b1) (h2 : a2 = b2) (h3 : a3 = b3) (h4 : a4 = b4) (h5 : a5 = b5) :
    R a0 a1 a2 a3 a4 a5 = R b0 b1 b2 b3 b4 b5 := by
  subst h0 h1 h2 h3 h4 h5; rfl

end Cert.KernelBlocks
-- ==== Proof.KernelBlocks0.lean ====
import proofs.«158850_j22935125360845_2_alg».proof.Proof.KernelIdealFrame
import proofs.«158850_j22935125360845_2_alg».proof.Proof.KernelWindows0
import proofs.«158850_j22935125360845_2_alg».proof.Proof.KernelRowCongr

noncomputable section

namespace Cert.KernelBlocks

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

/-! # The first region: from the blocks to the whole result array

The body of the region, at every grid point, sends the point's input blocks to an output block whose row `p` is a
function `R` of row `p` of each row-blocked input block and of the whole weight and bias (`hrow`). The blocks at
point `t` are rows `512 t … 512 t + 511` of the arrays, and the output blocks tile the 4096 rows of the result. So
row `b` of the result array after the run is `R` of row `b` of the arrays the region finds. -/

variable (V : (c : Dev nD) → (b : Ref sig .tc) → Buf (Elt Ideal) ((c : Thread nD τ).loc b))

/-- The result array as one function of the arrays the region finds: entry `(b, 0, q)` is `R` of row `b` of each
    row-blocked array, of the weight and of the bias, at column `q`. -/
def whole0 (R : (Fin 64 → EReal) → (Fin 16 → Fin 64 → EReal) → (Fin 16 → Fin 64 → EReal) → (Fin 64 → EReal) → (Fin 64 → Fin 64 → EReal) → (Fin 64 → EReal) → Fin 64 → EReal) (c : Dev nD) : S4096x1x64.Idx → EReal := fun i =>
  R (fun d => V c main_v45 (ix3 (i 0 : Fin 4096) 0 d)) (fun k d => V c main_v81 (ix4 (i 0 : Fin 4096) 0 k d))
    (fun k d => V c main_v82 (ix4 (i 0 : Fin 4096) 0 k d)) (fun d => V c main_v37 (ix2 (i 0 : Fin 4096) d))
    (fun d e => V c main_v85 (ix2 d e)) (fun e => V c main_v87 (ix2 0 e)) (i 2 : Fin 64)

/-- What point `t` writes back is block `t` of `whole0`. -/
theorem flushed0_eq
    (R : (Fin 64 → EReal) → (Fin 16 → Fin 64 → EReal) → (Fin 16 → Fin 64 → EReal) → (Fin 64 → EReal) → (Fin 64 → Fin 64 → EReal) → (Fin 64 → EReal) → Fin 64 → EReal)
    (hrow : ∀ (x0 : Vec Ideal S512x1x64 .f32) (x1 x2 : Vec Ideal S512x1x16x64 .f32) (x3 : Vec Ideal S512x64 .f32) (x4 : Vec Ideal S64x64 .f32) (x5 : Vec Ideal S1x64 .f32) (p : Fin 512) (q : Fin 64),
        out0_6 (F := Ideal) x0 x1 x2 x3 x4 x5 (ix3 p 0 q) = R (fun d => x0 (ix3 p 0 d)) (fun k d => x1 (ix4 p 0 k d)) (fun k d => x2 (ix4 p 0 k d)) (fun d => x3 (ix2 p d)) (fun d e => x4 (ix2 d e)) (fun e => x5 (ix2 0 e)) q)
    (c : Dev nD) (t : Fin cfg0.N) :
    (dat0 V c).flushed 6 t = ((cfg0.win 6).blk t).view.read (Elt Ideal) (whole0 V R c) := by
  show (cfg0.win 6).cut (grid0.coords t) ((dat0 V c).after 6 t) = _
  rw [after0_6]
  funext j
  obtain ⟨p, z, q, rfl⟩ : ∃ (p : Fin 512) (z : Fin 1) (q : Fin 64), j = (ix3 p z q : S512x1x64.Idx) := ⟨j 0, j 1, j 2, eq_ix3 j⟩
  obtain rfl : z = 0 := Subsingleton.elim _ _
  refine (cut0_6 t (out0_6 (iblk0 V c 0 t) (iblk0 V c 1 t) (iblk0 V c 2 t) (iblk0 V c 3 t) (iblk0 V c 4 t) (iblk0 V c 5 t)) p q).trans ?_
  refine (hrow (iblk0 V c 0 t) (iblk0 V c 1 t) (iblk0 V c 2 t) (iblk0 V c 3 t) (iblk0 V c 4 t) (iblk0 V c 5 t) p q).trans ?_
  refine Eq.trans ?_ (read0_6 (Val := Elt Ideal) (whole0 V R c) t p q).symm
  exact congrFun (congr6 R
    (funext fun d => read0_0 (Val := Elt Ideal) (V c main_v45) t p d)
    (funext fun k => funext fun d => read0_1 (Val := Elt Ideal) (V c main_v81) t p k d)
    (funext fun k => funext fun d => read0_2 (Val := Elt Ideal) (V c main_v82) t p k d)
    (funext fun d => read0_3 (Val := Elt Ideal) (V c main_v37) t p d)
    (funext fun d => funext fun e => read0_4 (Val := Elt Ideal) (V c main_v85) t d e)
    (funext fun e => read0_5 (Val := Elt Ideal) (V c main_v87) t e)) q

/-- THE FIRST REGION'S RESULT: entry `(b, 0, q)` of the result array after the run. -/
theorem region0_at
    (R : (Fin 64 → EReal) → (Fin 16 → Fin 64 → EReal) → (Fin 16 → Fin 64 → EReal) → (Fin 64 → EReal) → (Fin 64 → Fin 64 → EReal) → (Fin 64 → EReal) → Fin 64 → EReal)
    (hrow : ∀ (x0 : Vec Ideal S512x1x64 .f32) (x1 x2 : Vec Ideal S512x1x16x64 .f32) (x3 : Vec Ideal S512x64 .f32) (x4 : Vec Ideal S64x64 .f32) (x5 : Vec Ideal S1x64 .f32) (p : Fin 512) (q : Fin 64),
        out0_6 (F := Ideal) x0 x1 x2 x3 x4 x5 (ix3 p 0 q) = R (fun d => x0 (ix3 p 0 d)) (fun k d => x1 (ix4 p 0 k d)) (fun k d => x2 (ix4 p 0 k d)) (fun d => x3 (ix2 p d)) (fun d e => x4 (ix2 d e)) (fun e => x5 (ix2 0 e)) q)
    (c : Dev nD) (b : Fin 4096) (q : Fin 64) :
    (dat0 V c).arrAt 6 cfg0.N (ix3 b 0 q)
      = R (fun d => V c main_v45 (ix3 b 0 d)) (fun k d => V c main_v81 (ix4 b 0 k d)) (fun k d => V c main_v82 (ix4 b 0 k d))
          (fun d => V c main_v37 (ix2 b d)) (fun d e => V c main_v85 (ix2 d e)) (fun e => V c main_v87 (ix2 0 e)) q :=
  congrFun ((dat0 V c).arrAt_eq_of_cover 6 (whole0 V R c) (fun t _ => flushed0_eq V R hrow c t) cover0) (ix3 b 0 q)

end Cert.KernelBlocks

end
-- ==== Proof.KernelWindows1.lean ====
import proofs.«158850_j22935125360845_2_alg».proof.Proof.Gen.KernelIdeal.Launch
import proofs.«158850_j22935125360845_2_alg».proof.Proof.Gen.KernelIdeal.Points
import Idealize.ShloMosaic.Lib.Pipeline.Value
import Idealize.ShloMosaic.Lib.ValueIdx

noncomputable section

namespace Cert.KernelBlocks

open Cert.KernelIdeal Cert.KernelIdeal.Gen Idealize.ShloMosaic Idealize.ShloMosaic.ValueIdx
open Idealize.ShloMosaic.TcCoe Idealize.SL.Sem

/-! # The second region's windows: which rows of its array each block is

The grid has sixty-four points. At point `t` every row-blocked window holds rows `64 t … 64 t + 63` of its array and
all of the other axes; the 64×64 weight and the 1×64 bias are fetched whole. The written-back blocks of the result
tile its 4096 rows. -/

/-- The second region's grid has sixty-four points. -/
theorem N1 : cfg1.N = 64 := N_1
/-- A grid point of the second region is below 64. -/
theorem lt1 (t : Fin cfg1.N) : t.val < 64 := Nat.lt_of_lt_of_eq t.isLt N1
/-- Row `p` of the block at point `t` is row `64 t + p` of the array. -/
abbrev row1 (t : Fin cfg1.N) (p : Fin 64) : Fin 4096 := ⟨t.val * 64 + p.val, by have := lt1 t; omega⟩

/-- The index maps, decided over the grid: block `t` on the row axis, block 0 on every other axis. -/
theorem index1_0 : ∀ t : Fin cfg1.N,
    win1_0.index t (0 : Fin 3) = t.val ∧ win1_0.index t (1 : Fin 3) = 0 ∧ win1_0.index t (2 : Fin 3) = 0 :=
  (by decide +kernel : ∀ t : Fin grid1.N, _)
theorem index1_1 : ∀ t : Fin cfg1.N,
    win1_1.index t (0 : Fin 4) = t.val ∧ win1_1.index t (1 : Fin 4) = 0 ∧ win1_1.index t (2 : Fin 4) = 0 ∧ win1_1.index t (3 : Fin 4) = 0 :=
  (by decide +kernel : ∀ t : Fin grid1.N, _)
theorem index1_2 : ∀ t : Fin cfg1.N,
    win1_2.index t (0 : Fin 4) = t.val ∧ win1_2.index t (1 : Fin 4) = 0 ∧ win1_2.index t (2 : Fin 4) = 0 ∧ win1_2.index t (3 : Fin 4) = 0 :=
  (by decide +kernel : ∀ t : Fin grid1.N, _)
theorem index1_3 : ∀ t : Fin cfg1.N, win1_3.index t (0 : Fin 2) = t.val ∧ win1_3.index t (1 : Fin 2) = 0 :=
  (by decide +kernel : ∀ t : Fin grid1.N, _)
theorem index1_4 : ∀ t : Fin cfg1.N, win1_4.index t (0 : Fin 2) = 0 ∧ win1_4.index t (1 : Fin 2) = 0 :=
  (by decide +kernel : ∀ t : Fin grid1.N, _)
theorem index1_5 : ∀ t : Fin cfg1.N, win1_5.index t (0 : Fin 2) = 0 ∧ win1_5.index t (1 : Fin 2) = 0 :=
  (by decide +kernel : ∀ t : Fin grid1.N, _)
theorem index1_6 : ∀ t : Fin cfg1.N,
    win1_6.index t (0 : Fin 3) = t.val ∧ win1_6.index t (1 : Fin 3) = 0 ∧ win1_6.index t (2 : Fin 3) = 0 :=
  (by decide +kernel : ∀ t : Fin grid1.N, _)

/-- Window 0's block at point `t`, read off contents `A` of its array: row `p` is row `64 t + p` of `A`, all 16 × 64
    entries of it. -/
theorem read1_0 {Val : EltTy → Type} (A : S4096x16x64.Idx → Val .f32) (t : Fin cfg1.N) (p : Fin 64) (m : Fin 16) (d : Fin 64) :
    ((cfg1.win 0).blk t).view.read Val A (ix3 p m d : S64x16x64.Idx) = A (ix3 (row1 t p) m d) := by
  rw [View.read_apply]
  show A _ = A _
  refine congrArg A ?_
  obtain ⟨e0, e1, e2⟩ := index1_0 t
  funext a; apply Fin.ext
  match a with
  | ⟨0, _⟩ => show win1_0.index t (0 : Fin 3) * 64 + 1 * p.val = t.val * 64 + p.val; rw [e0]; omega
  | ⟨1, _⟩ => show win1_0.index t (1 : Fin 3) * 16 + 1 * m.val = m.val; rw [e1]; omega
  | ⟨2, _⟩ => show win1_0.index t (2 : Fin 3) * 64 + 1 * d.val = d.val; rw [e2]; omega

/-- Window 1's block at point `t`: row `p` is row `64 t + p` of its array, all 16 × 16 × 64 entries of it. -/
theorem read1_1 {Val : EltTy → Type} (A : S4096x16x16x64.Idx → Val .f32) (t : Fin cfg1.N) (p : Fin 64) (m k : Fin 16) (d : Fin 64) :
    ((cfg1.win 1).blk t).view.read Val A (ix4 p m k d : S64x16x16x64.Idx) = A (ix4 (row1 t p) m k d) := by
  rw [View.read_apply]
  show A _ = A _
  refine congrArg A ?_
  obtain ⟨e0, e1, e2, e3⟩ := index1_1 t
  funext a; apply Fin.ext
  match a with
  | ⟨0, _⟩ => show win1_1.index t (0 : Fin 4) * 64 + 1 * p.val = t.val * 64 + p.val; rw [e0]; omega
  | ⟨1, _⟩ => show win1_1.index t (1 : Fin 4) * 16 + 1 * m.val = m.val; rw [e1]; omega
  | ⟨2, _⟩ => show win1_1.index t (2 : Fin 4) * 16 + 1 * k.val = k.val; rw [e2]; omega
  | ⟨3, _⟩ => show win1_1.index t (3 : Fin 4) * 64 + 1 * d.val = d.val; rw [e3]; omega

/-- Window 2's block at point `t`: the same rows of its own array. -/
theorem read1_2 {Val : EltTy → Type} (A : S4096x16x16x64.Idx → Val .f32) (t : Fin cfg1.N) (p : Fin 64) (m k : Fin 16) (d : Fin 64) :
    ((cfg1.win 2).blk t).view.read Val A (ix4 p m k d : S64x16x16x64.Idx) = A (ix4 (row1 t p) m k d) := by
  rw [View.read_apply]
  show A _ = A _
  refine congrArg A ?_
  obtain ⟨e0, e1, e2, e3⟩ := index1_2 t
  funext a; apply Fin.ext
  match a with
  | ⟨0, _⟩ => show win1_2.index t (0 : Fin 4) * 64 + 1 * p.val = t.val * 64 + p.val; rw [e0]; omega
  | ⟨1, _⟩ => show win1_2.index t (1 : Fin 4) * 16 + 1 * m.val = m.val; rw [e1]; omega
  | ⟨2, _⟩ => show win1_2.index t (2 : Fin 4) * 16 + 1 * k.val = k.val; rw [e2]; omega
  | ⟨3, _⟩ => show win1_2.index t (3 : Fin 4) * 64 + 1 * d.val = d.val; rw [e3]; omega

/-- Window 3's block at point `t`: rows `64 t … 64 t + 63` of the 4096 × 64 array. -/
theorem read1_3 {Val : EltTy → Type} (A : S4096x64.Idx → Val .f32) (t : Fin cfg1.N) (p : Fin 64) (d : Fin 64) :
    ((cfg1.win 3).blk t).view.read Val A (ix2 p d : S64x64.Idx) = A (ix2 (row1 t p) d) := by
  rw [View.read_apply]
  show A _ = A _
  refine congrArg A ?_
  obtain ⟨e0, e1⟩ := index1_3 t
  funext a; apply Fin.ext
  match a with
  | ⟨0, _⟩ => show win1_3.index t (0 : Fin 2) * 64 + 1 * p.val = t.val * 64 + p.val; rw [e0]; omega
  | ⟨1, _⟩ => show win1_3.index t (1 : Fin 2) * 64 + 1 * d.val = d.val; rw [e1]; omega

/-- Window 4's block is the whole 64 × 64 weight at every point. -/
theorem read1_4 {Val : EltTy → Type} (A : S64x64.Idx → Val .f32) (t : Fin cfg1.N) (d e : Fin 64) :
    ((cfg1.win 4).blk t).view.read Val A (ix2 d e : S64x64.Idx) = A (ix2 d e) := by
  rw [View.read_apply]
  show A _ = A _
  refine congrArg A ?_
  obtain ⟨e0, e1⟩ := index1_4 t
  funext a; apply Fin.ext
  match a with
  | ⟨0, _⟩ => show win1_4.index t (0 : Fin 2) * 64 + 1 * d.val = d.val; rw [e0]; omega
  | ⟨1, _⟩ => show win1_4.index t (1 : Fin 2) * 64 + 1 * e.val = e.val; rw [e1]; omega

/-- Window 5's block is the whole 1 × 64 bias at every point. -/
theorem read1_5 {Val : EltTy → Type} (A : S1x64.Idx → Val .f32) (t : Fin cfg1.N) (e : Fin 64) :
    ((cfg1.win 5).blk t).view.read Val A (ix2 0 e : S1x64.Idx) = A (ix2 0 e) := by
  rw [View.read_apply]
  show A _ = A _
  refine congrArg A ?_
  obtain ⟨e0, e1⟩ := index1_5 t
  funext a; apply Fin.ext
  match a with
  | ⟨0, _⟩ => show win1_5.index t (0 : Fin 2) * 1 + 1 * 0 = 0; rw [e0]
  | ⟨1, _⟩ => show win1_5.index t (1 : Fin 2) * 64 + 1 * e.val = e.val; rw [e1]; omega

/-- The result window's block at point `t`, read off contents `A` of the result array: rows `64 t … 64 t + 63`. -/
theorem read1_6 {Val : EltTy → Type} (A : S4096x16x64.Idx → Val .f32) (t : Fin cfg1.N) (p : Fin 64) (m : Fin 16) (q : Fin 64) :
    ((cfg1.win 6).blk t).view.read Val A (ix3 p m q : S64x16x64.Idx) = A (ix3 (row1 t p) m q) := by
  rw [View.read_apply]
  show A _ = A _
  refine congrArg A ?_
  obtain ⟨e0, e1, e2⟩ := index1_6 t
  funext a; apply Fin.ext
  match a with
  | ⟨0, _⟩ => show win1_6.index t (0 : Fin 3) * 64 + 1 * p.val = t.val * 64 + p.val; rw [e0]; omega
  | ⟨1, _⟩ => show win1_6.index t (1 : Fin 3) * 16 + 1 * m.val = m.val; rw [e1]; omega
  | ⟨2, _⟩ => show win1_6.index t (2 : Fin 3) * 64 + 1 * q.val = q.val; rw [e2]; omega

/-- The result window's blocks are never cut: what is written back of a staging buffer is the buffer. -/
theorem cut1_6 {α : Type} (t : Fin cfg1.N) (X : S64x16x64.Idx → α) (p : Fin 64) (m : Fin 16) (q : Fin 64) :
    (cfg1.win 6).cut (grid1.coords t) X (ix3 p m q : S64x16x64.Idx) = X (ix3 p m q) := by
  show X _ = X _
  refine congrArg X ?_
  funext a
  match a with
  | ⟨0, _⟩ => rfl
  | ⟨1, _⟩ => rfl
  | ⟨2, _⟩ => rfl

/-- An index of the result array is in point `t`'s block iff each coordinate is in the block's range on its axis. -/
theorem mem_blk1 (t : Fin cfg1.N) (i : S4096x16x64.Idx) :
    i ∈ ((cfg1.win 6).blk t).view.set ↔ ∀ a : Fin 3, win1_6.index t a * S64x16x64.size a ≤ (i a).val ∧ (i a).val < win1_6.index t a * S64x16x64.size a + S64x16x64.size a := by
  show i ∈ ((View.whole main_v90).slice (win1_6.rect t)).set ↔ _
  rw [View.set_slice_whole, Rect.mem_set_unit]
  exact Iff.rfl

/-- Every index of the result array is in the block of the point its row falls in, point `row / 64`, which writes back. -/
theorem cover1 (i : S4096x16x64.Idx) :
    ∃ t : Fin cfg1.N, (cfg1.win 6).flush t = true ∧ i ∈ ((cfg1.win 6).blk t).view.set := by
  have h0 : (i 0).val < 4096 := (i 0).isLt
  have h1 : (i 1).val < 16 := (i 1).isLt
  have h2 : (i 2).val < 64 := (i 2).isLt
  obtain ⟨t, ht⟩ : ∃ t : Fin cfg1.N, t.val = (i 0).val / 64 := ⟨⟨(i 0).val / 64, by rw [N1]; omega⟩, rfl⟩
  refine ⟨t, flush1_6 t, ?_⟩
  rw [mem_blk1]
  obtain ⟨e0, e1, e2⟩ := index1_6 t
  intro a
  match a with
  | ⟨0, _⟩ => show win1_6.index t (0 : Fin 3) * 64 ≤ (i 0).val ∧ (i 0).val < win1_6.index t (0 : Fin 3) * 64 + 64; rw [e0]; omega
  | ⟨1, _⟩ => show win1_6.index t (1 : Fin 3) * 16 ≤ (i 1).val ∧ (i 1).val < win1_6.index t (1 : Fin 3) * 16 + 16; rw [e1]; omega
  | ⟨2, _⟩ => show win1_6.index t (2 : Fin 3) * 64 ≤ (i 2).val ∧ (i 2).val < win1_6.index t (2 : Fin 3) * 64 + 64; rw [e2]; omega

end Cert.KernelBlocks

end
-- ==== Proof.KernelBlocks1.lean ====
import proofs.«158850_j22935125360845_2_alg».proof.Proof.KernelIdealFrame
import proofs.«158850_j22935125360845_2_alg».proof.Proof.KernelWindows1
import proofs.«158850_j22935125360845_2_alg».proof.Proof.KernelRowCongr

noncomputable section

namespace Cert.KernelBlocks

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

/-! # The second region: from the blocks to the whole result array

The body of the region, at every grid point, sends the point's input blocks to an output block whose entry `(p, m)` is
a function `R` of entry `(p, m)` of the first three input blocks, of row `p` of the fourth, and of the whole weight
and bias (`hrow`). The blocks at point `t` are rows `64 t … 64 t + 63` of the arrays, and the output blocks tile the
4096 rows of the result. So entry `(b, m)` of the result array after the run is `R` of entry `(b, m)` and row `b` of
the arrays the region finds. -/

variable (V : (c : Dev nD) → (b : Ref sig .tc) → Buf (Elt Ideal) ((c : Thread nD τ).loc b))

/-- The result array as one function of the arrays the region finds: entry `(b, m, q)` is `R` of entry `(b, m)` of the
    first three arrays, of row `b` of the fourth, of the weight and of the bias, at column `q`. -/
def whole1 (R : (Fin 64 → EReal) → (Fin 16 → Fin 64 → EReal) → (Fin 16 → Fin 64 → EReal) → (Fin 64 → EReal) → (Fin 64 → Fin 64 → EReal) → (Fin 64 → EReal) → Fin 64 → EReal) (c : Dev nD) : S4096x16x64.Idx → EReal := fun i =>
  R (fun d => V c main_v53 (ix3 (i 0 : Fin 4096) (i 1 : Fin 16) d)) (fun k d => V c main_v83 (ix4 (i 0 : Fin 4096) (i 1 : Fin 16) k d))
    (fun k d => V c main_v84 (ix4 (i 0 : Fin 4096) (i 1 : Fin 16) k d)) (fun d => V c main_v37 (ix2 (i 0 : Fin 4096) d))
    (fun d e => V c main_v85 (ix2 d e)) (fun e => V c main_v87 (ix2 0 e)) (i 2 : Fin 64)

/-- What point `t` writes back is block `t` of `whole1`. -/
theorem flushed1_eq
    (R : (Fin 64 → EReal) → (Fin 16 → Fin 64 → EReal) → (Fin 16 → Fin 64 → EReal) → (Fin 64 → EReal) → (Fin 64 → Fin 64 → EReal) → (Fin 64 → EReal) → Fin 64 → EReal)
    (hrow : ∀ (x0 : Vec Ideal S64x16x64 .f32) (x1 x2 : Vec Ideal S64x16x16x64 .f32) (x3 : Vec Ideal S64x64 .f32) (x4 : Vec Ideal S64x64 .f32) (x5 : Vec Ideal S1x64 .f32) (p : Fin 64) (m : Fin 16) (q : Fin 64),
        out1_6 (F := Ideal) x0 x1 x2 x3 x4 x5 (ix3 p m q) = R (fun d => x0 (ix3 p m d)) (fun k d => x1 (ix4 p m k d)) (fun k d => x2 (ix4 p m k d)) (fun d => x3 (ix2 p d)) (fun d e => x4 (ix2 d e)) (fun e => x5 (ix2 0 e)) q)
    (c : Dev nD) (t : Fin cfg1.N) :
    (dat1 V c).flushed 6 t = ((cfg1.win 6).blk t).view.read (Elt Ideal) (whole1 V R c) := by
  show (cfg1.win 6).cut (grid1.coords t) ((dat1 V c).after 6 t) = _
  rw [after1_6]
  funext j
  obtain ⟨p, m, q, rfl⟩ : ∃ (p : Fin 64) (m : Fin 16) (q : Fin 64), j = (ix3 p m q : S64x16x64.Idx) := ⟨j 0, j 1, j 2, eq_ix3 j⟩
  refine (cut1_6 t (out1_6 (iblk1 V c 0 t) (iblk1 V c 1 t) (iblk1 V c 2 t) (iblk1 V c 3 t) (iblk1 V c 4 t) (iblk1 V c 5 t)) p m q).trans ?_
  refine (hrow (iblk1 V c 0 t) (iblk1 V c 1 t) (iblk1 V c 2 t) (iblk1 V c 3 t) (iblk1 V c 4 t) (iblk1 V c 5 t) p m q).trans ?_
  refine Eq.trans ?_ (read1_6 (Val := Elt Ideal) (whole1 V R c) t p m q).symm
  exact congrFun (congr6 R
    (funext fun d => read1_0 (Val := Elt Ideal) (V c main_v53) t p m d)
    (funext fun k => funext fun d => read1_1 (Val := Elt Ideal) (V c main_v83) t p m k d)
    (funext fun k => funext fun d => read1_2 (Val := Elt Ideal) (V c main_v84) t p m k d)
    (funext fun d => read1_3 (Val := Elt Ideal) (V c main_v37) t p d)
    (funext fun d => funext fun e => read1_4 (Val := Elt Ideal) (V c main_v85) t d e)
    (funext fun e => read1_5 (Val := Elt Ideal) (V c main_v87) t e)) q

/-- THE SECOND REGION'S RESULT: entry `(b, m, q)` of the result array after the run. -/
theorem region1_at
    (R : (Fin 64 → EReal) → (Fin 16 → Fin 64 → EReal) → (Fin 16 → Fin 64 → EReal) → (Fin 64 → EReal) → (Fin 64 → Fin 64 → EReal) → (Fin 64 → EReal) → Fin 64 → EReal)
    (hrow : ∀ (x0 : Vec Ideal S64x16x64 .f32) (x1 x2 : Vec Ideal S64x16x16x64 .f32) (x3 : Vec Ideal S64x64 .f32) (x4 : Vec Ideal S64x64 .f32) (x5 : Vec Ideal S1x64 .f32) (p : Fin 64) (m : Fin 16) (q : Fin 64),
        out1_6 (F := Ideal) x0 x1 x2 x3 x4 x5 (ix3 p m q) = R (fun d => x0 (ix3 p m d)) (fun k d => x1 (ix4 p m k d)) (fun k d => x2 (ix4 p m k d)) (fun d => x3 (ix2 p d)) (fun d e => x4 (ix2 d e)) (fun e => x5 (ix2 0 e)) q)
    (c : Dev nD) (b : Fin 4096) (m : Fin 16) (q : Fin 64) :
    (dat1 V c).arrAt 6 cfg1.N (ix3 b m q)
      = R (fun d => V c main_v53 (ix3 b m d)) (fun k d => V c main_v83 (ix4 b m k d)) (fun k d => V c main_v84 (ix4 b m k d))
          (fun d => V c main_v37 (ix2 b d)) (fun d e => V c main_v85 (ix2 d e)) (fun e => V c main_v87 (ix2 0 e)) q :=
  congrFun ((dat1 V c).arrAt_eq_of_cover 6 (whole1 V R c) (fun t _ => flushed1_eq V R hrow c t) cover1) (ix3 b m q)

end Cert.KernelBlocks

end
-- ==== Proof.KernelWindows2.lean ====
import proofs.«158850_j22935125360845_2_alg».proof.Proof.Gen.KernelIdeal.Launch
import proofs.«158850_j22935125360845_2_alg».proof.Proof.Gen.KernelIdeal.Points
import Idealize.ShloMosaic.Lib.Pipeline.Value
import Idealize.ShloMosaic.Lib.ValueIdx

noncomputable section

namespace Cert.KernelBlocks

open Cert.KernelIdeal Cert.KernelIdeal.Gen Idealize.ShloMosaic Idealize.ShloMosaic.ValueIdx
open Idealize.ShloMosaic.TcCoe Idealize.SL.Sem

/-! # The third region's windows: which rows of its array each block is

The grid has eight points. At point `t` every row-blocked window holds rows `512 t … 512 t + 511` of its array and
all of the other axes; the 64×64 weight and the 1×64 bias are fetched whole. The result is a vector of 4096 entries, one per
row, and its written-back blocks of 512 entries tile it. -/

/-- The third region's grid has eight points. -/
theorem N2 : cfg2.N = 8 := N_2
/-- A grid point of the third region is below 8. -/
theorem lt2 (t : Fin cfg2.N) : t.val < 8 := Nat.lt_of_lt_of_eq t.isLt N2
/-- Row `p` of the block at point `t` is row `512 t + p` of the array. -/
abbrev row2 (t : Fin cfg2.N) (p : Fin 512) : Fin 4096 := ⟨t.val * 512 + p.val, by have := lt2 t; omega⟩

/-- The index maps, decided over the grid: block `t` on the row axis, block 0 on every other axis. -/
theorem index2_0 : ∀ t : Fin cfg2.N,
    win2_0.index t (0 : Fin 3) = t.val ∧ win2_0.index t (1 : Fin 3) = 0 ∧ win2_0.index t (2 : Fin 3) = 0 :=
  (by decide +kernel : ∀ t : Fin grid2.N, _)
theorem index2_1 : ∀ t : Fin cfg2.N,
    win2_1.index t (0 : Fin 4) = t.val ∧ win2_1.index t (1 : Fin 4) = 0 ∧ win2_1.index t (2 : Fin 4) = 0 ∧ win2_1.index t (3 : Fin 4) = 0 :=
  (by decide +kernel : ∀ t : Fin grid2.N, _)
theorem index2_2 : ∀ t : Fin cfg2.N,
    win2_2.index t (0 : Fin 4) = t.val ∧ win2_2.index t (1 : Fin 4) = 0 ∧ win2_2.index t (2 : Fin 4) = 0 ∧ win2_2.index t (3 : Fin 4) = 0 :=
  (by decide +kernel : ∀ t : Fin grid2.N, _)
theorem index2_3 : ∀ t : Fin cfg2.N, win2_3.index t (0 : Fin 2) = t.val ∧ win2_3.index t (1 : Fin 2) = 0 :=
  (by decide +kernel : ∀ t : Fin grid2.N, _)
theorem index2_4 : ∀ t : Fin cfg2.N, win2_4.index t (0 : Fin 2) = 0 ∧ win2_4.index t (1 : Fin 2) = 0 :=
  (by decide +kernel : ∀ t : Fin grid2.N, _)
theorem index2_5 : ∀ t : Fin cfg2.N, win2_5.index t (0 : Fin 2) = 0 ∧ win2_5.index t (1 : Fin 2) = 0 :=
  (by decide +kernel : ∀ t : Fin grid2.N, _)
theorem index2_6 : ∀ t : Fin cfg2.N, win2_6.index t (0 : Fin 1) = t.val :=
  (by decide +kernel : ∀ t : Fin grid2.N, _)

/-- Window 0's block at point `t`, read off contents `A` of its array: row `p` is row `512 t + p` of `A`. -/
theorem read2_0 {Val : EltTy → Type} (A : S4096x1x64.Idx → Val .f32) (t : Fin cfg2.N) (p : Fin 512) (d : Fin 64) :
    ((cfg2.win 0).blk t).view.read Val A (ix3 p 0 d : S512x1x64.Idx) = A (ix3 (row2 t p) 0 d) := by
  rw [View.read_apply]
  show A _ = A _
  refine congrArg A ?_
  obtain ⟨e0, e1, e2⟩ := index2_0 t
  funext a; apply Fin.ext
  match a with
  | ⟨0, _⟩ => show win2_0.index t (0 : Fin 3) * 512 + 1 * p.val = t.val * 512 + p.val; rw [e0]; omega
  | ⟨1, _⟩ => show win2_0.index t (1 : Fin 3) * 1 + 1 * 0 = 0; rw [e1]
  | ⟨2, _⟩ => show win2_0.index t (2 : Fin 3) * 64 + 1 * d.val = d.val; rw [e2]; omega

/-- Window 1's block at point `t`: row `p` is row `512 t + p` of its array, all 16 × 64 entries of it. -/
theorem read2_1 {Val : EltTy → Type} (A : S4096x1x16x64.Idx → Val .f32) (t : Fin cfg2.N) (p : Fin 512) (k : Fin 16) (d : Fin 64) :
    ((cfg2.win 1).blk t).view.read Val A (ix4 p 0 k d : S512x1x16x64.Idx) = A (ix4 (row2 t p) 0 k d) := by
  rw [View.read_apply]
  show A _ = A _
  refine congrArg A ?_
  obtain ⟨e0, e1, e2, e3⟩ := index2_1 t
  funext a; apply Fin.ext
  match a with
  | ⟨0, _⟩ => show win2_1.index t (0 : Fin 4) * 512 + 1 * p.val = t.val * 512 + p.val; rw [e0]; omega
  | ⟨1, _⟩ => show win2_1.index t (1 : Fin 4) * 1 + 1 * 0 = 0; rw [e1]
  | ⟨2, _⟩ => show win2_1.index t (2 : Fin 4) * 16 + 1 * k.val = k.val; rw [e2]; omega
  | ⟨3, _⟩ => show win2_1.index t (3 : Fin 4) * 64 + 1 * d.val = d.val; rw [e3]; omega

/-- Window 2's block at point `t`: the same rows of its own array. -/
theorem read2_2 {Val : EltTy → Type} (A : S4096x1x16x64.Idx → Val .f32) (t : Fin cfg2.N) (p : Fin 512) (k : Fin 16) (d : Fin 64) :
    ((cfg2.win 2).blk t).view.read Val A (ix4 p 0 k d : S512x1x16x64.Idx) = A (ix4 (row2 t p) 0 k d) := by
  rw [View.read_apply]
  show A _ = A _
  refine congrArg A ?_
  obtain ⟨e0, e1, e2, e3⟩ := index2_2 t
  funext a; apply Fin.ext
  match a with
  | ⟨0, _⟩ => show win2_2.index t (0 : Fin 4) * 512 + 1 * p.val = t.val * 512 + p.val; rw [e0]; omega
  | ⟨1, _⟩ => show win2_2.index t (1 : Fin 4) * 1 + 1 * 0 = 0; rw [e1]
  | ⟨2, _⟩ => show win2_2.index t (2 : Fin 4) * 16 + 1 * k.val = k.val; rw [e2]; omega
  | ⟨3, _⟩ => show win2_2.index t (3 : Fin 4) * 64 + 1 * d.val = d.val; rw [e3]; omega

/-- Window 3's block at point `t`: rows `512 t … 512 t + 511` of the 4096 × 64 array. -/
theorem read2_3 {Val : EltTy → Type} (A : S4096x64.Idx → Val .f32) (t : Fin cfg2.N) (p : Fin 512) (d : Fin 64) :
    ((cfg2.win 3).blk t).view.read Val A (ix2 p d : S512x64.Idx) = A (ix2 (row2 t p) d) := by
  rw [View.read_apply]
  show A _ = A _
  refine congrArg A ?_
  obtain ⟨e0, e1⟩ := index2_3 t
  funext a; apply Fin.ext
  match a with
  | ⟨0, _⟩ => show win2_3.index t (0 : Fin 2) * 512 + 1 * p.val = t.val * 512 + p.val; rw [e0]; omega
  | ⟨1, _⟩ => show win2_3.index t (1 : Fin 2) * 64 + 1 * d.val = d.val; rw [e1]; omega

/-- Window 4's block is the whole 64 × 64 weight at every point. -/
theorem read2_4 {Val : EltTy → Type} (A : S64x64.Idx → Val .f32) (t : Fin cfg2.N) (d e : Fin 64) :
    ((cfg2.win 4).blk t).view.read Val A (ix2 d e : S64x64.Idx) = A (ix2 d e) := by
  rw [View.read_apply]
  show A _ = A _
  refine congrArg A ?_
  obtain ⟨e0, e1⟩ := index2_4 t
  funext a; apply Fin.ext
  match a with
  | ⟨0, _⟩ => show win2_4.index t (0 : Fin 2) * 64 + 1 * d.val = d.val; rw [e0]; omega
  | ⟨1, _⟩ => show win2_4.index t (1 : Fin 2) * 64 + 1 * e.val = e.val; rw [e1]; omega

/-- Window 5's block is the whole 1 × 64 bias at every point. -/
theorem read2_5 {Val : EltTy → Type} (A : S1x64.Idx → Val .f32) (t : Fin cfg2.N) (e : Fin 64) :
    ((cfg2.win 5).blk t).view.read Val A (ix2 0 e : S1x64.Idx) = A (ix2 0 e) := by
  rw [View.read_apply]
  show A _ = A _
  refine congrArg A ?_
  obtain ⟨e0, e1⟩ := index2_5 t
  funext a; apply Fin.ext
  match a with
  | ⟨0, _⟩ => show win2_5.index t (0 : Fin 2) * 1 + 1 * 0 = 0; rw [e0]
  | ⟨1, _⟩ => show win2_5.index t (1 : Fin 2) * 64 + 1 * e.val = e.val; rw [e1]; omega

/-- The result window's block at point `t`, read off contents `A` of the result vector: entries `512 t … 512 t + 511`. -/
theorem read2_6 {Val : EltTy → Type} (A : S4096.Idx → Val .f32) (t : Fin cfg2.N) (p : Fin 512) :
    ((cfg2.win 6).blk t).view.read Val A (ix1 p : S512.Idx) = A (ix1 (row2 t p)) := by
  rw [View.read_apply]
  show A _ = A _
  refine congrArg A ?_
  have e0 := index2_6 t
  funext a; apply Fin.ext
  match a with
  | ⟨0, _⟩ => show win2_6.index t (0 : Fin 1) * 512 + 1 * p.val = t.val * 512 + p.val; rw [e0]; omega

/-- The result window's blocks are never cut: what is written back of a staging buffer is the buffer. -/
theorem cut2_6 {α : Type} (t : Fin cfg2.N) (X : S512.Idx → α) (p : Fin 512) :
    (cfg2.win 6).cut (grid2.coords t) X (ix1 p : S512.Idx) = X (ix1 p) := by
  show X _ = X _
  refine congrArg X ?_
  funext a
  match a with
  | ⟨0, _⟩ => rfl

/-- An index of the result vector is in point `t`'s block iff it is in the block's range. -/
theorem mem_blk2 (t : Fin cfg2.N) (i : S4096.Idx) :
    i ∈ ((cfg2.win 6).blk t).view.set ↔ ∀ a : Fin 1, win2_6.index t a * S512.size a ≤ (i a).val ∧ (i a).val < win2_6.index t a * S512.size a + S512.size a := by
  show i ∈ ((View.whole main_v92).slice (win2_6.rect t)).set ↔ _
  rw [View.set_slice_whole, Rect.mem_set_unit]
  exact Iff.rfl

/-- Every index of the result vector is in the block of point `index / 512`, which writes back. -/
theorem cover2 (i : S4096.Idx) :
    ∃ t : Fin cfg2.N, (cfg2.win 6).flush t = true ∧ i ∈ ((cfg2.win 6).blk t).view.set := by
  have h0 : (i 0).val < 4096 := (i 0).isLt
  obtain ⟨t, ht⟩ : ∃ t : Fin cfg2.N, t.val = (i 0).val / 512 := ⟨⟨(i 0).val / 512, by rw [N2]; omega⟩, rfl⟩
  refine ⟨t, flush2_6 t, ?_⟩
  rw [mem_blk2]
  have e0 := index2_6 t
  intro a
  match a with
  | ⟨0, _⟩ => show win2_6.index t (0 : Fin 1) * 512 ≤ (i 0).val ∧ (i 0).val < win2_6.index t (0 : Fin 1) * 512 + 512; rw [e0]; omega

end Cert.KernelBlocks

end
-- ==== Proof.KernelBlocks2.lean ====
import proofs.«158850_j22935125360845_2_alg».proof.Proof.KernelIdealFrame
import proofs.«158850_j22935125360845_2_alg».proof.Proof.KernelWindows2
import proofs.«158850_j22935125360845_2_alg».proof.Proof.KernelRowCongr

noncomputable section

namespace Cert.KernelBlocks

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

/-! # The third region: from the blocks to the whole result vector

The body of the region, at every grid point, sends the point's input blocks to an output block of 512 numbers whose
entry `p` is a function `R` of row `p` of each row-blocked input block and of the whole weight and bias (`hrow`). The
blocks at point `t` are rows `512 t … 512 t + 511` of the arrays, and the output blocks tile the 4096 entries of the
result. So entry `b` of the result vector after the run is `R` of row `b` of the arrays the region finds. -/

variable (V : (c : Dev nD) → (b : Ref sig .tc) → Buf (Elt Ideal) ((c : Thread nD τ).loc b))

/-- The result vector as one function of the arrays the region finds: entry `b` is `R` of row `b` of each row-blocked
    array, of the weight and of the bias. -/
def whole2 (R : (Fin 64 → EReal) → (Fin 16 → Fin 64 → EReal) → (Fin 16 → Fin 64 → EReal) → (Fin 64 → EReal) → (Fin 64 → Fin 64 → EReal) → (Fin 64 → EReal) → EReal) (c : Dev nD) : S4096.Idx → EReal := fun i =>
  R (fun d => V c main_v89 (ix3 (i 0 : Fin 4096) 0 d)) (fun k d => V c main_v91 (ix4 (i 0 : Fin 4096) 0 k d))
    (fun k d => V c main_v82 (ix4 (i 0 : Fin 4096) 0 k d)) (fun d => V c main_v37 (ix2 (i 0 : Fin 4096) d))
    (fun d e => V c main_v86 (ix2 d e)) (fun e => V c main_v88 (ix2 0 e))

/-- What point `t` writes back is block `t` of `whole2`. -/
theorem flushed2_eq
    (R : (Fin 64 → EReal) → (Fin 16 → Fin 64 → EReal) → (Fin 16 → Fin 64 → EReal) → (Fin 64 → EReal) → (Fin 64 → Fin 64 → EReal) → (Fin 64 → EReal) → EReal)
    (hrow : ∀ (x0 : Vec Ideal S512x1x64 .f32) (x1 x2 : Vec Ideal S512x1x16x64 .f32) (x3 : Vec Ideal S512x64 .f32) (x4 : Vec Ideal S64x64 .f32) (x5 : Vec Ideal S1x64 .f32) (p : Fin 512),
        out2_6 (F := Ideal) x0 x1 x2 x3 x4 x5 (ix1 p) = R (fun d => x0 (ix3 p 0 d)) (fun k d => x1 (ix4 p 0 k d)) (fun k d => x2 (ix4 p 0 k d)) (fun d => x3 (ix2 p d)) (fun d e => x4 (ix2 d e)) (fun e => x5 (ix2 0 e)))
    (c : Dev nD) (t : Fin cfg2.N) :
    (dat2 V c).flushed 6 t = ((cfg2.win 6).blk t).view.read (Elt Ideal) (whole2 V R c) := by
  show (cfg2.win 6).cut (grid2.coords t) ((dat2 V c).after 6 t) = _
  rw [after2_6]
  funext j
  obtain ⟨p, rfl⟩ : ∃ (p : Fin 512), j = (ix1 p : S512.Idx) := ⟨j 0, eq_ix1 j⟩
  refine (cut2_6 t (out2_6 (iblk2 V c 0 t) (iblk2 V c 1 t) (iblk2 V c 2 t) (iblk2 V c 3 t) (iblk2 V c 4 t) (iblk2 V c 5 t)) p).trans ?_
  refine (hrow (iblk2 V c 0 t) (iblk2 V c 1 t) (iblk2 V c 2 t) (iblk2 V c 3 t) (iblk2 V c 4 t) (iblk2 V c 5 t) p).trans ?_
  refine Eq.trans ?_ (read2_6 (Val := Elt Ideal) (whole2 V R c) t p).symm
  exact congr6 R
    (funext fun d => read2_0 (Val := Elt Ideal) (V c main_v89) t p d)
    (funext fun k => funext fun d => read2_1 (Val := Elt Ideal) (V c main_v91) t p k d)
    (funext fun k => funext fun d => read2_2 (Val := Elt Ideal) (V c main_v82) t p k d)
    (funext fun d => read2_3 (Val := Elt Ideal) (V c main_v37) t p d)
    (funext fun d => funext fun e => read2_4 (Val := Elt Ideal) (V c main_v86) t d e)
    (funext fun e => read2_5 (Val := Elt Ideal) (V c main_v88) t e)

/-- THE THIRD REGION'S RESULT: entry `b` of the result vector after the run. -/
theorem region2_at
    (R : (Fin 64 → EReal) → (Fin 16 → Fin 64 → EReal) → (Fin 16 → Fin 64 → EReal) → (Fin 64 → EReal) → (Fin 64 → Fin 64 → EReal) → (Fin 64 → EReal) → EReal)
    (hrow : ∀ (x0 : Vec Ideal S512x1x64 .f32) (x1 x2 : Vec Ideal S512x1x16x64 .f32) (x3 : Vec Ideal S512x64 .f32) (x4 : Vec Ideal S64x64 .f32) (x5 : Vec Ideal S1x64 .f32) (p : Fin 512),
        out2_6 (F := Ideal) x0 x1 x2 x3 x4 x5 (ix1 p) = R (fun d => x0 (ix3 p 0 d)) (fun k d => x1 (ix4 p 0 k d)) (fun k d => x2 (ix4 p 0 k d)) (fun d => x3 (ix2 p d)) (fun d e => x4 (ix2 d e)) (fun e => x5 (ix2 0 e)))
    (c : Dev nD) (b : Fin 4096) :
    (dat2 V c).arrAt 6 cfg2.N (ix1 b)
      = R (fun d => V c main_v89 (ix3 b 0 d)) (fun k d => V c main_v91 (ix4 b 0 k d)) (fun k d => V c main_v82 (ix4 b 0 k d))
          (fun d => V c main_v37 (ix2 b d)) (fun d e => V c main_v86 (ix2 d e)) (fun e => V c main_v88 (ix2 0 e)) :=
  congrFun ((dat2 V c).arrAt_eq_of_cover 6 (whole2 V R c) (fun t _ => flushed2_eq V R hrow c t) cover2) (ix1 b)

end Cert.KernelBlocks

end
-- ==== Proof.LibUnitAxes4.lean ====
/-
  Unit axes added to an array and spread to rank 4, read at an entry.

  A pairwise combination x[:, :, None, :] ∘ y[:, None, :, :] ∘ z[:, None, None, :] gives each operand a unit axis where
  another varies and broadcasts all three to [a, b, m, c].  Read at (p, n, q, d): a cast that inserts unit axes keeps the
  row-major position, so [a, b, c] → [a, b, 1, c] and [a, b, c] → [a, 1, b, c] read the operand at the remaining
  coordinates and [a, c] → [a, 1, 1, c] at (p, d); a broadcast along unit axes reads the operand at coordinate 0 there.
  Any extents, any element type.
-/
import Idealize.ShloMosaic.Lib.ValueIdx
import Idealize.ShloMosaic.Lib.Pipeline.Value

noncomputable section

namespace Cert.Lib.UnitAxes4

open Idealize.ShloMosaic Idealize.ShloMosaic.ValueIdx

/-! ## Unit axes added and spread: each layout operation read at an entry -/

section Layout
variable {α : Type}

/-- [a, b, c] given a unit axis before the last: entry (p, n, u, d) is entry (p, n, d). -/
theorem shapeCast_abc_ab1c_apply {a b c : ℕ} (x : (⟨3, ![a, b, c]⟩ : Shape).Idx → α)
    (h : (⟨3, ![a, b, c]⟩ : Shape).ShapeCasts ⟨4, ![a, b, 1, c]⟩) (p : Fin a) (n : Fin b) (u : Fin 1) (d : Fin c) :
    shapeCast ⟨4, ![a, b, 1, c]⟩ x h (ix4 p n u d) = x (ix3 p n d) :=
  shapeCast_apply x h _ _ (by
    have hu : u.val = 0 := by omega
    rw [Shape.rowMajor_val_three, Shape.rowMajor_val_four]
    show (p.val * b + n.val) * c + d.val = (((p.val * b + n.val) * 1 + u.val) * c + d.val)
    rw [hu, Nat.mul_one, Nat.add_zero])

/-- [a, b, c] given a unit axis after the first: entry (p, u, n, d) is entry (p, n, d). -/
theorem shapeCast_abc_a1bc_apply {a b c : ℕ} (x : (⟨3, ![a, b, c]⟩ : Shape).Idx → α)
    (h : (⟨3, ![a, b, c]⟩ : Shape).ShapeCasts ⟨4, ![a, 1, b, c]⟩) (p : Fin a) (u : Fin 1) (n : Fin b) (d : Fin c) :
    shapeCast ⟨4, ![a, 1, b, c]⟩ x h (ix4 p u n d) = x (ix3 p n d) :=
  shapeCast_apply x h _ _ (by
    have hu : u.val = 0 := by omega
    rw [Shape.rowMajor_val_three, Shape.rowMajor_val_four]
    show (p.val * b + n.val) * c + d.val = (((p.val * 1 + u.val) * b + n.val) * c + d.val)
    rw [hu, Nat.mul_one, Nat.add_zero])

/-- [a, c] given two unit axes in the middle: entry (p, u, w, d) is entry (p, d). -/
theorem shapeCast_ac_a11c_apply {a c : ℕ} (x : (⟨2, ![a, c]⟩ : Shape).Idx → α)
    (h : (⟨2, ![a, c]⟩ : Shape).ShapeCasts ⟨4, ![a, 1, 1, c]⟩) (p : Fin a) (u w : Fin 1) (d : Fin c) :
    shapeCast ⟨4, ![a, 1, 1, c]⟩ x h (ix4 p u w d) = x (ix2 p d) :=
  shapeCast_apply x h _ _ (by
    have hu : u.val = 0 := by omega
    have hw : w.val = 0 := by omega
    rw [Shape.rowMajor_val_two, Shape.rowMajor_val_four]
    show p.val * c + d.val = (((p.val * 1 + u.val) * 1 + w.val) * c + d.val)
    rw [hu, hw]
    simp only [Nat.mul_one, Nat.add_zero])

/-- [a, b, 1, c] broadcast over its unit axis to [a, b, m, c]: entry (p, n, q, d) is entry (p, n, 0, d). -/
theorem broadcastTo_ab1c_abmc_apply {a b m c : ℕ} (v : (⟨4, ![a, b, 1, c]⟩ : Shape).Idx → α)
    (h : (⟨4, ![a, b, 1, c]⟩ : Shape).Broadcasts ⟨4, ![a, b, m, c]⟩) (p : Fin a) (n : Fin b) (q : Fin m) (d : Fin c) :
    broadcastTo ⟨4, ![a, b, m, c]⟩ v h (ix4 p n q d) = v (ix4 p n (0 : Fin 1) d) := by
  refine broadcastTo_apply v h (ix4 p n q d) (ix4 p n (0 : Fin 1) d) fun ax => ?_
  match ax with
  | ⟨0, _⟩ =>
    show p.val = if a = 1 then 0 else p.val
    split
    · have := p.isLt; omega
    · rfl
  | ⟨1, _⟩ =>
    show n.val = if b = 1 then 0 else n.val
    split
    · have := n.isLt; omega
    · rfl
  | ⟨2, _⟩ => rfl
  | ⟨3, _⟩ =>
    show d.val = if c = 1 then 0 else d.val
    split
    · have := d.isLt; omega
    · rfl

/-- [a, 1, m, c] broadcast over its unit axis to [a, b, m, c]: entry (p, n, q, d) is entry (p, 0, q, d). -/
theorem broadcastTo_a1mc_abmc_apply {a b m c : ℕ} (v : (⟨4, ![a, 1, m, c]⟩ : Shape).Idx → α)
    (h : (⟨4, ![a, 1, m, c]⟩ : Shape).Broadcasts ⟨4, ![a, b, m, c]⟩) (p : Fin a) (n : Fin b) (q : Fin m) (d : Fin c) :
    broadcastTo ⟨4, ![a, b, m, c]⟩ v h (ix4 p n q d) = v (ix4 p (0 : Fin 1) q d) := by
  refine broadcastTo_apply v h (ix4 p n q d) (ix4 p (0 : Fin 1) q d) fun ax => ?_
  match ax with
  | ⟨0, _⟩ =>
    show p.val = if a = 1 then 0 else p.val
    split
    · have := p.isLt; omega
    · rfl
  | ⟨1, _⟩ => rfl
  | ⟨2, _⟩ =>
    show q.val = if m = 1 then 0 else q.val
    split
    · have := q.isLt; omega
    · rfl
  | ⟨3, _⟩ =>
    show d.val = if c = 1 then 0 else d.val
    split
    · have := d.isLt; omega
    · rfl

/-- [a, 1, 1, c] broadcast over both unit axes to [a, b, m, c]: entry (p, n, q, d) is entry (p, 0, 0, d). -/
theorem broadcastTo_a11c_abmc_apply {a b m c : ℕ} (v : (⟨4, ![a, 1, 1, c]⟩ : Shape).Idx → α)
    (h : (⟨4, ![a, 1, 1, c]⟩ : Shape).Broadcasts ⟨4, ![a, b, m, c]⟩) (p : Fin a) (n : Fin b) (q : Fin m) (d : Fin c) :
    broadcastTo ⟨4, ![a, b, m, c]⟩ v h (ix4 p n q d) = v (ix4 p (0 : Fin 1) (0 : Fin 1) d) := by
  refine broadcastTo_apply v h (ix4 p n q d) (ix4 p (0 : Fin 1) (0 : Fin 1) d) fun ax => ?_
  match ax with
  | ⟨0, _⟩ =>
    show p.val = if a = 1 then 0 else p.val
    split
    · have := p.isLt; omega
    · rfl
  | ⟨1, _⟩ => rfl
  | ⟨2, _⟩ => rfl
  | ⟨3, _⟩ =>
    show d.val = if c = 1 then 0 else d.val
    split
    · have := d.isLt; omega
    · rfl

end Layout

end Cert.Lib.UnitAxes4

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowMax.lean ====
/-
  A maximum along the rows of a matrix, read at an index.  A `vector.multi_reduction <maximumf>` over axis 1 of an
  [a, b] matrix of extended reals, from the accumulator word of −∞, has at p the fold of `max` from that word's value
  over the b columns of row p; stood up as an [a, 1] column (a keepdims maximum) it has that fold at (p, ·).
-/
import Idealize.ShloMosaic.Lib.Pipeline.Value
import Idealize.ShloMosaic.Lib.ValueIdx
import Idealize.ShloMosaic.Lib.ValueLayout
import Idealize.ShloMosaic.PureOps.Ideal.Laws
import proofs.«158850_j22935125360845_2_alg».proof.Proof.LibLayout

noncomputable section

namespace Cert.Lib.RowMax

open Idealize.ShloMosaic Idealize.ShloMosaic.ValueIdx

/-- The maximum over axis 1 of an [a, b] matrix, from the accumulator word of −∞: entry p is the fold of `max` over
    row p, started at that word's value. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The keepdims row maximum: the column of the maxima over axis 1, at (p, ·), is the fold of `max` over row p. -/
theorem rowmax_column {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (Ideal.ofBits .f32 0xFF800000#32) (fun k => src (ix2 p k)) :=
  (Cert.LibLayout.shapeCast_a_a1_apply _ hc p u).trans (reduce_cols_max src h hφ hacc p)

end Cert.Lib.RowMax

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«158850_j22935125360845_2_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.LibSoftmaxRows.lean ====
/-
  A softmax along the rows of a matrix [r, m], read at an entry, in the two steps a kernel takes.

  • The shifted exponentials: the row maximum (a maximum over axis 1 from the word of −∞, stood up as an [r, 1] column
    and broadcast back over the m columns) is subtracted and the exponential applied; entry (row, k) is
    exp (x (row, k) − the fold of `max` over row `row`).
  • The normalisation: an array e divided by its row sums (a sum over axis 1 from the zero accumulator, stood up as a
    column and broadcast back); entry (row, k) is e (row, k) divided by the sum of row `row`.
  Any extents, at the extended reals.
-/
import Idealize.ShloMosaic.Lib.Pipeline.Value
import Idealize.ShloMosaic.Lib.ValueIdx
import Idealize.ShloMosaic.PureOps.Ideal.Laws
import proofs.«158850_j22935125360845_2_alg».proof.Proof.LibRowMax
import proofs.«158850_j22935125360845_2_alg».proof.Proof.LibRowSum
import proofs.«158850_j22935125360845_2_alg».proof.Proof.LibVecIx2

noncomputable section

open scoped BigOperators

namespace Cert.Lib.SoftmaxRows

open Idealize.ShloMosaic Idealize.ShloMosaic.ValueIdx

variable {r m : ℕ}

/-- The exponential of a matrix shifted by its row maxima: entry (row, k) is exp (x (row, k) − max over row `row`). -/
theorem shifted_exp_apply (x : FVec Ideal ⟨2, ![r, m]⟩ .f32)
    (hred : (⟨2, ![r, m]⟩ : Shape).Reduces [1] ⟨1, ![r]⟩) (hφ : FKind.Formats .f32)
    (hmax : (0xFF800000#32 : BitVec 32) = FKind.maximumf.neutral .f32 hφ)
    (hc : (⟨1, ![r]⟩ : Shape).ShapeCasts ⟨2, ![r, 1]⟩) (hb : (⟨2, ![r, 1]⟩ : Shape).Broadcasts ⟨2, ![r, m]⟩)
    (row : Fin r) (k : Fin m) :
    exp (subf x (broadcastTo ⟨2, ![r, m]⟩
        (shapeCast ⟨2, ![r, 1]⟩ (multiReduction .maximumf [1] ⟨1, ![r]⟩ x 0xFF800000#32 hred hφ hmax) hc) hb)) (ix2 row k)
      = Ideal.exp (x (ix2 row k)
          - (Finset.univ : Finset (Fin m)).fold max (Ideal.ofBits .f32 0xFF800000#32) (fun l => x (ix2 row l))) := by
  show Ideal.exp (x (ix2 row k) - broadcastTo ⟨2, ![r, m]⟩ _ hb (ix2 row k)) = _
  rw [Cert.Lib.VecIx2.bcast_col, Cert.Lib.RowMax.rowmax_column]

/-- A matrix divided by its row sums: entry (row, k) is e (row, k) over the sum of row `row`. -/
theorem over_rowsum_apply (e : FVec Ideal ⟨2, ![r, m]⟩ .f32)
    (hred : (⟨2, ![r, m]⟩ : Shape).Reduces [1] ⟨1, ![r]⟩) (hφ : FKind.Formats .f32)
    (hadd : (0x00000000#32 : BitVec 32) = FKind.add.neutral .f32 hφ)
    (hc : (⟨1, ![r]⟩ : Shape).ShapeCasts ⟨2, ![r, 1]⟩) (hb : (⟨2, ![r, 1]⟩ : Shape).Broadcasts ⟨2, ![r, m]⟩)
    (row : Fin r) (k : Fin m) :
    divf e (broadcastTo ⟨2, ![r, m]⟩
        (shapeCast ⟨2, ![r, 1]⟩ (multiReduction .add [1] ⟨1, ![r]⟩ e 0x00000000#32 hred hφ hadd) hc) hb) (ix2 row k)
      = Ideal.div (e (ix2 row k)) (∑ l : Fin m, e (ix2 row l)) := by
  show Ideal.div (e (ix2 row k)) (broadcastTo ⟨2, ![r, m]⟩ _ hb (ix2 row k)) = _
  rw [Cert.Lib.VecIx2.bcast_col, Cert.Lib.RowSum.rowsum_column]

end Cert.Lib.SoftmaxRows

end
-- ==== Proof.LibRank4.lean ====
/-
  Rank-4 arrays [a, b, m, c] read at an entry (p, n, k, d): a stack of a·b rows, each with m neighbours of c features.

  • A sum over the last axis leaves [a, b, m]: entry (p, n, k) is the sum over d of the entries (p, n, k, d).
  • A sum over the third axis leaves [a, b, c]: entry (p, n, d) is the sum over k of the entries (p, n, k, d).
  • A matrix [r, m] with r = a·b rows, cast to [a, b, m, 1]: entry (p, n, k, ·) is the matrix at (p·b + n, k) — the
    row-major position of (p, n, k, 0) in [a, b, m, 1] is ((p·b + n)·m + k)·1 + 0.
  • [a, b, m, 1] broadcast along its unit axis to [a, b, m, c]: entry (p, n, k, d) is entry (p, n, k, 0).
  Any extents; the sums at the extended reals from the zero accumulator.
-/
import Idealize.ShloMosaic.Lib.Pipeline.Value
import Idealize.ShloMosaic.Lib.ValueIdx
import Idealize.ShloMosaic.PureOps.Ideal.Laws

noncomputable section

open scoped BigOperators

namespace Cert.Lib.Rank4

open Idealize.ShloMosaic Idealize.ShloMosaic.ValueIdx

variable {α : Type} {a b m c r : ℕ}

/-- The sum over the last axis of an [a, b, m, c] array: entry (p, n, k) is the sum over d of the entries (p, n, k, d). -/
theorem sum_last_apply (src : FVec Ideal ⟨4, ![a, b, m, c]⟩ .f32)
    (h : (⟨4, ![a, b, m, c]⟩ : Shape).Reduces [3] ⟨3, ![a, b, m]⟩) (hφ : FKind.Formats .f32)
    (hacc : (0x00000000#32 : BitVec 32) = FKind.add.neutral .f32 hφ) (p : Fin a) (n : Fin b) (k : Fin m) :
    multiReduction .add [3] ⟨3, ![a, b, m]⟩ src 0x00000000#32 h hφ hacc (ix3 p n k)
      = ∑ d : Fin c, src (ix4 p n k d) := by
  refine (Ideal.multiReduction_add_single src 0x00000000#32 h hφ hacc (ix3 p n k)).trans ?_
  refine Finset.sum_congr rfl fun d _ => congrArg src (funext fun ax => Fin.ext ?_)
  rw [h.lift_val]
  match ax with
  | ⟨0, _⟩ => rfl
  | ⟨1, _⟩ => rfl
  | ⟨2, _⟩ => rfl
  | ⟨3, _⟩ => rfl

/-- The sum over the third axis of an [a, b, m, c] array: entry (p, n, d) is the sum over k of the entries (p, n, k, d). -/
theorem sum_third_apply (src : FVec Ideal ⟨4, ![a, b, m, c]⟩ .f32)
    (h : (⟨4, ![a, b, m, c]⟩ : Shape).Reduces [2] ⟨3, ![a, b, c]⟩) (hφ : FKind.Formats .f32)
    (hacc : (0x00000000#32 : BitVec 32) = FKind.add.neutral .f32 hφ) (p : Fin a) (n : Fin b) (d : Fin c) :
    multiReduction .add [2] ⟨3, ![a, b, c]⟩ src 0x00000000#32 h hφ hacc (ix3 p n d)
      = ∑ k : Fin m, src (ix4 p n k d) := by
  refine (Ideal.multiReduction_add_single src 0x00000000#32 h hφ hacc (ix3 p n d)).trans ?_
  refine Finset.sum_congr rfl fun k _ => congrArg src (funext fun ax => Fin.ext ?_)
  rw [h.lift_val]
  match ax with
  | ⟨0, _⟩ => rfl
  | ⟨1, _⟩ => rfl
  | ⟨2, _⟩ => rfl
  | ⟨3, _⟩ => rfl

/-- A matrix [r, m] of r = a·b rows cast to [a, b, m, 1]: entry (p, n, k, ·) is the matrix at (row, k), row = p·b + n. -/
theorem shapeCast_rm_abm1_apply (x : (⟨2, ![r, m]⟩ : Shape).Idx → α)
    (h : (⟨2, ![r, m]⟩ : Shape).ShapeCasts ⟨4, ![a, b, m, 1]⟩) (row : Fin r) (p : Fin a) (n : Fin b) (k : Fin m)
    (u : Fin 1) (hrow : row.val = p.val * b + n.val) :
    shapeCast ⟨4, ![a, b, m, 1]⟩ x h (ix4 p n k u) = x (ix2 row k) :=
  shapeCast_apply x h _ _ (by
    have hu : u.val = 0 := by omega
    rw [Shape.rowMajor_val_two, Shape.rowMajor_val_four]
    show row.val * m + k.val = ((p.val * b + n.val) * m + k.val) * 1 + u.val
    rw [hu, hrow, Nat.mul_one, Nat.add_zero])

/-- [a, b, m, 1] broadcast along its unit axis to [a, b, m, c]: entry (p, n, k, d) is entry (p, n, k, 0). -/
theorem broadcastTo_abm1_abmc_apply (v : (⟨4, ![a, b, m, 1]⟩ : Shape).Idx → α)
    (h : (⟨4, ![a, b, m, 1]⟩ : Shape).Broadcasts ⟨4, ![a, b, m, c]⟩) (p : Fin a) (n : Fin b) (k : Fin m) (d : Fin c) :
    broadcastTo ⟨4, ![a, b, m, c]⟩ v h (ix4 p n k d) = v (ix4 p n k (0 : Fin 1)) := by
  refine broadcastTo_apply v h (ix4 p n k d) (ix4 p n k (0 : Fin 1)) fun ax => ?_
  match ax with
  | ⟨0, _⟩ =>
    show p.val = if a = 1 then 0 else p.val
    split
    · have := p.isLt; omega
    · rfl
  | ⟨1, _⟩ =>
    show n.val = if b = 1 then 0 else n.val
    split
    · have := n.isLt; omega
    · rfl
  | ⟨2, _⟩ =>
    show k.val = if m = 1 then 0 else k.val
    split
    · have := k.isLt; omega
    · rfl
  | ⟨3, _⟩ => rfl

end Cert.Lib.Rank4

end
-- ==== Proof.KernelMix.lean ====
/-
  The aggregation stage of one layer, on a stack of a·b rows, read at one entry.

  The rows are laid out as [a, b, …]: row (p, n) has its own vector `sv (p, n, ·)`, sixteen neighbours
  `nv (p, n, k, ·)` with relations `nr (p, n, k, ·)`, and shares the user's vector `ue (p, ·)` with the other rows of
  member p. The softmax runs on the flat view [r, 16] with r = a·b, where row (p, n) sits at p·b + n.  Four arrays are
  named, each a composition of vector operations, and each is read at an entry as the specification's function of the
  row's own data:
  • `logitsArr`  [a, b, 16]: the mean over the features of user · relation            — `Spec.logit`;
  • `liftedArr`  [r, 16]:    the exponential of the logit shifted by the row's largest — `Spec.lifted`;
  • `weightArr`  [r, 16]:    that divided by the row's sum                              — `Spec.weight`;
  • `mixedArr`   [r, 64]:    the row's own vector plus the weighted mean of its neighbours' vectors — `Spec.mixed`.
-/
import proofs.«158850_j22935125360845_2_alg».proof.Proof.Spec
import proofs.«158850_j22935125360845_2_alg».proof.Proof.LibUnitAxes4
import proofs.«158850_j22935125360845_2_alg».proof.Proof.LibLayout
import proofs.«158850_j22935125360845_2_alg».proof.Proof.LibSoftmaxRows
import proofs.«158850_j22935125360845_2_alg».proof.Proof.LibRank4

noncomputable section

open scoped BigOperators

namespace Cert.KernelRows

open Idealize.ShloMosaic Idealize.ShloMosaic.ValueIdx

section Mix

variable {a b r : ℕ}
  (sv : FVec Ideal ⟨3, ![a, b, 64]⟩ .f32) (nv nr : FVec Ideal ⟨4, ![a, b, 16, 64]⟩ .f32)
  (ue : FVec Ideal ⟨2, ![a, 64]⟩ .f32)
  (h8 : (⟨2, ![a, 64]⟩ : Shape).ShapeCasts ⟨4, ![a, 1, 1, 64]⟩)
  (h9 : (⟨4, ![a, 1, 1, 64]⟩ : Shape).Broadcasts ⟨4, ![a, b, 16, 64]⟩)
  (h11 : (⟨4, ![a, b, 16, 64]⟩ : Shape).Reduces [3] ⟨3, ![a, b, 16]⟩)
  (hφ : FKind.Formats .f32)
  (hadd : (0x00000000#32 : BitVec 32) = FKind.add.neutral .f32 hφ)
  (hmax : (0xFF800000#32 : BitVec 32) = FKind.maximumf.neutral .f32 hφ)
  (h14 : (⟨3, ![a, b, 16]⟩ : Shape).ShapeCasts ⟨2, ![r, 16]⟩)
  (h15 : (⟨2, ![r, 16]⟩ : Shape).Reduces [1] ⟨1, ![r]⟩)
  (h16 : (⟨1, ![r]⟩ : Shape).ShapeCasts ⟨2, ![r, 1]⟩)
  (h17 : (⟨2, ![r, 1]⟩ : Shape).Broadcasts ⟨2, ![r, 16]⟩)
  (h24 : (⟨2, ![r, 16]⟩ : Shape).ShapeCasts ⟨4, ![a, b, 16, 1]⟩)
  (h25 : (⟨4, ![a, b, 16, 1]⟩ : Shape).Broadcasts ⟨4, ![a, b, 16, 64]⟩)
  (h27 : (⟨4, ![a, b, 16, 64]⟩ : Shape).Reduces [2] ⟨3, ![a, b, 64]⟩)
  (h31 : (⟨3, ![a, b, 64]⟩ : Shape).ShapeCasts ⟨2, ![r, 64]⟩)

/-- The logits: the user's vector given two unit axes and spread over the rows and neighbours of its member, times the
    relations' vectors, summed over the features, divided by the word of 64. -/
def logitsArr : FVec Ideal ⟨3, ![a, b, 16]⟩ .f32 :=
  divf (multiReduction .add [3] ⟨3, ![a, b, 16]⟩
      (mulf (broadcastTo ⟨4, ![a, b, 16, 64]⟩ (shapeCast ⟨4, ![a, 1, 1, 64]⟩ ue h8) h9) nr) 0x00000000#32 h11 hφ hadd)
    (broadcast ⟨3, ![a, b, 16]⟩ (Scalar.ofBits .f32 0x42800000#32 : Ideal .f32))

/-- The logits on the flat view, shifted by their row's largest and exponentiated. -/
def liftedArr : FVec Ideal ⟨2, ![r, 16]⟩ .f32 :=
  exp (subf (shapeCast ⟨2, ![r, 16]⟩ (logitsArr nr ue h8 h9 h11 hφ hadd) h14)
    (broadcastTo ⟨2, ![r, 16]⟩
      (shapeCast ⟨2, ![r, 1]⟩
        (multiReduction .maximumf [1] ⟨1, ![r]⟩ (shapeCast ⟨2, ![r, 16]⟩ (logitsArr nr ue h8 h9 h11 hφ hadd) h14)
          0xFF800000#32 h15 hφ hmax) h16) h17))

/-- The softmax weights: the shifted exponentials over their row sums. -/
def weightArr : FVec Ideal ⟨2, ![r, 16]⟩ .f32 :=
  divf (liftedArr nr ue h8 h9 h11 hφ hadd hmax h14 h15 h16 h17)
    (broadcastTo ⟨2, ![r, 16]⟩
      (shapeCast ⟨2, ![r, 1]⟩
        (multiReduction .add [1] ⟨1, ![r]⟩ (liftedArr nr ue h8 h9 h11 hφ hadd hmax h14 h15 h16 h17)
          0x00000000#32 h15 hφ hadd) h16) h17)

/-- The rows' own vectors plus the weighted means of their neighbours' vectors (the weights given a unit feature axis
    and spread over the features, times the neighbours' vectors, summed over the neighbours, divided by the word of
    16), on the flat view. -/
def mixedArr : FVec Ideal ⟨2, ![r, 64]⟩ .f32 :=
  shapeCast ⟨2, ![r, 64]⟩
    (addf sv
      (divf (multiReduction .add [2] ⟨3, ![a, b, 64]⟩
          (mulf (broadcastTo ⟨4, ![a, b, 16, 64]⟩
              (shapeCast ⟨4, ![a, b, 16, 1]⟩ (weightArr nr ue h8 h9 h11 hφ hadd hmax h14 h15 h16 h17) h24) h25) nv)
          0x00000000#32 h27 hφ hadd)
        (broadcast ⟨3, ![a, b, 64]⟩ (Scalar.ofBits .f32 0x41800000#32 : Ideal .f32)))) h31

/-- A logit at (p, n, k) is the specification's logit of neighbour k for the user's vector of member p and the
    relations of row (p, n). -/
theorem logitsArr_apply (p : Fin a) (n : Fin b) (k : Fin 16) :
    logitsArr nr ue h8 h9 h11 hφ hadd (ix3 p n k)
      = Cert.Spec.logit (fun d => ue (ix2 p d)) (fun k d => nr (ix4 p n k d)) k := by
  unfold logitsArr Cert.Spec.logit
  rw [divf_apply, broadcast_apply, Cert.Lib.Rank4.sum_last_apply]
  refine congrArg (fun s => Ideal.div s _) (Finset.sum_congr rfl fun d _ => ?_)
  rw [mulf_apply, Cert.Lib.UnitAxes4.broadcastTo_a11c_abmc_apply, Cert.Lib.UnitAxes4.shapeCast_ac_a11c_apply]

/-- On the flat view the row p·b + n holds the logits of row (p, n). -/
theorem logits_flat_apply (row : Fin r) (p : Fin a) (n : Fin b) (hrow : row.val = p.val * b + n.val) (k : Fin 16) :
    shapeCast ⟨2, ![r, 16]⟩ (logitsArr nr ue h8 h9 h11 hφ hadd) h14 (ix2 row k)
      = Cert.Spec.logit (fun d => ue (ix2 p d)) (fun k d => nr (ix4 p n k d)) k :=
  (Cert.LibLayout.shapeCast_abc_mc_apply _ h14 row p n k hrow).trans (logitsArr_apply nr ue h8 h9 h11 hφ hadd p n k)

/-- A shifted exponential at (p·b + n, k) is the specification's for row (p, n). -/
theorem liftedArr_apply (row : Fin r) (p : Fin a) (n : Fin b) (hrow : row.val = p.val * b + n.val) (k : Fin 16) :
    liftedArr nr ue h8 h9 h11 hφ hadd hmax h14 h15 h16 h17 (ix2 row k)
      = Cert.Spec.lifted (fun d => ue (ix2 p d)) (fun k d => nr (ix4 p n k d)) k := by
  unfold liftedArr
  rw [Cert.Lib.SoftmaxRows.shifted_exp_apply]
  simp only [logits_flat_apply nr ue h8 h9 h11 hφ hadd h14 row p n hrow]
  rfl

/-- A softmax weight at (p·b + n, k) is the specification's for row (p, n). -/
theorem weightArr_apply (row : Fin r) (p : Fin a) (n : Fin b) (hrow : row.val = p.val * b + n.val) (k : Fin 16) :
    weightArr nr ue h8 h9 h11 hφ hadd hmax h14 h15 h16 h17 (ix2 row k)
      = Cert.Spec.weight (fun d => ue (ix2 p d)) (fun k d => nr (ix4 p n k d)) k := by
  unfold weightArr
  rw [Cert.Lib.SoftmaxRows.over_rowsum_apply]
  simp only [liftedArr_apply nr ue h8 h9 h11 hφ hadd hmax h14 h15 h16 h17 row p n hrow]
  rfl

/-- The mixed vector at (p·b + n, d) is the specification's for row (p, n). -/
theorem mixedArr_apply (row : Fin r) (p : Fin a) (n : Fin b) (hrow : row.val = p.val * b + n.val) (d : Fin 64) :
    mixedArr sv nv nr ue h8 h9 h11 hφ hadd hmax h14 h15 h16 h17 h24 h25 h27 h31 (ix2 row d)
      = Cert.Spec.mixed (fun d => sv (ix3 p n d)) (fun k d => nv (ix4 p n k d)) (fun k d => nr (ix4 p n k d))
          (fun d => ue (ix2 p d)) d := by
  unfold mixedArr Cert.Spec.mixed
  rw [Cert.LibLayout.shapeCast_abc_mc_apply _ h31 row p n d hrow, addf_apply, divf_apply, broadcast_apply,
    Cert.Lib.Rank4.sum_third_apply]
  refine congrArg (fun s => sv (ix3 p n d) + Ideal.div s _) (Finset.sum_congr rfl fun k _ => ?_)
  rw [mulf_apply, Cert.Lib.Rank4.broadcastTo_abm1_abmc_apply,
    Cert.Lib.Rank4.shapeCast_rm_abm1_apply _ h24 row p n k (0 : Fin 1) hrow,
    weightArr_apply nr ue h8 h9 h11 hφ hadd hmax h14 h15 h16 h17 row p n hrow k]

end Mix

end Cert.KernelRows

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.KernelPay.lean ====
/-
  The three kernel bodies' pure terms read at one entry.

  Each body computes, on its block of rows, the aggregation stage (KernelMix.lean), rounds it and the weight to bf16
  (the identity at the extended reals), multiplies the two into a zero accumulator — entry (row, e) of the product is
  the sum over d of mixed (row, d) · weight (d, e) —, and then adds the bias row, spread over the rows.  Regions 0 and 1
  cut the sum off below at the zero word and give the block its stored shape; region 2 applies tanh, multiplies by the
  user's vector, sums over the features and applies the logistic function.  Regions 0 and 2 work on 512 rows with one
  row per member (row p is (p, 0)); region 1 on 64 members of 16 rows, flattened to 1024 rows (row p·16 + m).
-/
import proofs.«158850_j22935125360845_2_alg».proof.Proof.Gen.KernelIdeal.Skeleton
import proofs.«158850_j22935125360845_2_alg».proof.Proof.KernelMix
import proofs.«158850_j22935125360845_2_alg».proof.Proof.LibPlainDot
import proofs.«158850_j22935125360845_2_alg».proof.Proof.LibRowSum
import Idealize.ShloMosaic.Lib.ValueLayout

noncomputable section

open scoped BigOperators

namespace Cert.KernelRows

open Cert.KernelIdeal Cert.KernelIdeal.Gen Idealize.ShloMosaic Idealize.ShloMosaic.ValueIdx

/-! ## The product of the mixed vectors with the weight -/

/-- Region 0: entry (p, e) of the product is the sum over d of row p's mixed vector at d times the weight at (d, e). -/
theorem product0_apply (v0 : Vec Ideal S512x1x64 .f32) (v2 v4 : Vec Ideal S512x1x16x64 .f32)
    (v6 : Vec Ideal S512x64 .f32) (v33 : Vec Ideal S64x64 .f32) (p : Fin 512) (e : Fin 64) :
    k0_pay2 (F := Ideal) v0 v2 v4 v6 v33 (ix2 p e)
      = ∑ d : Fin 64, Cert.Spec.mixed (fun d => v0 (ix3 p (0 : Fin 1) d)) (fun k d => v2 (ix4 p (0 : Fin 1) k d))
          (fun k d => v4 (ix4 p (0 : Fin 1) k d)) (fun d => v6 (ix2 p d)) d * v33 (ix2 d e) := by
  unfold k0_pay2
  refine (Cert.PlainDot.matmul_zero_plain_apply none _ _ p e).trans ?_
  refine Finset.sum_congr rfl fun d _ => ?_
  simp only [truncf_apply, shapeCast_self]
  refine congrArg (· * v33 (ix2 d e)) ?_
  exact mixedArr_apply (a := 512) (b := 1) (r := 512) v0 v2 v4 v6 _ _ _ _ _ _ _ _ _ _ _ _ _ _ p p (0 : Fin 1)
    (by simp) d

/-- Region 2: the same product (its user's vector passes through an identity cast first). -/
theorem product2_apply (v0 : Vec Ideal S512x1x64 .f32) (v2 v4 : Vec Ideal S512x1x16x64 .f32)
    (v6 : Vec Ideal S512x64 .f32) (v33 : Vec Ideal S64x64 .f32) (p : Fin 512) (e : Fin 64) :
    k2_pay3 (F := Ideal) v0 v2 v4 v6 v33 (ix2 p e)
      = ∑ d : Fin 64, Cert.Spec.mixed (fun d => v0 (ix3 p (0 : Fin 1) d)) (fun k d => v2 (ix4 p (0 : Fin 1) k d))
          (fun k d => v4 (ix4 p (0 : Fin 1) k d)) (fun d => v6 (ix2 p d)) d * v33 (ix2 d e) := by
  unfold k2_pay3 k2_pay2
  refine (Cert.PlainDot.matmul_zero_plain_apply none _ _ p e).trans ?_
  refine Finset.sum_congr rfl fun d _ => ?_
  simp only [truncf_apply, shapeCast_self]
  refine congrArg (· * v33 (ix2 d e)) ?_
  exact mixedArr_apply (a := 512) (b := 1) (r := 512) v0 v2 v4 v6 _ _ _ _ _ _ _ _ _ _ _ _ _ _ p p (0 : Fin 1)
    (by simp) d

/-- Region 1: entry (p·16 + m, e) of the product is the sum over d of row (p, m)'s mixed vector at d times the weight
    at (d, e). -/
theorem product1_apply (v0 : Vec Ideal S64x16x64 .f32) (v2 v4 : Vec Ideal S64x16x16x64 .f32)
    (v6 : Vec Ideal S64x64 .f32) (v33 : Vec Ideal S64x64 .f32) (row : Fin 1024) (p : Fin 64) (m : Fin 16)
    (hrow : row.val = p.val * 16 + m.val) (e : Fin 64) :
    k1_pay2 (F := Ideal) v0 v2 v4 v6 v33 (ix2 row e)
      = ∑ d : Fin 64, Cert.Spec.mixed (fun d => v0 (ix3 p m d)) (fun k d => v2 (ix4 p m k d))
          (fun k d => v4 (ix4 p m k d)) (fun d => v6 (ix2 p d)) d * v33 (ix2 d e) := by
  unfold k1_pay2
  refine (Cert.PlainDot.matmul_zero_plain_apply none _ _ row e).trans ?_
  refine Finset.sum_congr rfl fun d _ => ?_
  simp only [truncf_apply, shapeCast_self]
  refine congrArg (· * v33 (ix2 d e)) ?_
  exact mixedArr_apply (a := 64) (b := 16) (r := 1024) v0 v2 v4 v6 _ _ _ _ _ _ _ _ _ _ _ _ _ _ row p m hrow d

/-! ## What is stored -/

/-- Region 0 stores, at (p, 0, q), the product plus the bias, cut off below at the zero word. -/
theorem stored0_apply (v36 : FVec Ideal S512x64 .f32) (v37 : Vec Ideal S1x64 .f32) (p : Fin 512) (q : Fin 64) :
    k0_pay1 (F := Ideal) v36 v37 (ix3 p (0 : Fin 1) q)
      = max (v36 (ix2 p q) + v37 (ix2 (0 : Fin 1) q)) (Ideal.ofBits .f32 0x00000000#32) := by
  unfold k0_pay1
  rw [Cert.LibLayout.shapeCast_ac_a1c_apply, maximumf_apply, addf_apply, broadcast_apply, broadcastTo_1b_ab_apply,
    shapeCast_self]
  rfl

/-- Region 1 stores, at (p, m, q), the same of the flat row p·16 + m. -/
theorem stored1_apply (v36 : FVec Ideal S1024x64 .f32) (v37 : Vec Ideal S1x64 .f32) (row : Fin 1024) (p : Fin 64)
    (m : Fin 16) (hrow : row.val = p.val * 16 + m.val) (q : Fin 64) :
    k1_pay1 (F := Ideal) v36 v37 (ix3 p m q)
      = max (v36 (ix2 row q) + v37 (ix2 (0 : Fin 1) q)) (Ideal.ofBits .f32 0x00000000#32) := by
  unfold k1_pay1
  rw [Cert.LibLayout.shapeCast_mc_abc_apply _ _ row p m q hrow, maximumf_apply, addf_apply, broadcast_apply,
    broadcastTo_1b_ab_apply, shapeCast_self]
  rfl

/-- Region 2 stores, at p, the logistic function of the inner product of the user's vector with tanh of the product
    plus the bias. -/
theorem stored2_apply (v7 v36 : FVec Ideal S512x64 .f32) (v37 : Vec Ideal S1x64 .f32) (p : Fin 512) :
    k2_pay1 (F := Ideal) v7 v36 v37 (ix1 p)
      = Ideal.logistic (∑ e : Fin 64, v7 (ix2 p e) * Ideal.tanh (v36 (ix2 p e) + v37 (ix2 (0 : Fin 1) e))) := by
  unfold k2_pay1
  show Ideal.logistic (multiReduction (F := Ideal) .add [1] S512 _ 0x00000000#32 _ _ _ (ix1 p)) = _
  refine congrArg Ideal.logistic ?_
  refine (Cert.Lib.RowSum.reduce_cols _ _ _ _ p).trans ?_
  refine Finset.sum_congr rfl fun e _ => ?_
  rw [mulf_apply]
  refine congrArg (v7 (ix2 p e) * ·) ?_
  show Ideal.tanh (addf v36 _ (ix2 p e)) = _
  rw [addf_apply, broadcastTo_1b_ab_apply, shapeCast_self]

end Cert.KernelRows

end
-- ==== Proof.KernelRows.lean ====
/-
  The three kernel bodies read at one entry of what they leave in their output buffer.

  Each body loads its whole input buffers, computes one pure term and stores it over its whole output buffer, so the
  buffer afterwards is that term of the inputs.  Read at an entry, with the stages of KernelPay.lean:
  • region 0, entry (p, 0, q): the first layer's output feature q of row p — `Spec.hidden` of row p's own vector, its
    neighbours' and relations' vectors, the user's vector of row p, the weight and the bias row;
  • region 1, entry (p, m, q): the same for row m of member p, which shares member p's user's vector;
  • region 2, entry p: the last layer and the score of row p — `Spec.score`.
-/
import proofs.«158850_j22935125360845_2_alg».proof.Proof.KernelIdealFrame
import proofs.«158850_j22935125360845_2_alg».proof.Proof.KernelPay

noncomputable section

open scoped BigOperators

namespace Cert.KernelRows

open Cert.KernelIdeal Cert.KernelIdeal.Gen Cert.KernelIdeal.GenP Idealize.ShloMosaic Idealize.ShloMosaic.ValueIdx

/-! ## The whole-buffer rectangles start at zero -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## The three bodies -/

/-- Region 0 leaves, at (p, 0, q), the first layer's output feature q of row p. -/
theorem row0 (x0 : Vec Ideal S512x1x64 .f32) (x1 x2 : Vec Ideal S512x1x16x64 .f32) (x3 : Vec Ideal S512x64 .f32)
    (x4 : Vec Ideal S64x64 .f32) (x5 : Vec Ideal S1x64 .f32) (p : Fin 512) (q : Fin 64) :
    out0_6 (F := Ideal) x0 x1 x2 x3 x4 x5 (ix3 p 0 q)
      = Cert.Spec.hidden (fun d => x0 (ix3 p 0 d)) (fun k d => x1 (ix4 p 0 k d)) (fun k d => x2 (ix4 p 0 k d))
          (fun d => x3 (ix2 p d)) (fun d e => x4 (ix2 d e)) (fun e => x5 (ix2 0 e)) q := by
  unfold out0_6
  rw [View.canon_unit_zero zeros3]
  simp only [View.ld_unit_zero (S := S512x1x64) zeros3, View.ld_unit_zero (S := S512x1x16x64) zeros4,
    View.ld_unit_zero (S := S512x64) zeros2, View.ld_unit_zero (S := S64x64) zeros2,
    View.ld_unit_zero (S := S1x64) zeros2]
  rw [stored0_apply, product0_apply]
  rfl

/-- Region 1 leaves, at (p, m, q), the first layer's output feature q of row m of member p. -/
theorem row1 (x0 : Vec Ideal S64x16x64 .f32) (x1 x2 : Vec Ideal S64x16x16x64 .f32) (x3 : Vec Ideal S64x64 .f32)
    (x4 : Vec Ideal S64x64 .f32) (x5 : Vec Ideal S1x64 .f32) (p : Fin 64) (m : Fin 16) (q : Fin 64) :
    out1_6 (F := Ideal) x0 x1 x2 x3 x4 x5 (ix3 p m q)
      = Cert.Spec.hidden (fun d => x0 (ix3 p m d)) (fun k d => x1 (ix4 p m k d)) (fun k d => x2 (ix4 p m k d))
          (fun d => x3 (ix2 p d)) (fun d e => x4 (ix2 d e)) (fun e => x5 (ix2 0 e)) q := by
  unfold out1_6
  rw [View.canon_unit_zero zeros3]
  simp only [View.ld_unit_zero (S := S64x16x64) zeros3, View.ld_unit_zero (S := S64x16x16x64) zeros4,
    View.ld_unit_zero (S := S64x64) zeros2, View.ld_unit_zero (S := S1x64) zeros2]
  rw [stored1_apply _ _ (⟨p.val * 16 + m.val, by omega⟩ : Fin 1024) p m rfl q,
    product1_apply _ _ _ _ _ (⟨p.val * 16 + m.val, by omega⟩ : Fin 1024) p m rfl q]
  rfl

/-- Region 2 leaves, at p, the score of row p. -/
theorem row2 (x0 : Vec Ideal S512x1x64 .f32) (x1 x2 : Vec Ideal S512x1x16x64 .f32) (x3 : Vec Ideal S512x64 .f32)
    (x4 : Vec Ideal S64x64 .f32) (x5 : Vec Ideal S1x64 .f32) (p : Fin 512) :
    out2_6 (F := Ideal) x0 x1 x2 x3 x4 x5 (ix1 p)
      = Cert.Spec.score (fun d => x0 (ix3 p 0 d)) (fun k d => x1 (ix4 p 0 k d)) (fun k d => x2 (ix4 p 0 k d))
          (fun d => x3 (ix2 p d)) (fun d e => x4 (ix2 d e)) (fun e => x5 (ix2 0 e)) := by
  unfold out2_6
  rw [View.canon_unit_zero zeros1]
  simp only [View.ld_unit_zero (S := S512x1x64) zeros3, View.ld_unit_zero (S := S512x1x16x64) zeros4,
    View.ld_unit_zero (S := S512x64) zeros2, View.ld_unit_zero (S := S64x64) zeros2,
    View.ld_unit_zero (S := S1x64) zeros2]
  rw [stored2_apply]
  simp only [product2_apply, k2_pay2, shapeCast_self]
  rfl

end Cert.KernelRows

end
-- ==== Proof.KernelValue.lean ====
/-
  THE KERNEL PROGRAM'S RESULT, entry by entry, is the common function of the argument arrays.

  Region 0 computes the first layer at depth zero from the item's, the depth-one neighbours' and their
  relations' embeddings; region 1 the first layer at depth one from the depth-one and depth-two embeddings;
  region 2 the second layer and the score from those two outputs. Each region's output array at a batch entry is
  its body's row function of its input arrays' rows at that entry (the blocks tile the arrays), each input array
  is what the host stretch before the first region left (or an earlier region's output), and those are the common
  function's tables.
-/
import proofs.«158850_j22935125360845_2_alg».proof.Proof.KernelFold
import proofs.«158850_j22935125360845_2_alg».proof.Proof.KernelTables
import proofs.«158850_j22935125360845_2_alg».proof.Proof.KernelBlocks0
import proofs.«158850_j22935125360845_2_alg».proof.Proof.KernelBlocks1
import proofs.«158850_j22935125360845_2_alg».proof.Proof.KernelBlocks2
import proofs.«158850_j22935125360845_2_alg».proof.Proof.KernelRows

noncomputable section

namespace Cert.KernelValue

open Cert.KernelIdeal Cert.KernelIdeal.Gen Cert.KernelIdeal.GenP
open Idealize.ShloMosaic Idealize.ShloMosaic.ValueIdx Idealize.ShloMosaic.TcCoe Idealize.ShloMosaic.StableHlo Idealize.SL.Sem
open Cert.KernelFold Cert.KernelTables Cert.KernelHost

/-- The first layer's row function of equal rows is equal. -/
theorem hidden_congr {sv sv' : Fin 64 → EReal} {nv nv' nr nr' : Fin 16 → Fin 64 → EReal} {ue ue' : Fin 64 → EReal}
    {wt wt' : Fin 64 → Fin 64 → EReal} {bias bias' : Fin 64 → EReal}
    (h0 : sv = sv') (h1 : nv = nv') (h2 : nr = nr') (h3 : ue = ue') (h4 : wt = wt') (h5 : bias = bias') (e : Fin 64) :
    Cert.Spec.hidden sv nv nr ue wt bias e = Cert.Spec.hidden sv' nv' nr' ue' wt' bias' e := by
  subst h0 h1 h2 h3 h4 h5; rfl

/-- The score of equal rows is equal. -/
theorem score_congr {sv sv' : Fin 64 → EReal} {nv nv' nr nr' : Fin 16 → Fin 64 → EReal} {ue ue' : Fin 64 → EReal}
    {wt wt' : Fin 64 → Fin 64 → EReal} {bias bias' : Fin 64 → EReal}
    (h0 : sv = sv') (h1 : nv = nv') (h2 : nr = nr') (h3 : ue = ue') (h4 : wt = wt') (h5 : bias = bias') :
    Cert.Spec.score sv nv nr ue wt bias = Cert.Spec.score sv' nv' nr' ue' wt' bias' := by
  subst h0 h1 h2 h3 h4 h5; rfl

variable (m : (ℓ : Loc nD τ sig) → Buf (Elt Ideal) ℓ) (ρ : Dev nD → PrngReg) (c : Dev nD)

/-- Region 0's output array: the first layer at depth zero. -/
theorem layer0item_at (b : Fin 4096) (e : Fin 64) :
    (dat0 (V1 m ρ) c).arrAt 6 cfg0.N (ix3 b 0 e) = Cert.Spec.layer0item (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b e :=
  (Cert.KernelBlocks.region0_at (V1 m ρ) Cert.Spec.hidden Cert.KernelRows.row0 c b e).trans <|
    hidden_congr
      (funext fun d => item_at (W0 m ρ c) b d)
      (funext fun k => funext fun d => nbr1u_at (W0 m ρ c) b k d)
      (funext fun k => funext fun d => rel1u_at (W0 m ρ c) b k d)
      (funext fun d => user_at (W0 m ρ c) b d)
      (funext fun d => funext fun e' => wt0_at (W0 m ρ c) d e')
      (funext fun e' => bias0_at (W0 m ρ c) e') e

/-- Region 1's output array: the first layer at depth one. -/
theorem layer0nbr_at (b : Fin 4096) (k : Fin 16) (e : Fin 64) :
    (dat1 (V2 m ρ) c).arrAt 6 cfg1.N (ix3 b k e) = Cert.Spec.layer0nbr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b k e :=
  (Cert.KernelBlocks.region1_at (V2 m ρ) Cert.Spec.hidden Cert.KernelRows.row1 c b k e).trans <|
    hidden_congr
      (funext fun d => (congrFun (r1_sv m ρ c) (ix3 b k d)).trans (nbr1_at (W0 m ρ c) b k d))
      (funext fun l => funext fun d => (congrFun (r1_nv m ρ c) (ix4 b k l d)).trans (nbr2_at (W0 m ρ c) b k l d))
      (funext fun l => funext fun d => (congrFun (r1_nr m ρ c) (ix4 b k l d)).trans (rel2_at (W0 m ρ c) b k l d))
      (funext fun d => (congrFun (r1_ue m ρ c) (ix2 b d)).trans (user_at (W0 m ρ c) b d))
      (funext fun d => funext fun e' => (congrFun (r1_wt m ρ c) (ix2 d e')).trans (wt0_at (W0 m ρ c) d e'))
      (funext fun e' => (congrFun (r1_bias m ρ c) (ix2 0 e')).trans (bias0_at (W0 m ρ c) e')) e

/-- The result buffer after the run, entry by entry: the common function of the argument arrays. -/
theorem result_at (b : Fin 4096) :
    W5 m ρ c (Proc.devRef .tc main_v92) (ix1 b) = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b :=
  (congrFun (result_arr m ρ c) (ix1 b)).trans <|
  (Cert.KernelBlocks.region2_at (V4 m ρ) Cert.Spec.score Cert.KernelRows.row2 c b).trans <|
    score_congr
      (funext fun d => (congrFun (r2_sv m ρ c) (ix3 b 0 d)).trans (layer0item_at m ρ c b d))
      (funext fun k => funext fun d => (congrFun (r2_nv m ρ c) (ix4 b 0 k d)).trans
        ((unit1_at _ b k d).trans (layer0nbr_at m ρ c b k d)))
      (funext fun k => funext fun d => (congrFun (r2_nr m ρ c) (ix4 b 0 k d)).trans (rel1u_at (W0 m ρ c) b k d))
      (funext fun d => (congrFun (r2_ue m ρ c) (ix2 b d)).trans (user_at (W0 m ρ c) b d))
      (funext fun d => funext fun e' => (congrFun (r2_wt m ρ c) (ix2 d e')).trans (wt1_at (W0 m ρ c) d e'))
      (funext fun e' => (congrFun (r2_bias m ρ c) (ix2 0 e')).trans (bias1_at (W0 m ρ c) e'))

end Cert.KernelValue

end
-- ==== Proof.LibGatherStack.lean ====
/-
  A GATHER OF ROWS BY A STACK OF INDICES.

  A host gather with a stack `[A, B, 1]` of integer index words, read at one index: the rows of a table `[N, C]` are
  looked up, one per position `(a, b)` of the stack, into the result `[A, B, C]` (`stackGather`). Entry `(a, b, q)` of
  the result is the table's entry at the row named by the index word at `(a, b, 0)`, read signed and clamped into
  `[0, N − 1]`, and at column `q` (`stackGather_apply`).
  The dimension numbers are a structure literal over the sizes with the well-formedness proof a parameter, so a
  program's record with the same lists equals it by `rfl`.
-/
import Idealize.ShloMosaic.Lib.ValueIdx

namespace Cert.Lib.GatherStack

open Idealize.ShloMosaic Idealize.ShloMosaic.ValueIdx

section StackGather
variable {α : Type}

/-- The dimension numbers of a gather of rows by a stack of indices: operand `[N, C]`, start indices `[A, B, 1]`,
    result `[A, B, C]`; axis 0 of the operand is indexed and collapsed, axis 1 is taken whole as the result's axis 2,
    and the start indices' last axis holds the one-component index vector. -/
abbrev stackGather (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather of rows by a stack read at `(a, b, q)`: the operand at the row named by the index word at `(a, b, 0)`,
    read signed and clamped into `[0, N − 1]`, and at column `q`. -/
theorem stackGather_apply {N A B C w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (q : Fin C) :
    Host.gather (stackGather N A B C wf) x idx (ix3 a b q)
      = x (ix2 ⟨min (idx (ix3 a b (0 : Fin 1))).toInt.toNat (N - 1), by omega⟩ q) := by
  unfold Host.gather
  congr 1
  funext c
  refine Fin.ext ?_
  match c with
  | ⟨0, h0⟩ =>
    show (stackGather N A B C wf).start (ix3 a b q) idx ⟨0, h0⟩ + (stackGather N A B C wf).batchCoord (ix3 a b q) ⟨0, h0⟩
      + (stackGather N A B C wf).offCoord (ix3 a b q) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (stackGather N A B C wf).startIndexMap from List.mem_singleton.mpr rfl)]
    have hsi : (stackGather N A B C wf).siIdx (ix3 a b q)
        ⟨List.idxOf (⟨0, h0⟩ : Fin 2) (stackGather N A B C wf).startIndexMap,
          List.idxOf_lt_length_iff.2 (List.mem_singleton.mpr rfl)⟩ = ix3 a b (0 : Fin 1) := by
      funext e; refine Fin.ext ?_
      match e with
      | ⟨0, _⟩ => rfl
      | ⟨1, _⟩ => rfl
      | ⟨2, _⟩ => rfl
    rw [hsi]
    rfl
  | ⟨1, h1⟩ =>
    show (stackGather N A B C wf).start (ix3 a b q) idx ⟨1, h1⟩ + (stackGather N A B C wf).batchCoord (ix3 a b q) ⟨1, h1⟩
      + (stackGather N A B C wf).offCoord (ix3 a b q) ⟨1, h1⟩ = q.val
    rw [GatherDims.batchCoord_eq_zero _ _ _ List.not_mem_nil]
    have hs : (stackGather N A B C wf).start (ix3 a b q) idx ⟨1, h1⟩ = 0 := by
      unfold GatherDims.start
      rw [dif_neg (fun h => Nat.one_ne_zero (congrArg Fin.val (List.mem_singleton.mp h)))]
    rw [hs]
    simp only [Nat.add_zero, Nat.zero_add]
    rfl

end StackGather

end Cert.Lib.GatherStack
-- ==== Proof.RefTables.lean ====
/-
  THE REFERENCE PROGRAM'S LOOKED-UP ARRAYS, READ AT AN ENTRY.

  The reference program first looks its index words up: the item's sixteen neighbours and the relations to them (rows
  of the two adjacency tables at the item's word), then each neighbour's own sixteen neighbours and relations (rows at
  the neighbours' words, the sixteen by sixteen of them laid out along one axis of 256 as `k · 16 + l`). Then it looks
  six arrays of embedding rows up: the user's, the item's, the neighbours' at depth one and two, and the relations' at
  depth one and two. Each index word goes through the wrap of a negative index before it is used, and each gather reads
  the word signed and clamps it into the table: so every entry of these arrays is the table's entry at the row
  `Cert.Spec.entRow` / `Cert.Spec.relRow` of the word, which is what the common function's `userVec`, `itemVec`,
  `nbr1Vec`, `nbr2Vec`, `rel1Vec`, `rel2Vec` say.
-/
import proofs.«158850_j22935125360845_2_alg».proof.Proof.Gen.ReferenceIdeal.Read
import proofs.«158850_j22935125360845_2_alg».proof.Proof.Spec
import proofs.«158850_j22935125360845_2_alg».proof.Proof.LibEdgeRows
import proofs.«158850_j22935125360845_2_alg».proof.Proof.LibGatherStack

noncomputable section

namespace Cert.RefTables

open Cert.ReferenceIdeal Cert.ReferenceIdeal.Read Idealize.ShloMosaic Idealize.ShloMosaic.ValueIdx
open Cert.Lib.EdgeRows Cert.Lib.GatherStack

/-- Two rows of a table named by equal numbers are the same row. -/
theorem row_eq {α : Type} {N C : Nat} (x : (⟨2, ![N, C]⟩ : Shape).Idx → α) {m n : Nat} (hm : m < N) (hn : n < N)
    (q : Fin C) (h : m = n) : x (ix2 ⟨m, hm⟩ q) = x (ix2 ⟨n, hn⟩ q) := by
  subst h; rfl

/-! ## The item's word, and its neighbours and relations at depth one -/

/-- The item's words, broadcast to a column and reshaped back, are the item's words. -/
theorem v1_at (x1) (b : Fin 4096) : val_main_v1 (F := Ideal) x1 (ix1 b) = x1 (ix1 b) := by
  rw [val_main_v1_apply, val_main_v0_apply]
  congr 1
  funext a
  refine Fin.ext ?_
  match a with
  | ⟨0, _⟩ => exact Nat.div_one _

/-- The column of index words the first gather reads: the item's word, wrapped. -/
theorem v7_at (x1) (b : Fin 4096) (z : Fin 1) :
    val_main_v7 (F := Ideal) x1 (ix2 b z) = Cert.Spec.wrapWord 100000#32 (x1 (ix1 b)) := by
  have hi : idx_main_v7 (ix2 b z) = ix1 b := by
    funext a; refine Fin.ext ?_
    match a with
    | ⟨0, _⟩ => rfl
  rw [val_main_v7_apply, hi, val_main_v6_apply, val_main_v3_apply, val_main_v5_apply, val_main_v2_apply,
    val_main_v4_apply, val_main_c_apply, val_main_c_0_apply, v1_at]
  rfl

/-- The item's `k`-th neighbour. -/
theorem nbr1_word (x1 x2) (b : Fin 4096) (k : Fin 16) :
    val_main_v8 (F := Ideal) x1 x2 (ix2 b k) = Cert.Spec.nbr1 x1 x2 b k := by
  unfold val_main_v8
  refine (rowGather_apply (N := 100000) (E := 4096) (C := 16) (by omega) _ x2 (val_main_v7 (F := Ideal) x1) b k).trans ?_
  exact row_eq x2 _ _ k (by rw [v7_at])

/-- The column of index words the second gather reads: the item's word, wrapped. -/
theorem v14_at (x1) (b : Fin 4096) (z : Fin 1) :
    val_main_v14 (F := Ideal) x1 (ix2 b z) = Cert.Spec.wrapWord 100000#32 (x1 (ix1 b)) := by
  have hi : idx_main_v14 (ix2 b z) = ix1 b := by
    funext a; refine Fin.ext ?_
    match a with
    | ⟨0, _⟩ => rfl
  rw [val_main_v14_apply, hi, val_main_v13_apply, val_main_v10_apply, val_main_v12_apply, val_main_v9_apply,
    val_main_v11_apply, val_main_c_1_apply, val_main_c_2_apply, v1_at]
  rfl

/-- The relation to the item's `k`-th neighbour. -/
theorem rel1_word (x1 x3) (b : Fin 4096) (k : Fin 16) :
    val_main_v15 (F := Ideal) x1 x3 (ix2 b k) = Cert.Spec.rel1 x1 x3 b k := by
  unfold val_main_v15
  refine (rowGather_apply (N := 100000) (E := 4096) (C := 16) (by omega) _ x3 (val_main_v14 (F := Ideal) x1) b k).trans ?_
  exact row_eq x3 _ _ k (by rw [v14_at])

/-! ## The neighbours and relations at depth two -/

/-- The position of the pair `(b, k)` among the 4096 · 16 depth-one neighbours laid out in a row. -/
abbrev pairRow (b : Fin 4096) (k : Fin 16) : Fin 65536 := ⟨b.val * 16 + k.val, by omega⟩

/-- The depth-one neighbours laid out in a row: at `b · 16 + k`, the item's `k`-th neighbour. -/
theorem v16_at (x1 x2) (b : Fin 4096) (k : Fin 16) :
    val_main_v16 (F := Ideal) x1 x2 (ix1 (pairRow b k)) = Cert.Spec.nbr1 x1 x2 b k := by
  have hi : idx_main_v16 (ix1 (pairRow b k)) = ix2 b k := by
    funext a; refine Fin.ext ?_
    match a with
    | ⟨0, _⟩ => show (b.val * 16 + k.val) / 16 = b.val; omega
    | ⟨1, _⟩ => show (b.val * 16 + k.val) % 16 = k.val; omega
  rw [val_main_v16_apply, hi, nbr1_word]

/-- The column of index words the third gather reads: the neighbour's word, wrapped. -/
theorem v22_at (x1 x2) (b : Fin 4096) (k : Fin 16) (z : Fin 1) :
    val_main_v22 (F := Ideal) x1 x2 (ix2 (pairRow b k) z) = Cert.Spec.wrapWord 100000#32 (Cert.Spec.nbr1 x1 x2 b k) := by
  have hi : idx_main_v22 (ix2 (pairRow b k) z) = ix1 (pairRow b k) := by
    funext a; refine Fin.ext ?_
    match a with
    | ⟨0, _⟩ => rfl
  rw [val_main_v22_apply, hi, val_main_v21_apply, val_main_v18_apply, val_main_v20_apply, val_main_v17_apply,
    val_main_v19_apply, val_main_c_3_apply, val_main_c_4_apply, v16_at]
  rfl

/-- The neighbours' neighbours, one row of sixteen per pair `(b, k)`. -/
theorem v23_at (x1 x2) (b : Fin 4096) (k l : Fin 16) :
    val_main_v23 (F := Ideal) x1 x2 (ix2 (pairRow b k) l) = Cert.Spec.nbr2 x1 x2 b k l := by
  unfold val_main_v23
  refine (rowGather_apply (N := 100000) (E := 65536) (C := 16) (by omega) _ x2 (val_main_v22 (F := Ideal) x1 x2)
    (pairRow b k) l).trans ?_
  exact row_eq x2 _ _ l (by rw [v22_at])

/-- The `l`-th neighbour of the item's `k`-th neighbour, at `k · 16 + l` of the axis of 256. -/
theorem nbr2_word (x1 x2) (b : Fin 4096) (k l : Fin 16) :
    val_main_v24 (F := Ideal) x1 x2 (ix2 b (⟨k.val * 16 + l.val, by omega⟩ : Fin 256)) = Cert.Spec.nbr2 x1 x2 b k l := by
  have hi : idx_main_v24 (ix2 b (⟨k.val * 16 + l.val, by omega⟩ : Fin 256)) = ix2 (pairRow b k) l := by
    funext a; refine Fin.ext ?_
    match a with
    | ⟨0, _⟩ => show (b.val * 256 + (k.val * 16 + l.val)) / 16 = b.val * 16 + k.val; omega
    | ⟨1, _⟩ => show (b.val * 256 + (k.val * 16 + l.val)) % 16 = l.val; omega
  rw [val_main_v24_apply, hi, v23_at]

/-- The column of index words the fourth gather reads: the neighbour's word, wrapped. -/
theorem v30_at (x1 x2) (b : Fin 4096) (k : Fin 16) (z : Fin 1) :
    val_main_v30 (F := Ideal) x1 x2 (ix2 (pairRow b k) z) = Cert.Spec.wrapWord 100000#32 (Cert.Spec.nbr1 x1 x2 b k) := by
  have hi : idx_main_v30 (ix2 (pairRow b k) z) = ix1 (pairRow b k) := by
    funext a; refine Fin.ext ?_
    match a with
    | ⟨0, _⟩ => rfl
  rw [val_main_v30_apply, hi, val_main_v29_apply, val_main_v26_apply, val_main_v28_apply, val_main_v25_apply,
    val_main_v27_apply, val_main_c_5_apply, val_main_c_6_apply, v16_at]
  rfl

/-- The relations to the neighbours' neighbours, one row of sixteen per pair `(b, k)`. -/
theorem v31_at (x1 x2 x3) (b : Fin 4096) (k l : Fin 16) :
    val_main_v31 (F := Ideal) x1 x2 x3 (ix2 (pairRow b k) l) = Cert.Spec.rel2 x1 x2 x3 b k l := by
  unfold val_main_v31
  refine (rowGather_apply (N := 100000) (E := 65536) (C := 16) (by omega) _ x3 (val_main_v30 (F := Ideal) x1 x2)
    (pairRow b k) l).trans ?_
  exact row_eq x3 _ _ l (by rw [v30_at])

/-- The relation to the `l`-th neighbour of the item's `k`-th neighbour, at `k · 16 + l` of the axis of 256. -/
theorem rel2_word (x1 x2 x3) (b : Fin 4096) (k l : Fin 16) :
    val_main_v32 (F := Ideal) x1 x2 x3 (ix2 b (⟨k.val * 16 + l.val, by omega⟩ : Fin 256))
      = Cert.Spec.rel2 x1 x2 x3 b k l := by
  have hi : idx_main_v32 (ix2 b (⟨k.val * 16 + l.val, by omega⟩ : Fin 256)) = ix2 (pairRow b k) l := by
    funext a; refine Fin.ext ?_
    match a with
    | ⟨0, _⟩ => show (b.val * 256 + (k.val * 16 + l.val)) / 16 = b.val * 16 + k.val; omega
    | ⟨1, _⟩ => show (b.val * 256 + (k.val * 16 + l.val)) % 16 = l.val; omega
  rw [val_main_v32_apply, hi, v31_at]

/-! ## The six arrays of embedding rows -/

/-- The column of index words the user gather reads: the user's word, wrapped. -/
theorem v38_at (x0) (b : Fin 4096) (z : Fin 1) :
    val_main_v38 (F := Ideal) x0 (ix2 b z) = Cert.Spec.wrapWord 100000#32 (x0 (ix1 b)) := by
  have hi : idx_main_v38 (ix2 b z) = ix1 b := by
    funext a; refine Fin.ext ?_
    match a with
    | ⟨0, _⟩ => rfl
  rw [val_main_v38_apply, hi, val_main_v37_apply, val_main_v34_apply, val_main_v36_apply, val_main_v33_apply,
    val_main_v35_apply, val_main_c_7_apply, val_main_c_8_apply]
  rfl

/-- The user's embedding. -/
theorem user_at (x0 x4) (b : Fin 4096) (d : Fin 64) :
    val_main_v39 (F := Ideal) x0 x4 (ix2 b d) = Cert.Spec.userVec x0 x4 b d := by
  unfold val_main_v39
  refine (rowGather_apply (N := 100000) (E := 4096) (C := 64) (by omega) _ x4 (val_main_v38 (F := Ideal) x0) b d).trans ?_
  exact row_eq x4 _ _ d (by rw [v38_at])

/-- The stack of index words the item gather reads: the item's word, wrapped. -/
theorem v45_at (x1) (b : Fin 4096) (z z' : Fin 1) :
    val_main_v45 (F := Ideal) x1 (ix3 b z z') = Cert.Spec.wrapWord 100000#32 (x1 (ix1 b)) := by
  have hi : idx_main_v45 (ix3 b z z') = ix2 b (0 : Fin 1) := by
    funext a; refine Fin.ext ?_
    match a with
    | ⟨0, _⟩ => rfl
    | ⟨1, _⟩ => rfl
  have h0 : idx_main_v0 (ix2 b (0 : Fin 1)) = ix1 b := by
    funext a; refine Fin.ext ?_
    match a with
    | ⟨0, _⟩ => rfl
  rw [val_main_v45_apply, hi, val_main_v44_apply, val_main_v41_apply, val_main_v43_apply, val_main_v40_apply,
    val_main_v42_apply, val_main_c_9_apply, val_main_c_10_apply, val_main_v0_apply, h0]
  rfl

/-- The item's embedding. -/
theorem item_at (x1 x5) (b : Fin 4096) (d : Fin 64) :
    val_main_v46 (F := Ideal) x1 x5 (ix3 b 0 d) = Cert.Spec.itemVec x1 x5 b d := by
  unfold val_main_v46
  refine (stackGather_apply (N := 100000) (A := 4096) (B := 1) (C := 64) (by omega) _ x5 (val_main_v45 (F := Ideal) x1)
    b 0 d).trans ?_
  exact row_eq x5 _ _ d (by rw [v45_at])

/-- The stack of index words the depth-one neighbour gather reads: the neighbour's word, wrapped. -/
theorem v52_at (x1 x2) (b : Fin 4096) (k : Fin 16) (z : Fin 1) :
    val_main_v52 (F := Ideal) x1 x2 (ix3 b k z) = Cert.Spec.wrapWord 100000#32 (Cert.Spec.nbr1 x1 x2 b k) := by
  have hi : idx_main_v52 (ix3 b k z) = ix2 b k := by
    funext a; refine Fin.ext ?_
    match a with
    | ⟨0, _⟩ => rfl
    | ⟨1, _⟩ => rfl
  rw [val_main_v52_apply, hi, val_main_v51_apply, val_main_v48_apply, val_main_v50_apply, val_main_v47_apply,
    val_main_v49_apply, val_main_c_11_apply, val_main_c_12_apply, nbr1_word]
  rfl

/-- The embedding of the item's `k`-th neighbour. -/
theorem nbr1_at (x1 x2 x5) (b : Fin 4096) (k : Fin 16) (d : Fin 64) :
    val_main_v53 (F := Ideal) x1 x2 x5 (ix3 b k d) = Cert.Spec.nbr1Vec x1 x2 x5 b k d := by
  unfold val_main_v53
  refine (stackGather_apply (N := 100000) (A := 4096) (B := 16) (C := 64) (by omega) _ x5
    (val_main_v52 (F := Ideal) x1 x2) b k d).trans ?_
  exact row_eq x5 _ _ d (by rw [v52_at])

/-- The stack of index words the depth-two neighbour gather reads: the neighbour's word, wrapped. -/
theorem v59_at (x1 x2) (b : Fin 4096) (k l : Fin 16) (z : Fin 1) :
    val_main_v59 (F := Ideal) x1 x2 (ix3 b (⟨k.val * 16 + l.val, by omega⟩ : Fin 256) z)
      = Cert.Spec.wrapWord 100000#32 (Cert.Spec.nbr2 x1 x2 b k l) := by
  have hi : idx_main_v59 (ix3 b (⟨k.val * 16 + l.val, by omega⟩ : Fin 256) z)
      = ix2 b (⟨k.val * 16 + l.val, by omega⟩ : Fin 256) := by
    funext a; refine Fin.ext ?_
    match a with
    | ⟨0, _⟩ => rfl
    | ⟨1, _⟩ => rfl
  rw [val_main_v59_apply, hi, val_main_v58_apply, val_main_v55_apply, val_main_v57_apply, val_main_v54_apply,
    val_main_v56_apply, val_main_c_13_apply, val_main_c_14_apply, nbr2_word]
  rfl

/-- The embedding of a depth-two neighbour. -/
theorem nbr2_at (x1 x2 x5) (b : Fin 4096) (k l : Fin 16) (d : Fin 64) :
    val_main_v60 (F := Ideal) x1 x2 x5 (ix3 b (⟨k.val * 16 + l.val, by omega⟩ : Fin 256) d)
      = Cert.Spec.nbr2Vec x1 x2 x5 b k l d := by
  unfold val_main_v60
  refine (stackGather_apply (N := 100000) (A := 4096) (B := 256) (C := 64) (by omega) _ x5
    (val_main_v59 (F := Ideal) x1 x2) b (⟨k.val * 16 + l.val, by omega⟩ : Fin 256) d).trans ?_
  exact row_eq x5 _ _ d (by rw [v59_at])

/-- The stack of index words the depth-one relation gather reads: the relation's word, wrapped. -/
theorem v66_at (x1 x3) (b : Fin 4096) (k : Fin 16) (z : Fin 1) :
    val_main_v66 (F := Ideal) x1 x3 (ix3 b k z) = Cert.Spec.wrapWord 33#32 (Cert.Spec.rel1 x1 x3 b k) := by
  have hi : idx_main_v66 (ix3 b k z) = ix2 b k := by
    funext a; refine Fin.ext ?_
    match a with
    | ⟨0, _⟩ => rfl
    | ⟨1, _⟩ => rfl
  rw [val_main_v66_apply, hi, val_main_v65_apply, val_main_v62_apply, val_main_v64_apply, val_main_v61_apply,
    val_main_v63_apply, val_main_c_15_apply, val_main_c_16_apply, rel1_word]
  rfl

/-- The embedding of the relation to the item's `k`-th neighbour. -/
theorem rel1_at (x1 x3 x6) (b : Fin 4096) (k : Fin 16) (d : Fin 64) :
    val_main_v67 (F := Ideal) x1 x3 x6 (ix3 b k d) = Cert.Spec.rel1Vec x1 x3 x6 b k d := by
  unfold val_main_v67
  refine (stackGather_apply (N := 33) (A := 4096) (B := 16) (C := 64) (by omega) _ x6
    (val_main_v66 (F := Ideal) x1 x3) b k d).trans ?_
  exact row_eq x6 _ _ d (by rw [v66_at])

/-- The stack of index words the depth-two relation gather reads: the relation's word, wrapped. -/
theorem v73_at (x1 x2 x3) (b : Fin 4096) (k l : Fin 16) (z : Fin 1) :
    val_main_v73 (F := Ideal) x1 x2 x3 (ix3 b (⟨k.val * 16 + l.val, by omega⟩ : Fin 256) z)
      = Cert.Spec.wrapWord 33#32 (Cert.Spec.rel2 x1 x2 x3 b k l) := by
  have hi : idx_main_v73 (ix3 b (⟨k.val * 16 + l.val, by omega⟩ : Fin 256) z)
      = ix2 b (⟨k.val * 16 + l.val, by omega⟩ : Fin 256) := by
    funext a; refine Fin.ext ?_
    match a with
    | ⟨0, _⟩ => rfl
    | ⟨1, _⟩ => rfl
  rw [val_main_v73_apply, hi, val_main_v72_apply, val_main_v69_apply, val_main_v71_apply, val_main_v68_apply,
    val_main_v70_apply, val_main_c_17_apply, val_main_c_18_apply, rel2_word]
  rfl

/-- The embedding of the relation to a depth-two neighbour. -/
theorem rel2_at (x1 x2 x3 x6) (b : Fin 4096) (k l : Fin 16) (d : Fin 64) :
    val_main_v74 (F := Ideal) x1 x2 x3 x6 (ix3 b (⟨k.val * 16 + l.val, by omega⟩ : Fin 256) d)
      = Cert.Spec.rel2Vec x1 x2 x3 x6 b k l d := by
  unfold val_main_v74
  refine (stackGather_apply (N := 33) (A := 4096) (B := 256) (C := 64) (by omega) _ x6
    (val_main_v73 (F := Ideal) x1 x2 x3) b (⟨k.val * 16 + l.val, by omega⟩ : Fin 256) d).trans ?_
  exact row_eq x6 _ _ d (by rw [v73_at])

end Cert.RefTables

end
-- ==== Proof.RefLayerItem.lean ====
/-
  THE REFERENCE PROGRAM'S FIRST AGGREGATION LAYER AT DEPTH ZERO, read at one batch entry.

  Given the looked-up arrays at an index (the user's vector `U`, the item's vector `I0`, its sixteen neighbours'
  vectors `N1` and the relations to them `R1`), each stage of the reference's layer is the common function's stage:
  the logit is the mean over the 64 features of user times relation (a host sum from the zero word, divided by the
  word of 64); the row's largest logit is a running maximum from the word of minus infinity, and the program's further
  maximum against that same word changes nothing, because a running maximum is at least its starting value; the
  shifted exponentials, their sum and the quotient are the softmax weights; the weighted sum of the neighbours' vectors
  divided by the word of 16 is added to the item's vector; the contraction with the weight array on its second axis
  plus the bias, cut off below at the zero word, is the layer's output.
  The generated module reads every operation at an index from its operands; here the composed index functions are
  identified with coordinates (a reshape of [4096,16,64] to [4096,1,16,64] keeps row `k` and feature `d`), and the
  stages are chained.
-/
import proofs.«158850_j22935125360845_2_alg».proof.Proof.Gen.ReferenceIdeal.Read
import proofs.«158850_j22935125360845_2_alg».proof.Proof.Spec

noncomputable section

open scoped BigOperators

namespace Cert.RefLayers

open Cert.ReferenceIdeal Cert.ReferenceIdeal.Read Idealize.ShloMosaic Idealize.ShloMosaic.ValueIdx

variable {x0 x1 : (⟨S4096, .i32⟩ : BufTy).Contents (Elt Ideal)} {x2 x3 : (⟨S100000x16, .i32⟩ : BufTy).Contents (Elt Ideal)}
  {x4 x5 : (⟨S100000x64, .f32⟩ : BufTy).Contents (Elt Ideal)} {x6 : (⟨S33x64, .f32⟩ : BufTy).Contents (Elt Ideal)}
  {x7 : (⟨S64x64, .f32⟩ : BufTy).Contents (Elt Ideal)} {x8 : (⟨S64, .f32⟩ : BufTy).Contents (Elt Ideal)}
  {x9 : (⟨S64x64, .f32⟩ : BufTy).Contents (Elt Ideal)} {x10 : (⟨S64, .f32⟩ : BufTy).Contents (Elt Ideal)}

/-- From a starting value the larger of it and a running maximum begun at it is the running maximum. -/
private theorem max_fold_self {ι : Type} (s : Finset ι) (c : EReal) (f : ι → EReal) :
    FloatOps.maximumf (F := Ideal) (φ := .f32) c (Finset.fold (FloatOps.maximumf (F := Ideal) (φ := .f32)) c f s)
      = Finset.fold max c f s := by
  show max c (Finset.fold max c f s) = _
  exact max_eq_right ((Finset.le_fold_max c).2 (Or.inl le_rfl))

/-! ## The first layer at depth zero: the item with its sixteen neighbours -/

theorem idxU_item (b : Fin 4096) (k : Fin 16) (d : Fin 64) :
    idx_main_v75 (idx_main_v78 (idx_main_v80 (ix3 b (0 : Fin 1) k) d)) = ix2 b d := by
  funext a; apply Fin.ext; match a with | ⟨0, _⟩ => rfl | ⟨1, _⟩ => rfl

theorem idxR_item (b : Fin 4096) (k : Fin 16) (d : Fin 64) :
    idx_main_v77 (idx_main_v80 (ix3 b (0 : Fin 1) k) d) = ix3 b k d := by
  funext a; apply Fin.ext
  have hb := b.isLt; have hk := k.isLt; have hd := d.isLt
  match a with
  | ⟨0, _⟩ => show (((b.val * 1 + 0) * 16 + k.val) * 64 + d.val) / 1024 = b.val; omega
  | ⟨1, _⟩ => show (((b.val * 1 + 0) * 16 + k.val) * 64 + d.val) / 64 % 16 = k.val; omega
  | ⟨2, _⟩ => show (((b.val * 1 + 0) * 16 + k.val) * 64 + d.val) % 64 = d.val; omega

/-- The attention logit of one neighbour: the mean over the features of user times relation. -/
theorem item_logit {U : Fin 4096 → Fin 64 → EReal} {R1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (b : Fin 4096) (k : Fin 16) :
    val_main_v82 (F := Ideal) x0 x1 x3 x4 x6 (ix3 b 0 k) = Cert.Spec.logit (U b) (R1 b) k := by
  rw [val_main_v82_apply, val_main_v81_apply, val_main_cst_19_apply, val_main_v80_apply, val_main_cst_apply]
  simp only [Ideal.hostDivf_def, Ideal.ofBits_def, Ideal.ofBits_zero_f32, zero_add]
  unfold Cert.Spec.logit
  refine congrArg (fun s => Ideal.div s _) (Finset.sum_congr rfl fun d _ => ?_)
  rw [val_main_v79_apply, val_main_v78_apply, val_main_v75_apply, val_main_v77_apply, Ideal.mulf_def, idxU_item, idxR_item, hU, hR]

/-- A reduced index with the last coordinate put back. -/
theorem lift_item (h : S4096x1x16.Reduces [2] S4096x1) (b : Fin 4096) (k : Fin (S4096x1x16.size 2)) :
    h.lift (ix2 b (0 : Fin 1)) k = ix3 b 0 (⟨k.val, k.isLt⟩ : Fin 16) := by
  funext c; apply Fin.ext
  fin_cases c <;> rfl

/-- The running maximum over the put-back coordinates is the one over the row's sixteen entries. -/
theorem fold_lift_item (h : S4096x1x16.Reduces [2] S4096x1) (c : EReal) (g : S4096x1x16.Idx → EReal) (b : Fin 4096) :
    Finset.fold max c (g ∘ h.lift (ix2 b (0 : Fin 1))) (Finset.univ : Finset (Fin (S4096x1x16.size 2)))
      = Finset.fold max c (fun k : Fin 16 => g (ix3 b 0 k)) Finset.univ := by
  have hf : (g ∘ h.lift (ix2 b (0 : Fin 1))) = fun k : Fin 16 => g (ix3 b 0 k) := funext fun k => congrArg g (lift_item h b k)
  exact congrArg (fun f => Finset.fold max c f (Finset.univ : Finset (Fin 16))) hf

/-- The row's largest logit: the program's maximum against the starting word changes nothing, since a running maximum
    is at least the value it starts from. -/
theorem item_peak {U : Fin 4096 → Fin 64 → EReal} {R1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (b : Fin 4096) :
    val_main_v85 (F := Ideal) x0 x1 x3 x4 x6 (ix2 b 0) = Cert.Spec.peak (U b) (R1 b) := by
  rw [val_main_v85_apply, val_main_v84_apply, val_main_cst_21_apply]
  unfold val_main_v83
  rw [Host.reduce_eq_fold_single FloatOps.maximumf _ _ _ (by decide) _]
  rw [val_main_cst_20_apply]
  refine (max_fold_self _ _ _).trans ?_
  refine (fold_lift_item _ _ _ b).trans ?_
  unfold Cert.Spec.peak
  simp only [Ideal.ofBits_def]
  exact Finset.fold_congr fun k _ => item_logit hU hR b k

theorem idxPeak_item (b : Fin 4096) (k : Fin 16) :
    idx_main_v86 (idx_main_v87 (ix3 b (0 : Fin 1) k)) = ix2 b 0 := by
  funext a; apply Fin.ext; match a with | ⟨0, _⟩ => rfl | ⟨1, _⟩ => rfl

/-- The exponential of a logit shifted by the row's largest. -/
theorem item_lifted {U : Fin 4096 → Fin 64 → EReal} {R1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (b : Fin 4096) (k : Fin 16) :
    val_main_v89 (F := Ideal) x0 x1 x3 x4 x6 (ix3 b 0 k) = Cert.Spec.lifted (U b) (R1 b) k := by
  rw [val_main_v89_apply, val_main_v88_apply, val_main_v87_apply, val_main_v86_apply, idxPeak_item, item_peak hU hR, item_logit hU hR]
  rfl

theorem idxRow_item (b : Fin 4096) (l : Fin 16) : idx_main_v90 (ix2 b (0 : Fin 1)) l = ix3 b 0 l := by
  funext a; apply Fin.ext; match a with | ⟨0, _⟩ => rfl | ⟨1, _⟩ => rfl | ⟨2, _⟩ => rfl

/-- The softmax denominator: the host sum starts from the zero word. -/
theorem item_total {U : Fin 4096 → Fin 64 → EReal} {R1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (b : Fin 4096) :
    val_main_v90 (F := Ideal) x0 x1 x3 x4 x6 (ix2 b 0) = ∑ l : Fin 16, Cert.Spec.lifted (U b) (R1 b) l := by
  rw [val_main_v90_apply, val_main_cst_22_apply]
  simp only [Ideal.ofBits_def, Ideal.ofBits_zero_f32, zero_add]
  refine Finset.sum_congr rfl fun l _ => ?_
  rw [idxRow_item, item_lifted hU hR]

theorem idxTotal_item (b : Fin 4096) (k : Fin 16) :
    idx_main_v91 (idx_main_v92 (ix3 b (0 : Fin 1) k)) = ix2 b 0 := by
  funext a; apply Fin.ext; match a with | ⟨0, _⟩ => rfl | ⟨1, _⟩ => rfl

/-- The softmax weight of one neighbour. -/
theorem item_weight {U : Fin 4096 → Fin 64 → EReal} {R1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (b : Fin 4096) (k : Fin 16) :
    val_main_v93 (F := Ideal) x0 x1 x3 x4 x6 (ix3 b 0 k) = Cert.Spec.weight (U b) (R1 b) k := by
  rw [val_main_v93_apply, val_main_v92_apply, val_main_v91_apply, idxTotal_item, item_total hU hR, item_lifted hU hR]
  rfl

theorem idxW_item (b : Fin 4096) (d : Fin 64) (k : Fin 16) :
    idx_main_v94 (idx_main_v95 (idx_main_v97 (ix3 b (0 : Fin 1) d) k)) = ix3 b 0 k := by
  funext a; apply Fin.ext; match a with | ⟨0, _⟩ => rfl | ⟨1, _⟩ => rfl | ⟨2, _⟩ => rfl

theorem idxN_item (b : Fin 4096) (d : Fin 64) (k : Fin 16) :
    idx_main_v76 (idx_main_v97 (ix3 b (0 : Fin 1) d) k) = ix3 b k d := by
  funext a; apply Fin.ext
  have hb := b.isLt; have hk := k.isLt; have hd := d.isLt
  match a with
  | ⟨0, _⟩ => show (((b.val * 1 + 0) * 16 + k.val) * 64 + d.val) / 1024 = b.val; omega
  | ⟨1, _⟩ => show (((b.val * 1 + 0) * 16 + k.val) * 64 + d.val) / 64 % 16 = k.val; omega
  | ⟨2, _⟩ => show (((b.val * 1 + 0) * 16 + k.val) * 64 + d.val) % 64 = d.val; omega

/-- The entity's vector plus the weighted mean of its neighbours' vectors. -/
theorem item_mixed {U : Fin 4096 → Fin 64 → EReal} {R1 : Fin 4096 → Fin 16 → Fin 64 → EReal} {I0 : Fin 4096 → Fin 64 → EReal} {N1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (hS : ∀ b d, val_main_v46 (F := Ideal) x1 x5 (ix3 b 0 d) = I0 b d)
    (hN : ∀ b k d, val_main_v53 (F := Ideal) x1 x2 x5 (ix3 b k d) = N1 b k d)
    (b : Fin 4096) (d : Fin 64) :
    val_main_v100 (F := Ideal) x0 x1 x2 x3 x4 x5 x6 (ix3 b 0 d) = Cert.Spec.mixed (I0 b) (N1 b) (R1 b) (U b) d := by
  rw [val_main_v100_apply, val_main_v99_apply, val_main_v98_apply, val_main_cst_24_apply, val_main_v97_apply, val_main_cst_23_apply, hS]
  simp only [Ideal.addf_def, Ideal.hostDivf_def, Ideal.ofBits_def, Ideal.ofBits_zero_f32, zero_add]
  unfold Cert.Spec.mixed
  refine congrArg (fun s => (I0 b) d + Ideal.div s _) (Finset.sum_congr rfl fun k _ => ?_)
  rw [val_main_v96_apply, val_main_v95_apply, val_main_v94_apply, val_main_v76_apply, Ideal.mulf_def, idxW_item, idxN_item, item_weight hU hR, hN]

theorem idxL_item (b : Fin 4096) (e d : Fin 64) : lidx_main_v101 (ix3 b (0 : Fin 1) e) d = ix3 b 0 d := by
  funext a; apply Fin.ext; match a with | ⟨0, _⟩ => rfl | ⟨1, _⟩ => rfl | ⟨2, _⟩ => rfl

theorem idxWt_item (b : Fin 4096) (e d : Fin 64) : ridx_main_v101 (ix3 b (0 : Fin 1) e) d = ix2 e d := by
  funext a; apply Fin.ext; match a with | ⟨0, _⟩ => rfl | ⟨1, _⟩ => rfl

theorem idxBias_item (b : Fin 4096) (e : Fin 64) : idx_main_v102 (idx_main_v103 (ix3 b (0 : Fin 1) e)) = ix1 e := by
  funext a; apply Fin.ext; match a with | ⟨0, _⟩ => rfl

/-- The first layer at depth zero, read at one batch entry and one output feature. -/
theorem item_hidden {U : Fin 4096 → Fin 64 → EReal} {R1 : Fin 4096 → Fin 16 → Fin 64 → EReal} {I0 : Fin 4096 → Fin 64 → EReal} {N1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (hS : ∀ b d, val_main_v46 (F := Ideal) x1 x5 (ix3 b 0 d) = I0 b d)
    (hN : ∀ b k d, val_main_v53 (F := Ideal) x1 x2 x5 (ix3 b k d) = N1 b k d)
    (b : Fin 4096) (e : Fin 64) :
    val_main_v105 (F := Ideal) x0 x1 x2 x3 x4 x5 x6 x7 x8 (ix3 b 0 e)
      = Cert.Spec.hidden (I0 b) (N1 b) (R1 b) (U b) (fun d e' => x7 (ix2 e' d)) (fun e' => x8 (ix1 e')) e := by
  rw [val_main_v105_apply, val_main_call0_v0_apply, val_main_call0_cst_apply, val_main_v104_apply, val_main_v103_apply, val_main_v102_apply, val_main_v101_apply, idxBias_item]
  simp only [Ideal.maximumf_def, Ideal.addf_def, Ideal.ofBits_def]
  unfold Cert.Spec.hidden Cert.Spec.dense
  refine congrArg (fun s => max (s + x8 (ix1 e)) _) (Finset.sum_congr rfl fun d _ => ?_)
  rw [idxL_item, idxWt_item, item_mixed hU hR hS hN]

end Cert.RefLayers

end
-- ==== Proof.RefLayerNbr.lean ====
/-
  THE REFERENCE PROGRAM'S FIRST AGGREGATION LAYER AT DEPTH ONE, read at one batch entry and one neighbour.

  The same layer as at depth zero, over [4096,16,16,64] arrays: the entity is the item's neighbour `m` (vector
  `N1 b m`), its own sixteen neighbours have vectors `N2 b m` and relations `R2 b m`. The two arrays of 256 rows per
  batch entry are reshaped to sixteen by sixteen, so that row `m · 16 + k` becomes entry `(m, k)`. Each stage is the
  common function's stage; the maximum against the word of minus infinity after the running maximum from that same word
  changes nothing, because a running maximum is at least its starting value.
-/
import proofs.«158850_j22935125360845_2_alg».proof.Proof.Gen.ReferenceIdeal.Read
import proofs.«158850_j22935125360845_2_alg».proof.Proof.Spec

noncomputable section

open scoped BigOperators

namespace Cert.RefLayers

open Cert.ReferenceIdeal Cert.ReferenceIdeal.Read Idealize.ShloMosaic Idealize.ShloMosaic.ValueIdx

variable {x0 x1 : (⟨S4096, .i32⟩ : BufTy).Contents (Elt Ideal)} {x2 x3 : (⟨S100000x16, .i32⟩ : BufTy).Contents (Elt Ideal)}
  {x4 x5 : (⟨S100000x64, .f32⟩ : BufTy).Contents (Elt Ideal)} {x6 : (⟨S33x64, .f32⟩ : BufTy).Contents (Elt Ideal)}
  {x7 : (⟨S64x64, .f32⟩ : BufTy).Contents (Elt Ideal)} {x8 : (⟨S64, .f32⟩ : BufTy).Contents (Elt Ideal)}
  {x9 : (⟨S64x64, .f32⟩ : BufTy).Contents (Elt Ideal)} {x10 : (⟨S64, .f32⟩ : BufTy).Contents (Elt Ideal)}

/-- From a starting value the larger of it and a running maximum begun at it is the running maximum. -/
private theorem max_fold_self {ι : Type} (s : Finset ι) (c : EReal) (f : ι → EReal) :
    FloatOps.maximumf (F := Ideal) (φ := .f32) c (Finset.fold (FloatOps.maximumf (F := Ideal) (φ := .f32)) c f s)
      = Finset.fold max c f s := by
  show max c (Finset.fold max c f s) = _
  exact max_eq_right ((Finset.le_fold_max c).2 (Or.inl le_rfl))

/-! ## The first layer at depth one: each neighbour with its own sixteen neighbours -/

theorem idxU_nbr (b : Fin 4096) (m : Fin 16) (k : Fin 16) (d : Fin 64) :
    idx_main_v75 (idx_main_v108 (idx_main_v110 (ix3 b m k) d)) = ix2 b d := by
  funext a; apply Fin.ext; match a with | ⟨0, _⟩ => rfl | ⟨1, _⟩ => rfl

theorem idxR_nbr (b : Fin 4096) (m : Fin 16) (k : Fin 16) (d : Fin 64) :
    idx_main_v107 (idx_main_v110 (ix3 b m k) d) = ix3 b (⟨m.val * 16 + k.val, by omega⟩ : Fin 256) d := by
  funext a; apply Fin.ext
  have hb := b.isLt; have hk := k.isLt; have hd := d.isLt
  have hm := m.isLt
  match a with
  | ⟨0, _⟩ => show (((b.val * 16 + m.val) * 16 + k.val) * 64 + d.val) / 16384 = b.val; omega
  | ⟨1, _⟩ => show (((b.val * 16 + m.val) * 16 + k.val) * 64 + d.val) / 64 % 256 = m.val * 16 + k.val; omega
  | ⟨2, _⟩ => show (((b.val * 16 + m.val) * 16 + k.val) * 64 + d.val) % 64 = d.val; omega

/-- The attention logit of one neighbour: the mean over the features of user times relation. -/
theorem nbr_logit {U : Fin 4096 → Fin 64 → EReal} {R2 : Fin 4096 → Fin 16 → Fin 16 → Fin 64 → EReal}
    (hU : ∀ b d, val_main_v39 (F := Ideal) x0 x4 (ix2 b d) = U b d)
    (hR : ∀ b (k l : Fin 16) d, val_main_v74 (F := Ideal) x1 x2 x3 x6 (ix3 b (⟨k.val * 16 + l.val, by omega⟩ : Fin 256) d) = R2 b k l d)
    (b : Fin 4096) (m : Fin 16) (k : Fin 16) :
    val_main_v112 (F := Ideal) x0 x1 x2 x3 x4 x6 (ix3 b m k) = Cert.Spec.logit (U b) (R2 b m) k := by
  rw [val_main_v112_apply, val_main_v111_apply, val_main_cst_26_apply, val_main_v110_apply, val_main_cst_25_apply]
  simp only [Ideal.hostDivf_def, Ideal.ofBits_def, Ideal.ofBits_zero_f32, zero_add]
  unfold Cert.Spec.logit
  refine congrArg (fun s => Ideal.div s _) (Finset.sum_congr rfl fun d _ => ?_)
  rw [val_main_v109_apply, val_main_v108_apply, val_main_v75_apply, val_main_v107_apply, Ideal.mulf_def, idxU_nbr, idxR_nbr, hU, hR]

/-- A reduced index with the last coordinate put back. -/
theorem lift_nbr (h : S4096x16x16.Reduces [2] S4096x16) (b : Fin 4096) (m : Fin 16) (k : Fin (S4096x16x16.size 2)) :
    h.lift (ix2 b m) k = ix3 b m (⟨k.val, k.isLt⟩ : Fin 16) := by
  funext c; apply Fin.ext
  fin_cases c <;> rfl

/-- The running maximum over the put-back coordinates is the one over the row's sixteen entries. -/
theorem fold_lift_nbr (h : S4096x16x16.Reduces [2] S4096x16) (c : EReal) (g : S4096x16x16.Idx → EReal) (b : Fin 4096) (m : Fin 16) :
    Finset.fold max c (g ∘ h.lift (ix2 b m)) (Finset.univ : Finset (Fin (S4096x16x16.size 2)))
      = Finset.fold max c (fun k : Fin 16 => g (ix3 b m k)) Finset.univ := by
  have hf : (g ∘ h.lift (ix2 b m)) = fun k : Fin 16 => g (ix3 b m k) := funext fun k => congrArg g (lift_nbr h b m k)
  exact congrArg (fun f => Finset.fold max c f (Finset.univ : Finset (Fin 16))) hf

/-- The row's largest logit: the program's maximum against the starting word changes nothing, since a running maximum
    is at least the value it starts from. -/
theorem nbr_peak {U : Fin 4096 → Fin 64 → EReal} {R2 : Fin 4096 → Fin 16 → Fin 16 → Fin 64 → EReal}
    (hU : ∀ b d, val_main_v39 (F := Ideal) x0 x4 (ix2 b d) = U b d)
    (hR : ∀ b (k l : Fin 16) d, val_main_v74 (F := Ideal) x1 x2 x3 x6 (ix3 b (⟨k.val * 16 + l.val, by omega⟩ : Fin 256) d) = R2 b k l d)
    (b : Fin 4096) (m : Fin 16) :
    val_main_v115 (F := Ideal) x0 x1 x2 x3 x4 x6 (ix2 b m) = Cert.Spec.peak (U b) (R2 b m) := by
  rw [val_main_v115_apply, val_main_v114_apply, val_main_cst_28_apply]
  unfold val_main_v113
  rw [Host.reduce_eq_fold_single FloatOps.maximumf _ _ _ (by decide) _]
  rw [val_main_cst_27_apply]
  refine (max_fold_self _ _ _).trans ?_
  refine (fold_lift_nbr _ _ _ b m).trans ?_
  unfold Cert.Spec.peak
  simp only [Ideal.ofBits_def]
  exact Finset.fold_congr fun k _ => nbr_logit hU hR b m k

theorem idxPeak_nbr (b : Fin 4096) (m : Fin 16) (k : Fin 16) :
    idx_main_v116 (idx_main_v117 (ix3 b m k)) = ix2 b m := by
  funext a; apply Fin.ext; match a with | ⟨0, _⟩ => rfl | ⟨1, _⟩ => rfl

/-- The exponential of a logit shifted by the row's largest. -/
theorem nbr_lifted {U : Fin 4096 → Fin 64 → EReal} {R2 : Fin 4096 → Fin 16 → Fin 16 → Fin 64 → EReal}
    (hU : ∀ b d, val_main_v39 (F := Ideal) x0 x4 (ix2 b d) = U b d)
    (hR : ∀ b (k l : Fin 16) d, val_main_v74 (F := Ideal) x1 x2 x3 x6 (ix3 b (⟨k.val * 16 + l.val, by omega⟩ : Fin 256) d) = R2 b k l d)
    (b : Fin 4096) (m : Fin 16) (k : Fin 16) :
    val_main_v119 (F := Ideal) x0 x1 x2 x3 x4 x6 (ix3 b m k) = Cert.Spec.lifted (U b) (R2 b m) k := by
  rw [val_main_v119_apply, val_main_v118_apply, val_main_v117_apply, val_main_v116_apply, idxPeak_nbr, nbr_peak hU hR, nbr_logit hU hR]
  rfl

theorem idxRow_nbr (b : Fin 4096) (m : Fin 16) (l : Fin 16) : idx_main_v120 (ix2 b m) l = ix3 b m l := by
  funext a; apply Fin.ext; match a with | ⟨0, _⟩ => rfl | ⟨1, _⟩ => rfl | ⟨2, _⟩ => rfl

/-- The softmax denominator: the host sum starts from the zero word. -/
theorem nbr_total {U : Fin 4096 → Fin 64 → EReal} {R2 : Fin 4096 → Fin 16 → Fin 16 → Fin 64 → EReal}
    (hU : ∀ b d, val_main_v39 (F := Ideal) x0 x4 (ix2 b d) = U b d)
    (hR : ∀ b (k l : Fin 16) d, val_main_v74 (F := Ideal) x1 x2 x3 x6 (ix3 b (⟨k.val * 16 + l.val, by omega⟩ : Fin 256) d) = R2 b k l d)
    (b : Fin 4096) (m : Fin 16) :
    val_main_v120 (F := Ideal) x0 x1 x2 x3 x4 x6 (ix2 b m) = ∑ l : Fin 16, Cert.Spec.lifted (U b) (R2 b m) l := by
  rw [val_main_v120_apply, val_main_cst_29_apply]
  simp only [Ideal.ofBits_def, Ideal.ofBits_zero_f32, zero_add]
  refine Finset.sum_congr rfl fun l _ => ?_
  rw [idxRow_nbr, nbr_lifted hU hR]

theorem idxTotal_nbr (b : Fin 4096) (m : Fin 16) (k : Fin 16) :
    idx_main_v121 (idx_main_v122 (ix3 b m k)) = ix2 b m := by
  funext a; apply Fin.ext; match a with | ⟨0, _⟩ => rfl | ⟨1, _⟩ => rfl

/-- The softmax weight of one neighbour. -/
theorem nbr_weight {U : Fin 4096 → Fin 64 → EReal} {R2 : Fin 4096 → Fin 16 → Fin 16 → Fin 64 → EReal}
    (hU : ∀ b d, val_main_v39 (F := Ideal) x0 x4 (ix2 b d) = U b d)
    (hR : ∀ b (k l : Fin 16) d, val_main_v74 (F := Ideal) x1 x2 x3 x6 (ix3 b (⟨k.val * 16 + l.val, by omega⟩ : Fin 256) d) = R2 b k l d)
    (b : Fin 4096) (m : Fin 16) (k : Fin 16) :
    val_main_v123 (F := Ideal) x0 x1 x2 x3 x4 x6 (ix3 b m k) = Cert.Spec.weight (U b) (R2 b m) k := by
  rw [val_main_v123_apply, val_main_v122_apply, val_main_v121_apply, idxTotal_nbr, nbr_total hU hR, nbr_lifted hU hR]
  rfl

theorem idxW_nbr (b : Fin 4096) (m : Fin 16) (d : Fin 64) (k : Fin 16) :
    idx_main_v124 (idx_main_v125 (idx_main_v127 (ix3 b m d) k)) = ix3 b m k := by
  funext a; apply Fin.ext; match a with | ⟨0, _⟩ => rfl | ⟨1, _⟩ => rfl | ⟨2, _⟩ => rfl

theorem idxN_nbr (b : Fin 4096) (m : Fin 16) (d : Fin 64) (k : Fin 16) :
    idx_main_v106 (idx_main_v127 (ix3 b m d) k) = ix3 b (⟨m.val * 16 + k.val, by omega⟩ : Fin 256) d := by
  funext a; apply Fin.ext
  have hb := b.isLt; have hk := k.isLt; have hd := d.isLt
  have hm := m.isLt
  match a with
  | ⟨0, _⟩ => show (((b.val * 16 + m.val) * 16 + k.val) * 64 + d.val) / 16384 = b.val; omega
  | ⟨1, _⟩ => show (((b.val * 16 + m.val) * 16 + k.val) * 64 + d.val) / 64 % 256 = m.val * 16 + k.val; omega
  | ⟨2, _⟩ => show (((b.val * 16 + m.val) * 16 + k.val) * 64 + d.val) % 64 = d.val; omega

/-- The entity's vector plus the weighted mean of its neighbours' vectors. -/
theorem nbr_mixed {U : Fin 4096 → Fin 64 → EReal} {R2 : Fin 4096 → Fin 16 → Fin 16 → Fin 64 → EReal} {N1 : Fin 4096 → Fin 16 → Fin 64 → EReal} {N2 : Fin 4096 → Fin 16 → Fin 16 → Fin 64 → EReal}
    (hU : ∀ b d, val_main_v39 (F := Ideal) x0 x4 (ix2 b d) = U b d)
    (hR : ∀ b (k l : Fin 16) d, val_main_v74 (F := Ideal) x1 x2 x3 x6 (ix3 b (⟨k.val * 16 + l.val, by omega⟩ : Fin 256) d) = R2 b k l d)
    (hS : ∀ b k d, val_main_v53 (F := Ideal) x1 x2 x5 (ix3 b k d) = N1 b k d)
    (hN : ∀ b (k l : Fin 16) d, val_main_v60 (F := Ideal) x1 x2 x5 (ix3 b (⟨k.val * 16 + l.val, by omega⟩ : Fin 256) d) = N2 b k l d)
    (b : Fin 4096) (m : Fin 16) (d : Fin 64) :
    val_main_v130 (F := Ideal) x0 x1 x2 x3 x4 x5 x6 (ix3 b m d) = Cert.Spec.mixed (N1 b m) (N2 b m) (R2 b m) (U b) d := by
  rw [val_main_v130_apply, val_main_v129_apply, val_main_v128_apply, val_main_cst_31_apply, val_main_v127_apply, val_main_cst_30_apply, hS]
  simp only [Ideal.addf_def, Ideal.hostDivf_def, Ideal.ofBits_def, Ideal.ofBits_zero_f32, zero_add]
  unfold Cert.Spec.mixed
  refine congrArg (fun s => (N1 b m) d + Ideal.div s _) (Finset.sum_congr rfl fun k _ => ?_)
  rw [val_main_v126_apply, val_main_v125_apply, val_main_v124_apply, val_main_v106_apply, Ideal.mulf_def, idxW_nbr, idxN_nbr, nbr_weight hU hR, hN]

theorem idxL_nbr (b : Fin 4096) (m : Fin 16) (e d : Fin 64) : lidx_main_v131 (ix3 b m e) d = ix3 b m d := by
  funext a; apply Fin.ext; match a with | ⟨0, _⟩ => rfl | ⟨1, _⟩ => rfl | ⟨2, _⟩ => rfl

theorem idxWt_nbr (b : Fin 4096) (m : Fin 16) (e d : Fin 64) : ridx_main_v131 (ix3 b m e) d = ix2 e d := by
  funext a; apply Fin.ext; match a with | ⟨0, _⟩ => rfl | ⟨1, _⟩ => rfl

theorem idxBias_nbr (b : Fin 4096) (m : Fin 16) (e : Fin 64) : idx_main_v132 (idx_main_v133 (ix3 b m e)) = ix1 e := by
  funext a; apply Fin.ext; match a with | ⟨0, _⟩ => rfl

/-- The first layer at depth one, read at one batch entry, one neighbour and one output feature. -/
theorem nbr_hidden {U : Fin 4096 → Fin 64 → EReal} {R2 : Fin 4096 → Fin 16 → Fin 16 → Fin 64 → EReal} {N1 : Fin 4096 → Fin 16 → Fin 64 → EReal} {N2 : Fin 4096 → Fin 16 → Fin 16 → Fin 64 → EReal}
    (hU : ∀ b d, val_main_v39 (F := Ideal) x0 x4 (ix2 b d) = U b d)
    (hR : ∀ b (k l : Fin 16) d, val_main_v74 (F := Ideal) x1 x2 x3 x6 (ix3 b (⟨k.val * 16 + l.val, by omega⟩ : Fin 256) d) = R2 b k l d)
    (hS : ∀ b k d, val_main_v53 (F := Ideal) x1 x2 x5 (ix3 b k d) = N1 b k d)
    (hN : ∀ b (k l : Fin 16) d, val_main_v60 (F := Ideal) x1 x2 x5 (ix3 b (⟨k.val * 16 + l.val, by omega⟩ : Fin 256) d) = N2 b k l d)
    (b : Fin 4096) (m : Fin 16) (e : Fin 64) :
    val_main_v135 (F := Ideal) x0 x1 x2 x3 x4 x5 x6 x7 x8 (ix3 b m e)
      = Cert.Spec.hidden (N1 b m) (N2 b m) (R2 b m) (U b) (fun d e' => x7 (ix2 e' d)) (fun e' => x8 (ix1 e')) e := by
  rw [val_main_v135_apply, val_main_call1_v0_apply, val_main_call1_cst_apply, val_main_v134_apply, val_main_v133_apply, val_main_v132_apply, val_main_v131_apply, idxBias_nbr]
  simp only [Ideal.maximumf_def, Ideal.addf_def, Ideal.ofBits_def]
  unfold Cert.Spec.hidden Cert.Spec.dense
  refine congrArg (fun s => max (s + x8 (ix1 e)) _) (Finset.sum_congr rfl fun d _ => ?_)
  rw [idxL_nbr, idxWt_nbr, nbr_mixed hU hR hS hN]

end Cert.RefLayers

end
-- ==== Proof.RefScore.lean ====
/-
  THE REFERENCE PROGRAM'S SECOND AGGREGATION LAYER AND THE SCORE, read at one batch entry.

  The second layer aggregates the item's first-layer output `H0` with its sixteen neighbours' first-layer outputs `H1`
  under the relations `R1`, with the second weight array and bias and `tanh` in place of the cut-off at zero. The score
  is the inner product of the user's vector with that output, passed through one over one plus the exponential of the
  negation: by definition the logistic function, the two words of 1.0 being the number one. The two first-layer
  outputs enter as hypotheses at an index.
-/
import proofs.«158850_j22935125360845_2_alg».proof.Proof.Gen.ReferenceIdeal.Read
import proofs.«158850_j22935125360845_2_alg».proof.Proof.Spec
import Idealize.ShloMosaic.Lib.IdealHost

noncomputable section

open scoped BigOperators

namespace Cert.RefLayers

open Cert.ReferenceIdeal Cert.ReferenceIdeal.Read Idealize.ShloMosaic Idealize.ShloMosaic.ValueIdx

variable {x0 x1 : (⟨S4096, .i32⟩ : BufTy).Contents (Elt Ideal)} {x2 x3 : (⟨S100000x16, .i32⟩ : BufTy).Contents (Elt Ideal)}
  {x4 x5 : (⟨S100000x64, .f32⟩ : BufTy).Contents (Elt Ideal)} {x6 : (⟨S33x64, .f32⟩ : BufTy).Contents (Elt Ideal)}
  {x7 : (⟨S64x64, .f32⟩ : BufTy).Contents (Elt Ideal)} {x8 : (⟨S64, .f32⟩ : BufTy).Contents (Elt Ideal)}
  {x9 : (⟨S64x64, .f32⟩ : BufTy).Contents (Elt Ideal)} {x10 : (⟨S64, .f32⟩ : BufTy).Contents (Elt Ideal)}

/-- From a starting value the larger of it and a running maximum begun at it is the running maximum. -/
private theorem max_fold_self {ι : Type} (s : Finset ι) (c : EReal) (f : ι → EReal) :
    FloatOps.maximumf (F := Ideal) (φ := .f32) c (Finset.fold (FloatOps.maximumf (F := Ideal) (φ := .f32)) c f s)
      = Finset.fold max c f s := by
  show max c (Finset.fold max c f s) = _
  exact max_eq_right ((Finset.le_fold_max c).2 (Or.inl le_rfl))

/-! ## The second layer: the item's first-layer output with its neighbours' first-layer outputs, and the score -/

theorem idxU_top (b : Fin 4096) (k : Fin 16) (d : Fin 64) :
    idx_main_v75 (idx_main_v138 (idx_main_v140 (ix3 b (0 : Fin 1) k) d)) = ix2 b d := by
  funext a; apply Fin.ext; match a with | ⟨0, _⟩ => rfl | ⟨1, _⟩ => rfl

theorem idxR_top (b : Fin 4096) (k : Fin 16) (d : Fin 64) :
    idx_main_v137 (idx_main_v140 (ix3 b (0 : Fin 1) k) d) = ix3 b k d := by
  funext a; apply Fin.ext
  have hb := b.isLt; have hk := k.isLt; have hd := d.isLt
  match a with
  | ⟨0, _⟩ => show (((b.val * 1 + 0) * 16 + k.val) * 64 + d.val) / 1024 = b.val; omega
  | ⟨1, _⟩ => show (((b.val * 1 + 0) * 16 + k.val) * 64 + d.val) / 64 % 16 = k.val; omega
  | ⟨2, _⟩ => show (((b.val * 1 + 0) * 16 + k.val) * 64 + d.val) % 64 = d.val; omega

/-- The attention logit of one neighbour: the mean over the features of user times relation. -/
theorem top_logit {U : Fin 4096 → Fin 64 → EReal} {R1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (b : Fin 4096) (k : Fin 16) :
    val_main_v142 (F := Ideal) x0 x1 x3 x4 x6 (ix3 b 0 k) = Cert.Spec.logit (U b) (R1 b) k := by
  rw [val_main_v142_apply, val_main_v141_apply, val_main_cst_33_apply, val_main_v140_apply, val_main_cst_32_apply]
  simp only [Ideal.hostDivf_def, Ideal.ofBits_def, Ideal.ofBits_zero_f32, zero_add]
  unfold Cert.Spec.logit
  refine congrArg (fun s => Ideal.div s _) (Finset.sum_congr rfl fun d _ => ?_)
  rw [val_main_v139_apply, val_main_v138_apply, val_main_v75_apply, val_main_v137_apply, Ideal.mulf_def, idxU_top, idxR_top, hU, hR]

/-- A reduced index with the last coordinate put back. -/
theorem lift_top (h : S4096x1x16.Reduces [2] S4096x1) (b : Fin 4096) (k : Fin (S4096x1x16.size 2)) :
    h.lift (ix2 b (0 : Fin 1)) k = ix3 b 0 (⟨k.val, k.isLt⟩ : Fin 16) := by
  funext c; apply Fin.ext
  fin_cases c <;> rfl

/-- The running maximum over the put-back coordinates is the one over the row's sixteen entries. -/
theorem fold_lift_top (h : S4096x1x16.Reduces [2] S4096x1) (c : EReal) (g : S4096x1x16.Idx → EReal) (b : Fin 4096) :
    Finset.fold max c (g ∘ h.lift (ix2 b (0 : Fin 1))) (Finset.univ : Finset (Fin (S4096x1x16.size 2)))
      = Finset.fold max c (fun k : Fin 16 => g (ix3 b 0 k)) Finset.univ := by
  have hf : (g ∘ h.lift (ix2 b (0 : Fin 1))) = fun k : Fin 16 => g (ix3 b 0 k) := funext fun k => congrArg g (lift_top h b k)
  exact congrArg (fun f => Finset.fold max c f (Finset.univ : Finset (Fin 16))) hf

/-- The row's largest logit: the program's maximum against the starting word changes nothing, since a running maximum
    is at least the value it starts from. -/
theorem top_peak {U : Fin 4096 → Fin 64 → EReal} {R1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (b : Fin 4096) :
    val_main_v145 (F := Ideal) x0 x1 x3 x4 x6 (ix2 b 0) = Cert.Spec.peak (U b) (R1 b) := by
  rw [val_main_v145_apply, val_main_v144_apply, val_main_cst_35_apply]
  unfold val_main_v143
  rw [Host.reduce_eq_fold_single FloatOps.maximumf _ _ _ (by decide) _]
  rw [val_main_cst_34_apply]
  refine (max_fold_self _ _ _).trans ?_
  refine (fold_lift_top _ _ _ b).trans ?_
  unfold Cert.Spec.peak
  simp only [Ideal.ofBits_def]
  exact Finset.fold_congr fun k _ => top_logit hU hR b k

theorem idxPeak_top (b : Fin 4096) (k : Fin 16) :
    idx_main_v146 (idx_main_v147 (ix3 b (0 : Fin 1) k)) = ix2 b 0 := by
  funext a; apply Fin.ext; match a with | ⟨0, _⟩ => rfl | ⟨1, _⟩ => rfl

/-- The exponential of a logit shifted by the row's largest. -/
theorem top_lifted {U : Fin 4096 → Fin 64 → EReal} {R1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (b : Fin 4096) (k : Fin 16) :
    val_main_v149 (F := Ideal) x0 x1 x3 x4 x6 (ix3 b 0 k) = Cert.Spec.lifted (U b) (R1 b) k := by
  rw [val_main_v149_apply, val_main_v148_apply, val_main_v147_apply, val_main_v146_apply, idxPeak_top, top_peak hU hR, top_logit hU hR]
  rfl

theorem idxRow_top (b : Fin 4096) (l : Fin 16) : idx_main_v150 (ix2 b (0 : Fin 1)) l = ix3 b 0 l := by
  funext a; apply Fin.ext; match a with | ⟨0, _⟩ => rfl | ⟨1, _⟩ => rfl | ⟨2, _⟩ => rfl

/-- The softmax denominator: the host sum starts from the zero word. -/
theorem top_total {U : Fin 4096 → Fin 64 → EReal} {R1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (b : Fin 4096) :
    val_main_v150 (F := Ideal) x0 x1 x3 x4 x6 (ix2 b 0) = ∑ l : Fin 16, Cert.Spec.lifted (U b) (R1 b) l := by
  rw [val_main_v150_apply, val_main_cst_36_apply]
  simp only [Ideal.ofBits_def, Ideal.ofBits_zero_f32, zero_add]
  refine Finset.sum_congr rfl fun l _ => ?_
  rw [idxRow_top, top_lifted hU hR]

theorem idxTotal_top (b : Fin 4096) (k : Fin 16) :
    idx_main_v151 (idx_main_v152 (ix3 b (0 : Fin 1) k)) = ix2 b 0 := by
  funext a; apply Fin.ext; match a with | ⟨0, _⟩ => rfl | ⟨1, _⟩ => rfl

/-- The softmax weight of one neighbour. -/
theorem top_weight {U : Fin 4096 → Fin 64 → EReal} {R1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (b : Fin 4096) (k : Fin 16) :
    val_main_v153 (F := Ideal) x0 x1 x3 x4 x6 (ix3 b 0 k) = Cert.Spec.weight (U b) (R1 b) k := by
  rw [val_main_v153_apply, val_main_v152_apply, val_main_v151_apply, idxTotal_top, top_total hU hR, top_lifted hU hR]
  rfl

theorem idxW_top (b : Fin 4096) (d : Fin 64) (k : Fin 16) :
    idx_main_v154 (idx_main_v155 (idx_main_v157 (ix3 b (0 : Fin 1) d) k)) = ix3 b 0 k := by
  funext a; apply Fin.ext; match a with | ⟨0, _⟩ => rfl | ⟨1, _⟩ => rfl | ⟨2, _⟩ => rfl

theorem idxN_top (b : Fin 4096) (d : Fin 64) (k : Fin 16) :
    idx_main_v136 (idx_main_v157 (ix3 b (0 : Fin 1) d) k) = ix3 b k d := by
  funext a; apply Fin.ext
  have hb := b.isLt; have hk := k.isLt; have hd := d.isLt
  match a with
  | ⟨0, _⟩ => show (((b.val * 1 + 0) * 16 + k.val) * 64 + d.val) / 1024 = b.val; omega
  | ⟨1, _⟩ => show (((b.val * 1 + 0) * 16 + k.val) * 64 + d.val) / 64 % 16 = k.val; omega
  | ⟨2, _⟩ => show (((b.val * 1 + 0) * 16 + k.val) * 64 + d.val) % 64 = d.val; omega

/-- The entity's vector plus the weighted mean of its neighbours' vectors. -/
theorem top_mixed {U : Fin 4096 → Fin 64 → EReal} {R1 : Fin 4096 → Fin 16 → Fin 64 → EReal} {H0 : Fin 4096 → Fin 64 → EReal} {H1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (hS : ∀ b d, val_main_v105 (F := Ideal) x0 x1 x2 x3 x4 x5 x6 x7 x8 (ix3 b 0 d) = H0 b d)
    (hN : ∀ b k d, val_main_v135 (F := Ideal) x0 x1 x2 x3 x4 x5 x6 x7 x8 (ix3 b k d) = H1 b k d)
    (b : Fin 4096) (d : Fin 64) :
    val_main_v160 (F := Ideal) x0 x1 x2 x3 x4 x5 x6 x7 x8 (ix3 b 0 d) = Cert.Spec.mixed (H0 b) (H1 b) (R1 b) (U b) d := by
  rw [val_main_v160_apply, val_main_v159_apply, val_main_v158_apply, val_main_cst_38_apply, val_main_v157_apply, val_main_cst_37_apply, hS]
  simp only [Ideal.addf_def, Ideal.hostDivf_def, Ideal.ofBits_def, Ideal.ofBits_zero_f32, zero_add]
  unfold Cert.Spec.mixed
  refine congrArg (fun s => (H0 b) d + Ideal.div s _) (Finset.sum_congr rfl fun k _ => ?_)
  rw [val_main_v156_apply, val_main_v155_apply, val_main_v154_apply, val_main_v136_apply, Ideal.mulf_def, idxW_top, idxN_top, top_weight hU hR, hN]

theorem idxL_top (b : Fin 4096) (e d : Fin 64) : lidx_main_v161 (ix3 b (0 : Fin 1) e) d = ix3 b 0 d := by
  funext a; apply Fin.ext; match a with | ⟨0, _⟩ => rfl | ⟨1, _⟩ => rfl | ⟨2, _⟩ => rfl

theorem idxWt_top (b : Fin 4096) (e d : Fin 64) : ridx_main_v161 (ix3 b (0 : Fin 1) e) d = ix2 e d := by
  funext a; apply Fin.ext; match a with | ⟨0, _⟩ => rfl | ⟨1, _⟩ => rfl

theorem idxBias_top (b : Fin 4096) (e : Fin 64) : idx_main_v162 (idx_main_v163 (ix3 b (0 : Fin 1) e)) = ix1 e := by
  funext a; apply Fin.ext; match a with | ⟨0, _⟩ => rfl

/-- The second layer's output feature: `tanh` of the linear layer of the mixed vector. -/
theorem top_out {U : Fin 4096 → Fin 64 → EReal} {R1 : Fin 4096 → Fin 16 → Fin 64 → EReal} {H0 : Fin 4096 → Fin 64 → EReal} {H1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (hS : ∀ b d, val_main_v105 (F := Ideal) x0 x1 x2 x3 x4 x5 x6 x7 x8 (ix3 b 0 d) = H0 b d)
    (hN : ∀ b k d, val_main_v135 (F := Ideal) x0 x1 x2 x3 x4 x5 x6 x7 x8 (ix3 b k d) = H1 b k d)
    (b : Fin 4096) (e : Fin 64) :
    val_main_v165 (F := Ideal) x0 x1 x2 x3 x4 x5 x6 x7 x8 x9 x10 (ix3 b 0 e)
      = Ideal.tanh (Cert.Spec.dense (Cert.Spec.mixed (H0 b) (H1 b) (R1 b) (U b)) (fun d e' => x9 (ix2 e' d)) (fun e' => x10 (ix1 e')) e) := by
  rw [val_main_v165_apply, val_main_v164_apply, val_main_v163_apply, val_main_v162_apply, val_main_v161_apply, idxBias_top]
  simp only [Ideal.hostUnary_tanh_def, Ideal.addf_def]
  unfold Cert.Spec.dense
  refine congrArg (fun s => Ideal.tanh (s + x10 (ix1 e))) (Finset.sum_congr rfl fun d _ => ?_)
  rw [idxL_top, idxWt_top, top_mixed hU hR hS hN]

theorem idxUe_top (b : Fin 4096) (e : Fin 64) : idx_main_v168 (ix1 b) e = ix2 b e := by
  funext a; apply Fin.ext; match a with | ⟨0, _⟩ => rfl | ⟨1, _⟩ => rfl

theorem idxOut_top (b : Fin 4096) (e : Fin 64) : idx_main_v166 (ix2 b e) = ix3 b 0 e := by
  funext a; apply Fin.ext
  have hb := b.isLt; have he := e.isLt
  match a with
  | ⟨0, _⟩ => show (b.val * 64 + e.val) / 64 = b.val; omega
  | ⟨1, _⟩ => rfl
  | ⟨2, _⟩ => show (b.val * 64 + e.val) % 64 = e.val; omega

/-- The score of one batch entry: the program's quotient of one by one plus the exponential of the negated inner
    product is the logistic function, and its two one-words are the number one. -/
theorem score_at {U : Fin 4096 → Fin 64 → EReal} {R1 : Fin 4096 → Fin 16 → Fin 64 → EReal} {H0 : Fin 4096 → Fin 64 → EReal} {H1 : Fin 4096 → Fin 16 → Fin 64 → EReal}
    (hU : ∀ b d, val_main_v39 (F := Ideal) x0 x4 (ix2 b d) = U b d)
    (hR : ∀ b k d, val_main_v67 (F := Ideal) x1 x3 x6 (ix3 b k d) = R1 b k d)
    (hS : ∀ b d, val_main_v105 (F := Ideal) x0 x1 x2 x3 x4 x5 x6 x7 x8 (ix3 b 0 d) = H0 b d)
    (hN : ∀ b k d, val_main_v135 (F := Ideal) x0 x1 x2 x3 x4 x5 x6 x7 x8 (ix3 b k d) = H1 b k d)
    (b : Fin 4096) :
    val_main_v174 (F := Ideal) x0 x1 x2 x3 x4 x5 x6 x7 x8 x9 x10 (ix1 b)
      = Cert.Spec.score (H0 b) (H1 b) (R1 b) (U b) (fun d e' => x9 (ix2 e' d)) (fun e' => x10 (ix1 e')) := by
  rw [val_main_v174_apply, val_main_v173_apply, val_main_cst_41_apply, val_main_v172_apply, val_main_v171_apply, val_main_cst_40_apply,
    val_main_v170_apply, val_main_v169_apply, val_main_v168_apply, val_main_cst_39_apply]
  simp only [Ideal.hostDivf_def, Ideal.addf_def, Ideal.hostUnary_exp_def, Ideal.hostNegf_def, Ideal.negf_def, Ideal.ofBits_def,
    Ideal.ofBits_zero_f32, Ideal.ofBits_one_f32, zero_add]
  unfold Cert.Spec.score Ideal.logistic
  refine congrArg (fun s => Ideal.div 1 (1 + Ideal.exp (-s))) (Finset.sum_congr rfl fun e _ => ?_)
  rw [val_main_v167_apply, val_main_v166_apply, Ideal.mulf_def, idxUe_top, idxOut_top, hU, top_out hU hR hS hN]

end Cert.RefLayers

end
-- ==== Proof.RefLayers.lean ====
/-
  THE REFERENCE PROGRAM AT ONE BATCH ENTRY, from its six looked-up embedding arrays.

  The three aggregation layers chained: the first layer at depth zero and at depth one give the two inputs of the
  second layer, whose output against the user's vector gives the score. The looked-up arrays enter as hypotheses at
  an index.
-/
import proofs.«158850_j22935125360845_2_alg».proof.Proof.RefLayerItem
import proofs.«158850_j22935125360845_2_alg».proof.Proof.RefLayerNbr
import proofs.«158850_j22935125360845_2_alg».proof.Proof.RefScore

noncomputable section

open scoped BigOperators

namespace Cert.RefLayers

open Cert.ReferenceIdeal Cert.ReferenceIdeal.Read Idealize.ShloMosaic Idealize.ShloMosaic.ValueIdx

/-- The reference's result at batch entry `b` is the common function's score of the two first-layer outputs. -/
theorem result_at (x0 x1 : (⟨S4096, .i32⟩ : BufTy).Contents (Elt Ideal)) (x2 x3 : (⟨S100000x16, .i32⟩ : BufTy).Contents (Elt Ideal))
    (x4 x5 : (⟨S100000x64, .f32⟩ : BufTy).Contents (Elt Ideal)) (x6 : (⟨S33x64, .f32⟩ : BufTy).Contents (Elt Ideal))
    (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal))
    (U I0 : Fin 4096 → Fin 64 → EReal) (N1 R1 : Fin 4096 → Fin 16 → Fin 64 → EReal) (N2 R2 : Fin 4096 → Fin 16 → Fin 16 → Fin 64 → EReal)
    (hU : ∀ b d, val_main_v39 (F := Ideal) x0 x4 (ix2 b d) = U b d)
    (hI : ∀ b d, val_main_v46 (F := Ideal) x1 x5 (ix3 b 0 d) = I0 b d)
    (hN1 : ∀ b k d, val_main_v53 (F := Ideal) x1 x2 x5 (ix3 b k d) = N1 b k d)
    (hN2 : ∀ b (k l : Fin 16) d, val_main_v60 (F := Ideal) x1 x2 x5 (ix3 b (⟨k.val * 16 + l.val, by omega⟩ : Fin 256) d) = N2 b k l d)
    (hR1 : ∀ b k d, val_main_v67 (F := Ideal) x1 x3 x6 (ix3 b k d) = R1 b k d)
    (hR2 : ∀ b (k l : Fin 16) d, val_main_v74 (F := Ideal) x1 x2 x3 x6 (ix3 b (⟨k.val * 16 + l.val, by omega⟩ : Fin 256) d) = R2 b k l d)
    (b : Fin 4096) :
    val_main_v174 (F := Ideal) x0 x1 x2 x3 x4 x5 x6 x7 x8 x9 x10 (ix1 b)
      = Cert.Spec.score
          (fun e => Cert.Spec.hidden (I0 b) (N1 b) (R1 b) (U b) (fun d e' => x7 (ix2 e' d)) (fun e' => x8 (ix1 e')) e)
          (fun k e => Cert.Spec.hidden (N1 b k) (N2 b k) (R2 b k) (U b) (fun d e' => x7 (ix2 e' d)) (fun e' => x8 (ix1 e')) e)
          (R1 b) (U b) (fun d e' => x9 (ix2 e' d)) (fun e' => x10 (ix1 e')) :=
  score_at
    (H0 := fun b e => Cert.Spec.hidden (I0 b) (N1 b) (R1 b) (U b) (fun d e' => x7 (ix2 e' d)) (fun e' => x8 (ix1 e')) e)
    (H1 := fun b k e => Cert.Spec.hidden (N1 b k) (N2 b k) (R2 b k) (U b) (fun d e' => x7 (ix2 e' d)) (fun e' => x8 (ix1 e')) e)
    hU hR1 (fun b d => item_hidden hU hR1 hI hN1 b d) (fun b k d => nbr_hidden hU hR2 hN1 hN2 b k d) b

end Cert.RefLayers

end
-- ==== Proof.RefResult.lean ====
/-
  THE REFERENCE PROGRAM'S RESULT, entry by entry, is the common function of the argument arrays: its six
  looked-up embedding arrays are the common function's tables, and its three aggregation layers and final score,
  over any such tables, are the common function's layers and score.
-/
import proofs.«158850_j22935125360845_2_alg».proof.Proof.RefTables
import proofs.«158850_j22935125360845_2_alg».proof.Proof.RefLayers

noncomputable section

namespace Cert.RefResult

open Cert.ReferenceIdeal Cert.ReferenceIdeal.Read Idealize.ShloMosaic Idealize.ShloMosaic.ValueIdx

theorem result_at (x0 x1 : (⟨S4096, .i32⟩ : BufTy).Contents (Elt Ideal)) (x2 x3 : (⟨S100000x16, .i32⟩ : BufTy).Contents (Elt Ideal))
    (x4 x5 : (⟨S100000x64, .f32⟩ : BufTy).Contents (Elt Ideal)) (x6 : (⟨S33x64, .f32⟩ : BufTy).Contents (Elt Ideal))
    (x7 : (⟨S64x64, .f32⟩ : BufTy).Contents (Elt Ideal)) (x8 : (⟨S64, .f32⟩ : BufTy).Contents (Elt Ideal))
    (x9 : (⟨S64x64, .f32⟩ : BufTy).Contents (Elt Ideal)) (x10 : (⟨S64, .f32⟩ : BufTy).Contents (Elt Ideal)) (b : Fin 4096) :
    val_main_v174 (F := Ideal) x0 x1 x2 x3 x4 x5 x6 x7 x8 x9 x10 (ix1 b) = Cert.Spec.result x0 x1 x2 x3 x4 x5 x6 x7 x8 x9 x10 b :=
  Cert.RefLayers.result_at x0 x1 x2 x3 x4 x5 x6 x7 x8 x9 x10
    (Cert.Spec.userVec x0 x4) (Cert.Spec.itemVec x1 x5) (Cert.Spec.nbr1Vec x1 x2 x5) (Cert.Spec.rel1Vec x1 x3 x6)
    (Cert.Spec.nbr2Vec x1 x2 x5) (Cert.Spec.rel2Vec x1 x2 x3 x6)
    (Cert.RefTables.user_at x0 x4) (Cert.RefTables.item_at x1 x5) (Cert.RefTables.nbr1_at x1 x2 x5)
    (Cert.RefTables.nbr2_at x1 x2 x5) (Cert.RefTables.rel1_at x1 x3 x6) (Cert.RefTables.rel2_at x1 x2 x3 x6) b

end Cert.RefResult

end
-- ==== Proof.lean ====
/- The proof of `Cert.Claim`: the two programs compute one function.

   Both programs score 4096 (user, item) pairs with a two-layer neighbourhood aggregation over a knowledge graph
   (`Cert.Spec.result`, Proof/Spec.lean). The kernel program looks the embeddings up on the host, runs the two
   first-layer aggregations and the second layer with the score as three tiled regions, and its result array is
   that function entry by entry (Proof/KernelValue.lean, over the run with the result named, Proof/KernelRun.lean).
   The reference computes the same on the host, and its generated run read one operation at a time is that function
   too (Proof/RefResult.lean). At the ideal instance no law beyond the layout of the arrays joins the two sides: the
   operations agree one by one, so the precondition is never opened. The word-level kernel's and the idealized
   kernel's frames are the launch theorem over the generated segments; the reference's frame is its generated run
   with the result dropped; the idealization rewrote no operation. -/
import proofs.«158850_j22935125360845_2_alg».proof.Defs
import proofs.«158850_j22935125360845_2_alg».proof.Proof.Gen.Kernel
import proofs.«158850_j22935125360845_2_alg».proof.Proof.Gen.KernelIdeal
import proofs.«158850_j22935125360845_2_alg».proof.Proof.Gen.ReferenceIdeal
import proofs.«158850_j22935125360845_2_alg».proof.Proof.Gen.Pre_finite_inputs
import proofs.«158850_j22935125360845_2_alg».proof.Proof.Gen.ReferenceIdeal.Run
import proofs.«158850_j22935125360845_2_alg».proof.Proof.Gen.ReferenceIdeal.Read
import proofs.«158850_j22935125360845_2_alg».proof.Proof.KernelFrame
import proofs.«158850_j22935125360845_2_alg».proof.Proof.KernelIdealFrame
import proofs.«158850_j22935125360845_2_alg».proof.Proof.KernelRun
import proofs.«158850_j22935125360845_2_alg».proof.Proof.KernelValue
import proofs.«158850_j22935125360845_2_alg».proof.Proof.RefResult
import Idealize.ShloMosaic.Adequacy
import Idealize.ShloMosaic.Init

noncomputable section

namespace Cert.Proof

open Idealize.ShloMosaic Idealize.SL.Sem Idealize.ShloMosaic.ValueIdx

/-- The result array of device `c`: the common function of the kernel program's argument arrays. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v92) :=
  fun i => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (i 0)

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories agreeing on the arguments, both programs end with the common function's array. -/
theorem algebraic : Cert.algebraic_KernelIdeal_ReferenceIdeal := by
  intro m ρ m' ρ' _ hagree
  refine ⟨fun c => common m c, ?_, ?_⟩
  · exact (θ_run Cert.KernelIdeal.defs _ _).mono (fun r h c => ⟨(h c).1.trans (funext fun i =>
        (congrArg _ (eq_ix1 i)).trans (Cert.KernelValue.result_at m ρ c (i 0))), (h c).2⟩) (Cert.KernelRun.run_result m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10⟩ := hagree c
    rw [(h c).1, Cert.ReferenceIdeal.Read.val_main_v174_eq, h0, h1, h2, h3, h4, h5, h6, h7, h8, h9, h10]
    exact funext fun i => (congrArg _ (eq_ix1 i)).trans (Cert.RefResult.result_at _ _ _ _ _ _ _ _ _ _ _ (i 0))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
